-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S196608x8x3 : Shape := ⟨3, ![196608, 8, 3]⟩
abbrev S48x128 : Shape := ⟨2, ![48, 128]⟩
abbrev S1x128 : Shape := ⟨2, ![1, 128]⟩
abbrev S128x32 : Shape := ⟨2, ![128, 32]⟩
abbrev S1x32 : Shape := ⟨2, ![1, 32]⟩
abbrev S32x16 : Shape := ⟨2, ![32, 16]⟩
abbrev S1x16 : Shape := ⟨2, ![1, 16]⟩
abbrev S16x1 : Shape := ⟨2, ![16, 1]⟩
abbrev S1x1 : Shape := ⟨2, ![1, 1]⟩
abbrev S_ : Shape := ⟨0, ![]⟩

class Facts : Prop where
  bcast_S_S196608x8x3 : S_.BroadcastsInDim S196608x8x3 (![] : Fin 0 → Fin S196608x8x3.rank)
  reducesTo_S196608x8x3_S_d0_1_2 : S196608x8x3.ReducesTo [0, 1, 2] S_
  h_S_ : 0 < S_.numel
  bcast_S_S48x128 : S_.BroadcastsInDim S48x128 (![] : Fin 0 → Fin S48x128.rank)
  reducesTo_S48x128_S_d0_1 : S48x128.ReducesTo [0, 1] S_
  bcast_S_S1x128 : S_.BroadcastsInDim S1x128 (![] : Fin 0 → Fin S1x128.rank)
  reducesTo_S1x128_S_d0_1 : S1x128.ReducesTo [0, 1] S_
  bcast_S_S128x32 : S_.BroadcastsInDim S128x32 (![] : Fin 0 → Fin S128x32.rank)
  reducesTo_S128x32_S_d0_1 : S128x32.ReducesTo [0, 1] S_
  bcast_S_S1x32 : S_.BroadcastsInDim S1x32 (![] : Fin 0 → Fin S1x32.rank)
  reducesTo_S1x32_S_d0_1 : S1x32.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_
  bcast_S_S16x1 : S_.BroadcastsInDim S16x1 (![] : Fin 0 → Fin S16x1.rank)
  reducesTo_S16x1_S_d0_1 : S16x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S1x16 .f32) (main_arg8 : FVec F S16x1 .f32) (main_arg9 : FVec F S1x1 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  main_v48

def fn_part1 {F : FTy → Type} [FloatOps F] (main_arg4 : FVec F S128x32 .f32) (main_arg5 : FVec F S1x32 .f32) (main_arg6 : FVec F S32x16 .f32) (main_arg7 : FVec F S1x16 .f32) (main_arg8 : FVec F S16x1 .f32) (main_arg9 : FVec F S1x1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S196608x8x3 .f32) (main_arg1 : FVec F S196608x8x3 .f32) (main_arg2 : FVec F S48x128 .f32) (main_arg3 : FVec F S1x128 .f32) (main_arg4 : FVec F S128x32 .f32) (main_arg5 : FVec F S1x32 .f32) (main_arg6 : FVec F S32x16 .f32) (main_arg7 : FVec F S1x16 .f32) (main_arg8 : FVec F S16x1 .f32) (main_arg9 : FVec F S1x1 .f32) : IVec S_ 1 :=
  let main_v0 : FVec F S196608x8x3 .f32 := Host.absf main_arg0
  let main_cst : FVec F S_ .f32 := constant S_ .f32 0x7F800000#32
  let main_v1 : FVec F S196608x8x3 .f32 := broadcastInDim S196608x8x3 ![] bcast_S_S196608x8x3 main_cst
  let main_v2 : IVec S196608x8x3 1 := cmpf .olt main_v0 main_v1
  let main_c : IVec S_ 1 := constantI S_ 1 1#1
  let main_v3 : IVec S_ 1 := (fun x v => Host.reduce IntOp.andi x v reducesTo_S196608x8x3_S_d0_1_2 h_S_) main_v2 main_c
  let main_v4 : FVec F S196608x8x3 .f32 := Host.absf main_arg1
  let main_cst_0 : FVec F S_ .f32 := constant S_ .f32 0x7F800000#32
  let main_v5 : FVec F S196608x8x3 .f32 := broadcastInDim S196608x8x3 ![] bcast_S_S196608x8x3 main_cst_0
  let main_v6 : IVec S196608x8x3 1 := cmpf .olt main_v4 main_v5
  let main_c_1 : IVec S_ 1 := constantI S_ 1 1#1
  let main_v7 : IVec S_ 1 := (fun x v => Host.reduce IntOp.andi x v reducesTo_S196608x8x3_S_d0_1_2 h_S_) main_v6 main_c_1
  let main_v8 : IVec S_ 1 := andi main_v3 main_v7
  let main_v9 : FVec F S48x128 .f32 := Host.absf main_arg2
  let main_cst_2 : FVec F S_ .f32 := constant S_ .f32 0x7F800000#32
  let main_v10 : FVec F S48x128 .f32 := broadcastInDim S48x128 ![] bcast_S_S48x128 main_cst_2
  let main_v11 : IVec S48x128 1 := cmpf .olt main_v9 main_v10
  let main_c_3 : IVec S_ 1 := constantI S_ 1 1#1
  let main_v12 : IVec S_ 1 := (fun x v => Host.reduce IntOp.andi x v reducesTo_S48x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_v13 main_v16
-- ==== Kernel.lean ====
abbrev S196608x8x3 : Shape := ⟨3, ![196608, 8, 3]⟩
abbrev S48x128 : Shape := ⟨2, ![48, 128]⟩
abbrev S1x128 : Shape := ⟨2, ![1, 128]⟩
abbrev S128x32 : Shape := ⟨2, ![128, 32]⟩
abbrev S1x32 : Shape := ⟨2, ![1, 32]⟩
abbrev S32x16 : Shape := ⟨2, ![32, 16]⟩
abbrev S1x16 : Shape := ⟨2, ![1, 16]⟩
abbrev S16x1 : Shape := ⟨2, ![16, 1]⟩
abbrev S1x1 : Shape := ⟨2, ![1, 1]⟩
abbrev S8x3x196608 : Shape := ⟨3, ![8, 3, 196608]⟩
abbrev S24x196608 : Shape := ⟨2, ![24, 196608]⟩
abbrev S128x48 : Shape := ⟨2, ![128, 48]⟩
abbrev S_ : Shape := ⟨0, ![]⟩
abbrev S128x1 : Shape := ⟨2, ![128, 1]⟩
abbrev S32x128 : Shape := ⟨2, ![32, 128]⟩
abbrev S32x1 : Shape := ⟨2, ![32, 1]⟩
abbrev S32 : Shape := ⟨1, ![32]⟩
abbrev S16x32 : Shape := ⟨2, ![16, 32]⟩
abbrev S16 : Shape := ⟨1, ![16]⟩
abbrev S1 : Shape := ⟨1, ![1]⟩
abbrev S8x16 : Shape := ⟨2, ![8, 16]⟩
abbrev S8x1 : Shape := ⟨2, ![8, 1]⟩
abbrev S1x196608 : Shape := ⟨2, ![1, 196608]⟩
abbrev S24x16384 : Shape := ⟨2, ![24, 16384]⟩
abbrev S1x16384 : Shape := ⟨2, ![1, 16384]⟩
abbrev S48x16384 : Shape := ⟨2, ![48, 16384]⟩
abbrev S128x16384 : Shape := ⟨2, ![128, 16384]⟩
abbrev S32x16384 : Shape := ⟨2, ![32, 16384]⟩
abbrev S16x16384 : Shape := ⟨2, ![16, 16384]⟩
abbrev S8x16384 : Shape := ⟨2, ![8, 16384]⟩
abbrev S196608 : Shape := ⟨1, ![196608]⟩
abbrev S196608x1 : Shape := ⟨2, ![196608, 1]⟩

abbrev nBuf : Space → Nat
  | .hbm => 79
  | .vmem => 14
  | .smem => 0
  | _ => 0

abbrev bufTy : (tb : Table) → Fin (tcTables nBuf tb) → BufTy
  | .hbm, ⟨0, _⟩ => ⟨S196608x8x3, .f32⟩
  | .hbm, ⟨1, _⟩ => ⟨S196608x8x3, .f32⟩
  | .hbm, ⟨2, _⟩ => ⟨S48x128, .f32⟩
  | .hbm, ⟨3, _⟩ => ⟨S1x128, .f32⟩
  | .hbm, ⟨4, _⟩ => ⟨S128x32, .f32⟩
  | .hbm, ⟨5, _⟩ => ⟨S1x32, .f32⟩
  | .hbm, ⟨6, _⟩ => ⟨S32x16, .f32⟩
  | .hbm, ⟨7, _⟩ => ⟨S1x16, .f32⟩
  | .hbm, ⟨8, _⟩ => ⟨S16x1, .f32⟩
  | .hbm, ⟨9, _⟩ => ⟨S1x1, .f32⟩
  | .hbm, ⟨10, _⟩ => ⟨S8x3x196608, .f32⟩
  | .hbm, ⟨11, _⟩ => ⟨S24x196608, .f32⟩
  | .hbm, ⟨12, _⟩ => ⟨S8x3x196608, .f32⟩
  | .hbm, ⟨13, _⟩ => ⟨S24x196608, .f32⟩
  | .hbm, ⟨14, _⟩ => ⟨S128x48, .f32⟩
  | .hbm, ⟨15, _⟩ => ⟨S_, .f32⟩
  | .hbm, ⟨16, _⟩ => ⟨S128x48, .f32⟩
  | .hbm, ⟨17, _⟩ => ⟨S128x48, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S32x128, .f32⟩
  | .hbm, ⟨23, _⟩ => ⟨S32x1, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S16x32, .f32⟩
  | .hbm, ⟨38, _⟩ => ⟨S16x1, .f32⟩
  | .hbm, ⟨39, _⟩ => ⟨S_, .f32⟩
  | .hbm, ⟨40, _⟩ => ⟨S16x32, .f32⟩
  | .hbm, ⟨41, _⟩ => ⟨S16x32, .f32⟩
  | .hbm, ⟨42, _⟩ => ⟨S_, .f32⟩
  | .hbm, ⟨43, _⟩ => ⟨S16, .f32⟩
  | .hbm, ⟨44, _⟩ => ⟨S16x1, .f32⟩
  | .hbm, ⟨45, _⟩ => ⟨S_, .f32⟩
  | .hbm, ⟨46, _⟩ => ⟨S16x1, .f32⟩
  | .hbm, ⟨47, _⟩ => ⟨S16x1, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S1x16, .f32⟩
  | .hbm, ⟨53, _⟩ => ⟨S_, .f32⟩
  | .hbm, ⟨54, _⟩ => ⟨S1x16, .f32⟩
  | .hbm, ⟨55, _⟩ => ⟨S1x16, .f32⟩
  | .hbm, ⟨56, _⟩ => ⟨S_, .f32⟩
  | .hbm, ⟨57, _⟩ => ⟨S1, .f32⟩
  | .hbm, ⟨58, _⟩ => ⟨S1x1, .f32⟩
  | .hbm, ⟨59, _⟩ => ⟨S_, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S1x1, .f32⟩
  | .hbm, ⟨66, _⟩ => ⟨S_, .f32⟩
  | .hbm, ⟨67, _⟩ => ⟨S8x16, .f32⟩
  | .hbm, ⟨68, _⟩ => ⟨S_, .i32⟩
  | .hbm, ⟨69, _⟩ => ⟨S1, .i32⟩
  | .hbm, ⟨70, _⟩ => ⟨S8x16, .f32⟩
  | .hbm, ⟨71, _⟩ => ⟨S_, .f32⟩
  | .hbm, ⟨72, _⟩ => ⟨S8x1, .f32⟩
  | .hbm, ⟨73, _⟩ => ⟨S_, .i32⟩
  | .hbm, ⟨74, _⟩ => ⟨S1, .i32⟩
  | .hbm, ⟨75, _⟩ => ⟨S8x1, .f32⟩
  | .hbm, ⟨76, _⟩ => ⟨S1x196608, .f32⟩
  | .hbm, ⟨77, _⟩ => ⟨S196608, .f32⟩
  | .hbm, ⟨78, _⟩ => ⟨S196608x1, .f32⟩
  | .local _ .vmem, ⟨0, _⟩ => ⟨S24x16384, .f32⟩
  | .local _ .vmem, ⟨1, _⟩ => ⟨S24x16384, .f32⟩
  | .local _ .vmem, ⟨2, _⟩ => ⟨S24x16384, .f32⟩
  | .local _ .vmem, ⟨3, _⟩ => ⟨S24x16384, .f32⟩
  | .local _ .vmem, ⟨4, _⟩ => ⟨S128x48, .f32⟩
  | .local _ .vmem, ⟨5, _⟩ => ⟨S32x128, .f32⟩
  | .local _ .vmem, ⟨6, _⟩ => ⟨S16x32, .f32⟩
  | .local _ .vmem, ⟨7, _⟩ => ⟨S8x16, .f32⟩
  | .local _ .vmem, ⟨8, _⟩ => ⟨S128x1, .f32⟩
  | .local _ .vmem, ⟨9, _⟩ => ⟨S32x1, .f32⟩
  | .local _ .vmem, ⟨10, _⟩ => ⟨S16x1, .f32⟩
  | .local _ .vmem, ⟨11, _⟩ => ⟨S8x1, .f32⟩
  | .local _ .vmem, ⟨12, _⟩ => ⟨S1x16384, .f32⟩
  | .local _ .vmem, ⟨13, _⟩ => ⟨S1x16384, .f32⟩
  | _, _ => ⟨S196608x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_c : Ref sig .tc := ⟨.hbm, 68, rfl⟩
abbrev main_v43 : Ref sig .tc := ⟨.hbm, 69, rfl⟩
abbrev main_v44 : Ref sig .tc := ⟨.hbm, 70, rfl⟩
abbrev main_cst_14 : Ref sig .tc := ⟨.hbm, 71, rfl⟩
abbrev main_v45 : Ref sig .tc := ⟨.hbm, 72, rfl⟩
abbrev main_c_15 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S24x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S196608x8x3_S8x3x196608_1_2_0 : S196608x8x3.Transposes [1, 2, 0] S8x3x196608
  shapeCasts_S8x3x196608_S24x196608 : S8x3x196608.ShapeCasts S24x196608
  transposes_S48x128_S128x48_1_0 : S48x128.Transposes [1, 0] S128x48
  bcast_S_S128x48 : S_.BroadcastsInDim S128x48 (![] : Fin 0 → Fin S128x48.rank)
  shapeCasts_S1x128_S128x1 : S1x128.ShapeCasts S128x1
  bcast_S_S128x1 : S_.BroadcastsInDim S128x1 (![] : Fin 0 → Fin S128x1.rank)
  transposes_S128x32_S32x128_1_0 : S128x32.Transposes [1, 0] S32x128
  shapeCasts_S1x32_S32x1 : S1x32.ShapeCasts S32x1
  bcast_S_S32x128 : S_.BroadcastsInDim S32x128 (![] : Fin 0 → Fin S32x128.rank)
  reducesTo_S32x128_S32_d1 : S32x128.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  transposes_S32x16_S16x32_1_0 : S32x16.Transposes [1, 0] S16x32
  shapeCasts_S1x16_S16x1 : S1x16.ShapeCasts S16x1
  bcast_S_S16x32 : S_.BroadcastsInDim S16x32 (![] : Fin 0 → Fin S16x32.rank)
  reducesTo_S16x32_S16_d1 : S16x32.ReducesTo [1] S16
  bcast_S16_S16x1_0 : S16.BroadcastsInDim S16x1 (![0] : Fin 1 → Fin S16x1.rank)
  bcast_S_S16x1 : S_.BroadcastsInDim S16x1 (![] : Fin 0 → Fin S16x1.rank)
  transposes_S16x1_S1x16_1_0 : S16x1.Transposes [1, 0] S1x16
  bcast_S_S1x16 : S_.BroadcastsInDim S1x16 (![] : Fin 0 → Fin S1x16.rank)
  reducesTo_S1x16_S1_d1 : S1x16.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S_S8x16 : S_.BroadcastsInDim S8x16 (![] : Fin 0 → Fin S8x16.rank)
  bcast_S_S1 : S_.BroadcastsInDim S1 (![] : Fin 0 → Fin S1.rank)
  bcast_S_S8x1 : S_.BroadcastsInDim S8x1 (![] : Fin 0 → Fin S8x1.rank)
  inb_S24x16384_S24x16384_0_0 : ∀ a, (![0, 0] : Fin 2 → Nat) a + S24x16384.size a ≤ S24x16384.size a
  h_S24x16384 : 0 < S24x16384.numel
  shapeCasts_S24x16384_S24x16384 : S24x16384.ShapeCasts S24x16384
  concatenates_S24x16384_S24x16384_S48x16384_d0 : Shape.Concatenates [S24x16384, S24x16384] S48x16384 0
  inb_S128x48_S128x48_0_0 : ∀ a, (![0, 0] : Fin 2 → Nat) a + S128x48.size a ≤ S128x48.size a
  h_S128x48 : 0 < S128x48.numel
  shapeCasts_S128x48_S128x48 : S128x48.ShapeCasts S128x48
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  inb_S8x16_S8x16_0_0 : ∀ a, (![0, 0] : Fin 2 → Nat) a + S8x16.size a ≤ S8x16.size a
  h_S8x16 : 0 < S8x16.numel
  shapeCasts_S8x16_S8x16 : S8x16.ShapeCasts S8x16
  slices_S8x16384_o0_0_S1x16384 : S8x16384.Slices ![0, 0] S1x16384
  inb_S8x1_S1x1_0_0 : ∀ a, (![0, 0] : Fin 2 → Nat) a + S1x1.size a ≤ S8x1.size a
  h_S1x1 : 0 < S1x1.numel
  shapeCasts_S1x1_S1x1 : S1x1.ShapeCasts S1x1
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  shapeCasts_S1x196608_S196608 : S1x196608.ShapeCasts S196608
  shapeCasts_S196608_S196608x1 : S196608.ShapeCasts S196608x1
  scatter_S8x16_S1_S1x16_01_n_0_0_wf : ScatterDims.WF S8x16 S1 S1x16 [0, 1] [] [0] 0
  scatter_S8x1_S1_S1x1_01_n_0_0_wf : ScatterDims.WF S8x1 S1 S1x1 [0, 1] [] [0] 0
  dot_S128x48_S48x16384_S128x16384_1_0_0_1_n_n_wf : DotDims.WF S128x48 S48x16384 S128x16384 [1] [0] [0] [1] [] []
  dot_S32x128_S128x16384_S32x16384_1_0_0_1_n_n_wf : DotDims.WF S32x128 S128x16384 S32x16384 [1] [0] [0] [1] [] []
  dot_S16x32_S32x16384_S16x16384_1_0_0_1_n_n_wf : DotDims.WF S16x32 S32x16384 S16x16384 [1] [0] [0] [1] [] []
  dot_S8x16_S16x16384_S8x16384_1_0_0_1_n_n_wf : DotDims.WF S8x16 S16x16384 S8x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x16384.size a ≤ S24x196608.size a
  hwx0_0 : ∀ i : grid0.Coords, EltTy.bits .f32 = 32 ∨ (Rect.block (s := S24x196608) S24x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x16384.size a ≤ S24x196608.size a
  hwx0_1 : ∀ i : grid0.Coords, EltTy.bits .f32 = 32 ∨ (Rect.block (s := S24x196608) S24x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x48.size a ≤ S128x48.size a
  hwx0_2 : ∀ i : grid0.Coords, EltTy.bits .f32 = 32 ∨ (Rect.block (s := S128x48) S128x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16.size a ≤ S8x16.size a
  hwx0_5 : ∀ i : grid0.Coords, EltTy.bits .f32 = 32 ∨ (Rect.block (s := S8x16) S8x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S8x1.size a
  hwx0_9 : ∀ i : grid0.Coords, EltTy.bits .f32 = 32 ∨ (Rect.block (s := S8x1) S8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16384.size a ≤ S1x196608.size a
  hwx0_10 : ∀ i : grid0.Coords, EltTy.bits .f32 = 32 ∨ (Rect.block (s := S1x196608) S1x16384.size (cc0_transform_10 i) (hinb0_10 i)).WholeWords (EltTy.packing .f32)

variable [Facts₀]

def scatter_S8x16_S1_S1x16_01_n_0_0 : ScatterDims S8x16 S1 S1x16 where
  updateWindowDims := [0, 1]
  insertedWindowDims := []
  scatterDimsToOperandDims := [0]
  indexVectorDim := 0
  wf := scatter_S8x16_S1_S1x16_01_n_0_0_wf
def scatter_S8x1_S1_S1x1_01_n_0_0 : ScatterDims S8x1 S1 S1x1 where
  updateWindowDims := [0, 1]
  insertedWindowDims := []
  scatterDimsToOperandDims := [0]
  indexVectorDim := 0
  wf := scatter_S8x1_S1_S1x1_01_n_0_0_wf
def dot_S128x48_S48x16384_S128x16384_1_0_0_1_n_n : DotDims S128x48 S48x16384 S128x16384 where
  lhsContracting := [1]
  rhsContracting := [0]
  lhsNonContracting := [0]
  rhsNonContracting := [1]
  lhsBatch := []
  rhsBatch := []
  wf := dot_S128x48_S48x16384_S128x16384_1_0_0_1_n_n_wf
def dot_S32x128_S128x16384_S32x16384_1_0_0_1_n_n : DotDims S32x128 S128x16384 S32x16384 where
  lhsContracting := [1]
  rhsContracting := [0]
  lhsNonContracting := [0]
  rhsNonContracting := [1]
  lhsBatch := []
  rhsBatch := []
  wf := dot_S32x128_S128x16384_S32x16384_1_0_0_1_n_n_wf
def dot_S16x32_S32x16384_S16x16384_1_0_0_1_n_n : DotDims S16x32 S32x16384 S16x16384 where
  lhsContracting := [1]
  rhsContracting := [0]
  lhsNonContracting := [0]
  rhsNonContracting := [1]
  lhsBatch := []
  rhsBatch := []
  wf := dot_S16x32_S32x16384_S16x16384_1_0_0_1_n_n_wf
def dot_S8x16_S16x16384_S8x16384_1_0_0_1_n_n : DotDims S8x16 S16x16384 S8x16384 where
  lhsContracting := [1]
  rhsContracting := [0]
  lhsNonContracting := [0]
  rhsNonContracting := [1]
  lhsBatch := []
  rhsBatch := []
  wf := dot_S8x16_S16x16384_S8x16384_1_0_0_1_n_n_wf

abbrev win0_0 : Pipeline.Window sig grid0 :=
  Pipeline.Window.ofSpec (Memref.whole main_v1) S24x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S24x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S8x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S8x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v48) S1x16384.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S196608x8x3 : Shape := ⟨3, ![196608, 8, 3]⟩
abbrev S48x128 : Shape := ⟨2, ![48, 128]⟩
abbrev S1x128 : Shape := ⟨2, ![1, 128]⟩
abbrev S128x32 : Shape := ⟨2, ![128, 32]⟩
abbrev S1x32 : Shape := ⟨2, ![1, 32]⟩
abbrev S32x16 : Shape := ⟨2, ![32, 16]⟩
abbrev S1x16 : Shape := ⟨2, ![1, 16]⟩
abbrev S16x1 : Shape := ⟨2, ![16, 1]⟩
abbrev S1x1 : Shape := ⟨2, ![1, 1]⟩
abbrev S196608x24 : Shape := ⟨2, ![196608, 24]⟩
abbrev S196608x48 : Shape := ⟨2, ![196608, 48]⟩
abbrev S_ : Shape := ⟨0, ![]⟩
abbrev S196608x128 : Shape := ⟨2, ![196608, 128]⟩
abbrev S4x128x128 : Shape := ⟨3, ![4, 128, 128]⟩
abbrev S4x1x128 : Shape := ⟨3, ![4, 1, 128]⟩
abbrev S1 : Shape := ⟨1, ![1]⟩
abbrev S2 : Shape := ⟨1, ![2]⟩
abbrev S3 : Shape := ⟨1, ![3]⟩
abbrev S512x128 : Shape := ⟨2, ![512, 128]⟩
abbrev S1x128x128 : Shape := ⟨3, ![1, 128, 128]⟩
abbrev S128x128 : Shape := ⟨2, ![128, 128]⟩
abbrev S1x1x128 : Shape := ⟨3, ![1, 1, 128]⟩
abbrev S196608x1 : Shape := ⟨2, ![196608, 1]⟩

abbrev nBuf : Space → Nat
  | .hbm => 71
  | .vmem => 6
  | .smem => 0
  | _ => 0

abbrev bufTy : (tb : Table) → Fin (tcTables nBuf tb) → BufTy
  | .hbm, ⟨0, _⟩ => ⟨S196608x8x3, .f32⟩
  | .hbm, ⟨1, _⟩ => ⟨S196608x8x3, .f32⟩
  | .hbm, ⟨2, _⟩ => ⟨S48x128, .f32⟩
  | .hbm, ⟨3, _⟩ => ⟨S1x128, .f32⟩
  | .hbm, ⟨4, _⟩ => ⟨S128x32, .f32⟩
  | .hbm, ⟨5, _⟩ => ⟨S1x32, .f32⟩
  | .hbm, ⟨6, _⟩ => ⟨S32x16, .f32⟩
  | .hbm, ⟨7, _⟩ => ⟨S1x16, .f32⟩
  | .hbm, ⟨8, _⟩ => ⟨S16x1, .f32⟩
  | .hbm, ⟨9, _⟩ => ⟨S1x1, .f32⟩
  | .hbm, ⟨10, _⟩ => ⟨S196608x24, .f32⟩
  | .hbm, ⟨11, _⟩ => ⟨S196608x24, .f32⟩
  | .hbm, ⟨12, _⟩ => ⟨S196608x48, .f32⟩
  | .hbm, ⟨13, _⟩ => ⟨S_, .i32⟩
  | .hbm, ⟨14, _⟩ => ⟨S_, .f32⟩
  | .hbm, ⟨15, _⟩ => ⟨S196608x128, .f32⟩
  | .hbm, ⟨16, _⟩ => ⟨S_, .f32⟩
  | .hbm, ⟨17, _⟩ => ⟨S4x128x128, .f32⟩
  | .hbm, ⟨18, _⟩ => ⟨S_, .f32⟩
  | .hbm, ⟨19, _⟩ => ⟨S4x1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S4x128x128, .f32⟩
  | .hbm, ⟨26, _⟩ => ⟨S_, .i32⟩
  | .hbm, ⟨27, _⟩ => ⟨S1, .i32⟩
  | .hbm, ⟨28, _⟩ => ⟨S4x1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S4x128x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S4x1x128, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S3, .i32⟩
  | .hbm, ⟨48, _⟩ => ⟨S4x128x128, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S4x1x128, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S3, .i32⟩
  | .hbm, ⟨62, _⟩ => ⟨S4x128x128, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S4x1x128, .f32⟩
  | .hbm, ⟨69, _⟩ => ⟨S196608x128, .f32⟩
  | .hbm, ⟨70, _⟩ => ⟨S196608x1, .f32⟩
  | .local _ .vmem, ⟨0, _⟩ => ⟨S512x128, .f32⟩
  | .local _ .vmem, ⟨1, _⟩ => ⟨S512x128, .f32⟩
  | .local _ .vmem, ⟨2, _⟩ => ⟨S4x128x128, .f32⟩
  | .local _ .vmem, ⟨3, _⟩ => ⟨S4x1x128, .f32⟩
  | .local _ .vmem, ⟨4, _⟩ => ⟨S512x128, .f32⟩
  | .local _ .vmem, ⟨5, _⟩ => ⟨S512x128, .f32⟩
  | _, _ => ⟨S196608x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_6 : Ref sig .tc := ⟨.hbm, 35, rfl⟩
abbrev main_v16 : Ref sig .tc := ⟨.hbm, 36, rfl⟩
abbrev main_c_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_c_9 : Ref sig .tc := ⟨.hbm, 43, rfl⟩
abbrev main_v21 : Ref sig .tc := ⟨.hbm, 44, rfl⟩
abbrev main_c_10 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_11 : Ref sig .tc := ⟨.hbm, 49, rfl⟩
abbrev main_v25 : Ref sig .tc := ⟨.hbm, 50, rfl⟩
abbrev main_c_12 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_13 : Ref sig .tc := ⟨.hbm, 55, rfl⟩
abbrev main_v29 : Ref sig .tc := ⟨.hbm, 56, rfl⟩
abbrev main_c_14 : Ref sig .tc := ⟨.hbm, 57, rfl⟩
abbrev main_v30 : Ref sig .tc := ⟨.hbm, 58, rfl⟩
abbrev main_c_15 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_16 : Ref sig .tc := ⟨.hbm, 63, rfl⟩
abbrev main_v34 : Ref sig .tc := ⟨.hbm, 64, rfl⟩
abbrev main_c_17 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![384], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S196608x8x3_S196608x24 : S196608x8x3.ShapeCasts S196608x24
  concatenates_S196608x24_S196608x24_S196608x48_d1 : Shape.Concatenates [S196608x24, S196608x24] S196608x48 1
  pads_S196608x48_S196608x128_000_0800 : S196608x48.Pads (![0, 0] : Fin 2 → Nat) ![0, 80] ![0, 0] S196608x128
  h_S_ : 0 < S_.numel
  bcast_S_S4x128x128 : S_.BroadcastsInDim S4x128x128 (![] : Fin 0 → Fin S4x128x128.rank)
  bcast_S_S4x1x128 : S_.BroadcastsInDim S4x1x128 (![] : Fin 0 → Fin S4x1x128.rank)
  bcast_S_S1 : S_.BroadcastsInDim S1 (![] : Fin 0 → Fin S1.rank)
  concatenates_S1_S1_S2_d0 : Shape.Concatenates [S1, S1] S2 0
  concatenates_S1_S1_S1_S3_d0 : Shape.Concatenates [S1, S1, S1] S3 0
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x1x128_S1x1x128_0_0_0 : ∀ a, (![0, 0, 0] : Fin 3 → Nat) a + S1x1x128.size a ≤ S4x1x128.size a
  h_S1x1x128 : 0 < S1x1x128.numel
  shapeCasts_S1x1x128_S1x128 : S1x1x128.ShapeCasts S1x128
  broadcasts_S1x128_S512x128 : S1x128.Broadcasts S512x128
  inb_S4x128x128_S1x128x128_1_0_0 : ∀ a, (![1, 0, 0] : Fin 3 → Nat) a + S1x128x128.size a ≤ S4x128x128.size a
  inb_S4x1x128_S1x1x128_1_0_0 : ∀ a, (![1, 0, 0] : Fin 3 → Nat) a + S1x1x128.size a ≤ S4x1x128.size a
  inb_S4x128x128_S1x128x128_2_0_0 : ∀ a, (![2, 0, 0] : Fin 3 → Nat) a + S1x128x128.size a ≤ S4x128x128.size a
  inb_S4x1x128_S1x1x128_2_0_0 : ∀ a, (![2, 0, 0] : Fin 3 → Nat) a + S1x1x128.size a ≤ S4x1x128.size a
  inb_S4x128x128_S1x128x128_3_0_0 : ∀ a, (![3, 0, 0] : Fin 3 → Nat) a + S1x128x128.size a ≤ S4x128x128.size a
  inb_S4x1x128_S1x1x128_3_0_0 : ∀ a, (![3, 0, 0] : Fin 3 → Nat) a + S1x1x128.size a ≤ S4x1x128.size a
  slices_S196608x128_S196608x1_0_0 : S196608x128.Slices ![0, 0] S196608x1
  scatter_S4x128x128_S2_S48x128_01_0_01_0_wf : ScatterDims.WF S4x128x128 S2 S48x128 [0, 1] [0] [0, 1] 0
  scatter_S4x1x128_S1_S1x128_01_0_0_0_wf : ScatterDims.WF S4x1x128 S1 S1x128 [0, 1] [0] [0] 0
  scatter_S4x128x128_S2_S128x32_01_0_02_0_wf : ScatterDims.WF S4x128x128 S2 S128x32 [0, 1] [0] [0, 2] 0
  scatter_S4x1x128_S2_S1x32_01_0_02_0_wf : ScatterDims.WF S4x1x128 S2 S1x32 [0, 1] [0] [0, 2] 0
  scatter_S4x128x128_S3_S32x16_01_0_012_0_wf : ScatterDims.WF S4x128x128 S3 S32x16 [0, 1] [0] [0, 1, 2] 0
  scatter_S4x1x128_S2_S1x16_01_0_02_0_wf : ScatterDims.WF S4x1x128 S2 S1x16 [0, 1] [0] [0, 2] 0
  scatter_S4x128x128_S3_S16x1_01_0_012_0_wf : ScatterDims.WF S4x128x128 S3 S16x1 [0, 1] [0] [0, 1, 2] 0
  scatter_S4x1x128_S2_S1x1_01_0_02_0_wf : ScatterDims.WF S4x1x128 S2 S1x1 [0, 1] [0] [0, 2] 0
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S196608x128.size a
  hwx0_0 : ∀ i : grid0.Coords, EltTy.bits .f32 = 32 ∨ (Rect.block (s := S196608x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .f32 = 32 ∨ (Rect.block (s := S4x128x128) S4x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x128.size a ≤ S4x1x128.size a
  hwx0_2 : ∀ i : grid0.Coords, EltTy.bits .f32 = 32 ∨ (Rect.block (s := S4x1x128) S4x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S196608x128.size a
  hwx0_3 : ∀ i : grid0.Coords, EltTy.bits .f32 = 32 ∨ (Rect.block (s := S196608x128) S512x128.size (cc0_transform_3 i) (hinb0_3 i)).WholeWords (EltTy.packing .f32)

variable [Facts₀]

def scatter_S4x128x128_S2_S48x128_01_0_01_0 : ScatterDims S4x128x128 S2 S48x128 where
  updateWindowDims := [0, 1]
  insertedWindowDims := [0]
  scatterDimsToOperandDims := [0, 1]
  indexVectorDim := 0
  wf := scatter_S4x128x128_S2_S48x128_01_0_01_0_wf
def scatter_S4x1x128_S1_S1x128_01_0_0_0 : ScatterDims S4x1x128 S1 S1x128 where
  updateWindowDims := [0, 1]
  insertedWindowDims := [0]
  scatterDimsToOperandDims := [0]
  indexVectorDim := 0
  wf := scatter_S4x1x128_S1_S1x128_01_0_0_0_wf
def scatter_S4x128x128_S2_S128x32_01_0_02_0 : ScatterDims S4x128x128 S2 S128x32 where
  updateWindowDims := [0, 1]
  insertedWindowDims := [0]
  scatterDimsToOperandDims := [0, 2]
  indexVectorDim := 0
  wf := scatter_S4x128x128_S2_S128x32_01_0_02_0_wf
def scatter_S4x1x128_S2_S1x32_01_0_02_0 : ScatterDims S4x1x128 S2 S1x32 where
  updateWindowDims := [0, 1]
  insertedWindowDims := [0]
  scatterDimsToOperandDims := [0, 2]
  indexVectorDim := 0
  wf := scatter_S4x1x128_S2_S1x32_01_0_02_0_wf
def scatter_S4x128x128_S3_S32x16_01_0_012_0 : ScatterDims S4x128x128 S3 S32x16 where
  updateWindowDims := [0, 1]
  insertedWindowDims := [0]
  scatterDimsToOperandDims := [0, 1, 2]
  indexVectorDim := 0
  wf := scatter_S4x128x128_S3_S32x16_01_0_012_0_wf
def scatter_S4x1x128_S2_S1x16_01_0_02_0 : ScatterDims S4x1x128 S2 S1x16 where
  updateWindowDims := [0, 1]
  insertedWindowDims := [0]
  scatterDimsToOperandDims := [0, 2]
  indexVectorDim := 0
  wf := scatter_S4x1x128_S2_S1x16_01_0_02_0_wf
def scatter_S4x128x128_S3_S16x1_01_0_012_0 : ScatterDims S4x128x128 S3 S16x1 where
  updateWindowDims := [0, 1]
  insertedWindowDims := [0]
  scatterDimsToOperandDims := [0, 1, 2]
  indexVectorDim := 0
  wf := scatter_S4x128x128_S3_S16x1_01_0_012_0_wf
def scatter_S4x1x128_S2_S1x1_01_0_02_0 : ScatterDims S4x1x128 S2 S1x1 where
  updateWindowDims := [0, 1]
  insertedWindowDims := [0]
  scatterDimsToOperandDims := [0, 2]
  indexVectorDim := 0
  wf := scatter_S4x1x128_S2_S1x1_01_0_02_0_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.RefFrameDefs.lean ====
import proofs.«145325_g2000202685343482_pallasbulk_962_25_alg».proof.Proof.Gen.ReferenceIdeal.Launch
import proofs.«145325_g2000202685343482_pallasbulk_962_25_alg».proof.Proof.Gen.ReferenceIdeal.Skeleton
import proofs.«145325_g2000202685343482_pallasbulk_962_25_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 512 x 128 extents is decided coordinate by coordinate
set_option maxRecDepth 16384

noncomputable section

namespace Cert.ReferenceIdeal.Fr

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The arrays as the region finds them -/

/-- Core `c`'s TensorCore buffers when the region is entered, as a valuation: the launch contents folded through
    the three host stretches before the region (the reshapes and the concatenate, the padding call, the scatters
    that assemble the stacked weights and biases). -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles

The body reads the whole 512 x 128 activation block, then layer `l`'s 128 x 128 weight slab and 1 x 128 bias row out
of the stacked 4 x 128 x 128 and 4 x 1 x 128 operands, for `l = 0, 1, 2, 3`, and stores the whole 512 x 128 result. -/

abbrev rX : Rect S512x128 := Rect.unit (s := S512x128) ![0, 0] S512x128.size inb_S512x128_S512x128_0_0
abbrev rW0 : Rect S4x128x128 := Rect.unit (s := S4x128x128) ![0, 0, 0] S1x128x128.size inb_S4x128x128_S1x128x128_0_0_0
abbrev rW1 : Rect S4x128x128 := Rect.unit (s := S4x128x128) ![1, 0, 0] S1x128x128.size inb_S4x128x128_S1x128x128_1_0_0
abbrev rW2 : Rect S4x128x128 := Rect.unit (s := S4x128x128) ![2, 0, 0] S1x128x128.size inb_S4x128x128_S1x128x128_2_0_0
abbrev rW3 : Rect S4x128x128 := Rect.unit (s := S4x128x128) ![3, 0, 0] S1x128x128.size inb_S4x128x128_S1x128x128_3_0_0
abbrev rB0 : Rect S4x1x128 := Rect.unit (s := S4x1x128) ![0, 0, 0] S1x1x128.size inb_S4x1x128_S1x1x128_0_0_0
abbrev rB1 : Rect S4x1x128 := Rect.unit (s := S4x1x128) ![1, 0, 0] S1x1x128.size inb_S4x1x128_S1x1x128_1_0_0
abbrev rB2 : Rect S4x1x128 := Rect.unit (s := S4x1x128) ![2, 0, 0] S1x1x128.size inb_S4x1x128_S1x1x128_2_0_0
abbrev rB3 : Rect S4x1x128 := Rect.unit (s := S4x1x128) ![3, 0, 0] S1x1x128.size inb_S4x1x128_S1x1x128_3_0_0

/-! ## What the body leaves in the output window's buffer -/

/-- The output buffer after the body, from the three input blocks: its one store as a single piece over the whole
    buffer, the payload being the fourth layer's activation (`k0_pay1`) of the first three layers' result and the
    fourth weight slab's product (`k0_pay2`), with the fourth bias row. -/
def out0_3 (x0 : Vec F S512x128 .f32) (x1 : Vec F S4x128x128 .f32) (x2 : Vec F S4x1x128 .f32) : Vec F S512x128 .f32 :=
  View.canon [⟨rX, k0_pay1 (k0_pay2 (View.ld x0 rX) (View.ld x1 rW0) (View.ld x2 rB0) (View.ld x1 rW1) (View.ld x2 rB1) (View.ld x1 rW2) (View.ld x2 rB2) (View.ld x1 rW3)) (View.ld x2 rB3)⟩]

/-- The one store is over the whole buffer, so every index lies in its rectangle. -/
theorem cover0_3 (p0 : Vec F S512x128 .f32) (y : S512x128.Idx) :
    ∃ pc ∈ ([⟨rX, p0⟩] : List (View.Piece (Elt F) S512x128 .f32)), y ∈ pc.1.set :=
  View.cover_of_tiled [⟨rX, p0⟩] S512x128.size (by rfl) y

/-! ## The pipeline's proof data -/

/-- The proof data of the one pipeline on core `c`: the arrays as the region finds them; after the body at point `t`
    each input's buffer still at its block and the output's at `out0_3` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (the definition projected, the fold over the host stretches
    never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

end Cert.ReferenceIdeal.Fr

end
-- ==== Proof.RefFrame.lean ====
import proofs.«145325_g2000202685343482_pallasbulk_962_25_alg».proof.Proof.RefFrameDefs

-- membership in a rectangle of 512 x 128 extents is decided coordinate by coordinate
set_option maxRecDepth 16384

noncomputable section

namespace Cert.ReferenceIdeal.Fr

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is three host stretches, the region, one host stretch: it reduces to the region continued by the last. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The slice after the region touches unscoped TensorCore references only: the pipeline's arrays or buffers that
    bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is none of the pipeline's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays at the region's entry and at the end

Every host operation writes one buffer, its result, and no result is an argument of @main. -/

/-- None of the host operations before the region has `main_arg0` as its result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg1` as its result buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg2` as its result buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg3` as its result buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg4` as its result buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg5` as its result buffer. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg6` as its result buffer. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg7` as its result buffer. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg8` as its result buffer. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the region has `main_arg9` as its result buffer. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the slice after the region: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the slice after the region: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the slice after the region: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the slice after the region: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the slice after the region: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does the slice after the region: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does the slice after the region: `main_arg6` ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does the slice after the region: `main_arg7` ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does the slice after the region: `main_arg8` ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- Nor does the slice after the region: `main_arg9` ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The inputs' staging buffers hold their blocks -/

/-- An input window's current staging buffer holds its block at every point, whether the point fetches it or the
    index has not moved since the fetch: for any proof data over the region-entry arrays whose body leaves the block in
    place. The activations' window is fetched at every point, the stacked weights' and biases' at the first only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post (each array of the pipeline at what the proof data computes, every other
    unscoped buffer as the slice after the region leaves it) to the ten argument arrays as launched: none is an array
    of the pipeline, so each is read by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## The body's triple -/

set_option maxHeartbeats 1000000 in
/-- The body on whole staging memrefs, the three inputs' at contents `x0 x1 x2` and the output's at anything, runs to
    the continuation with the inputs as they were and the output at `out0_3 x0 x1 x2`: nine loads, a load of the output
    buffer whose value is never used, and one store over the whole output. -/
theorem sound_kernel (c : Dev nD) (E : Set ℕ) (i : grid0.Coords) (arg1 : Memref sig .tc .vmem S512x128 .f32) (harg1 : arg1.IsWhole) (arg2 : Memref sig .tc .vmem S4x128x128 .f32) (harg2 : arg2.IsWhole) (arg3 : Memref sig .tc .vmem S4x1x128 .f32) (harg3 : arg3.IsWhole) (arg4 : Memref sig .tc .vmem S512x128 .f32) (harg4 : arg4.IsWhole)
    (x0 : Vec F S512x128 .f32) (x1 : Vec F S4x128x128 .f32) (x2 : Vec F S4x1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The proof data's inputs -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and the four windows' current
    staging buffers whole. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which unfolds
-- plain definitions inside a metavariable's type
set_option backward.isDefEq.respectTransparency.types false in
/-- For any values, from any memory with zero counters: every weakly fair execution of @main on the TensorCores
    terminates, and every final state has each array of the pipeline at what the library computes from the proof
    data and every other unscoped buffer as the slice after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the reference program at any `F`: its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.ReferenceIdeal.Fr

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.MlpSpec.lean ====
/-
  The two arrangements of one four-layer perceptron, as plain functions on the extended reals.

  The reference pads every layer to width 128 with zero weights and zero biases and applies the logistic
  function after each affine map.  The kernel works with t = tanh (a / 2), using
  logistic a = 1/2 * tanh (a / 2) + 1/2: the factor 1/2 (first layer) or 1/4 (later layers) is folded into
  the weights, and the constant part 1/2 * (1/2 * (sum of the weight column) + bias) into the bias.
-/
import Idealize.ShloMosaic.PureOps.Ideal

noncomputable section

namespace Cert.Mlp

open Idealize.ShloMosaic

/-- The real 1/2 as an extended real. -/
def half : EReal := ((1 / 2 : ℝ) : EReal)
/-- The real 1/4 as an extended real. -/
def quarter : EReal := ((1 / 4 : ℝ) : EReal)

/-! ## The reference: four padded logistic layers -/

/-- One layer of width 128: the logistic function of (h · W + B) at column `j`. -/
def refLayer (W : Fin 128 → Fin 128 → EReal) (B : Fin 128 → EReal) (h : Fin 128 → EReal) (j : Fin 128) : EReal :=
  Ideal.logistic ((∑ k : Fin 128, h k * W k j) + B j)

/-- Four layers on one padded row; the result is column 0 of the last layer. -/
def refOut (X : Fin 128 → EReal) (W : Fin 4 → Fin 128 → Fin 128 → EReal) (B : Fin 4 → Fin 128 → EReal) : EReal :=
  refLayer (W 3) (B 3) (refLayer (W 2) (B 2) (refLayer (W 1) (B 1) (refLayer (W 0) (B 0) X))) 0

/-- A row of 48 features padded with zeros to width 128. -/
def padX (xc : Fin 48 → EReal) (j : Fin 128) : EReal :=
  if h : j.val < 48 then xc ⟨j.val, h⟩ else 0

/-- The four weight matrices, each placed in the top-left corner of a zero 128 × 128 matrix. -/
def padW (w1 : Fin 48 → Fin 128 → EReal) (w2 : Fin 128 → Fin 32 → EReal) (w3 : Fin 32 → Fin 16 → EReal)
    (w4 : Fin 16 → EReal) (l : Fin 4) (k j : Fin 128) : EReal :=
  if l.val = 0 then (if h : k.val < 48 then w1 ⟨k.val, h⟩ j else 0)
  else if l.val = 1 then (if h : j.val < 32 then w2 k ⟨j.val, h⟩ else 0)
  else if l.val = 2 then (if h : k.val < 32 ∧ j.val < 16 then w3 ⟨k.val, h.1⟩ ⟨j.val, h.2⟩ else 0)
  else (if h : k.val < 16 ∧ j.val < 1 then w4 ⟨k.val, h.1⟩ else 0)

/-- The four bias rows, each padded with zeros to width 128. -/
def padB (b1 : Fin 128 → EReal) (b2 : Fin 32 → EReal) (b3 : Fin 16 → EReal) (b4 : EReal)
    (l : Fin 4) (j : Fin 128) : EReal :=
  if l.val = 0 then b1 j
  else if l.val = 1 then (if h : j.val < 32 then b2 ⟨j.val, h⟩ else 0)
  else if l.val = 2 then (if h : j.val < 16 then b3 ⟨j.val, h⟩ else 0)
  else (if j.val < 1 then b4 else 0)

/-! ## The kernel: tanh layers with the affine parts of the logistic function folded in -/

/-- First layer: tanh of ((1/2 · w1)ᵀ x + 1/2 · b1). -/
def kerT1 (xc : Fin 48 → EReal) (w1 : Fin 48 → Fin 128 → EReal) (b1 : Fin 128 → EReal) (i : Fin 128) : EReal :=
  Ideal.tanh ((∑ k : Fin 48, (half * w1 k i) * xc k) + half * b1 i)

/-- A later layer: tanh of ((1/4 · w)ᵀ t + 1/2 · (1/2 · (0 + column sum of w) + b)). -/
def kerT {n d : ℕ} (t : Fin n → EReal) (w : Fin n → Fin d → EReal) (b : Fin d → EReal) (i : Fin d) : EReal :=
  Ideal.tanh ((∑ k : Fin n, (quarter * w k i) * t k) + half * ((half * (0 + ∑ k : Fin n, w k i)) + b i))

/-- The last layer has one output; the result is 1/2 · tanh (…) + 1/2. -/
def kerOut (xc : Fin 48 → EReal) (w1 : Fin 48 → Fin 128 → EReal) (b1 : Fin 128 → EReal)
    (w2 : Fin 128 → Fin 32 → EReal) (b2 : Fin 32 → EReal) (w3 : Fin 32 → Fin 16 → EReal) (b3 : Fin 16 → EReal)
    (w4 : Fin 16 → EReal) (b4 : EReal) : EReal :=
  half * Ideal.tanh ((∑ k : Fin 16, (quarter * w4 k) * kerT (kerT (kerT1 xc w1 b1) w2 b2) w3 b3 k)
      + half * ((half * (0 + ∑ k : Fin 16, w4 k)) + b4)) + half

end Cert.Mlp

end
-- ==== Proof.MlpBody.lean ====
/-
  The kernel's body as a function of what it reads, and the float literals it and its host side spell.

  The body computes, for one batch column, three tanh layers t ↦ tanh (W t + c) on weight matrices stored
  row-major as (outputs × inputs) with column biases, then one more contraction with a single weight row and
  1/2 · tanh (· + c) + 1/2.  With the host side's folded weights and biases this is the specification's
  `kerOut`.
-/
import proofs.«145325_g2000202685343482_pallasbulk_962_25_alg».proof.Proof.MlpSpec

noncomputable section

namespace Cert.Mlp

open Idealize.ShloMosaic

/-- The literal 0.5 denotes the real 1/2. -/
theorem ofBits_half : Ideal.ofBits .f32 0x3F000000#32 = half := by
  unfold half
  simp [Ideal.ofBits, Ideal.ieee, -EReal.coe_mul]; norm_num

/-- The literal 0.25 denotes the real 1/4. -/
theorem ofBits_quarter : Ideal.ofBits .f32 0x3E800000#32 = quarter := by
  unfold quarter
  simp [Ideal.ofBits, Ideal.ieee, -EReal.coe_mul]; norm_num

/-- The literal +0.0 denotes 0. -/
theorem ofBits_zero : Ideal.ofBits .f32 0x00000000#32 = 0 := by
  simp [Ideal.ofBits, Ideal.ieee]

/-- Two rows of 24 features laid one after the other: the 48 features of one batch element. -/
def catX (u v : Fin 24 → EReal) (k : Fin 48) : EReal :=
  if h : k.val < 24 then u ⟨k.val, h⟩ else v ⟨k.val - 24, by have := k.isLt; omega⟩

/-- One tanh layer on a weight matrix stored as (outputs × inputs) with a column bias. -/
def bodyT {n d : ℕ} (t : Fin n → EReal) (W : Fin d → Fin n → EReal) (c : Fin d → EReal) (i : Fin d) : EReal :=
  Ideal.tanh ((∑ k : Fin n, W i k * t k) + c i)

/-- The whole body on one batch column: three tanh layers, a last contraction with one weight row, and
    1/2 · tanh (· + c4) + 1/2. -/
def bodyOut (xall : Fin 48 → EReal) (W1 : Fin 128 → Fin 48 → EReal) (c1 : Fin 128 → EReal)
    (W2 : Fin 32 → Fin 128 → EReal) (c2 : Fin 32 → EReal) (W3 : Fin 16 → Fin 32 → EReal) (c3 : Fin 16 → EReal)
    (W4 : Fin 16 → EReal) (c4 : EReal) : EReal :=
  half * Ideal.tanh ((∑ k : Fin 16, W4 k * bodyT (bodyT (bodyT xall W1 c1) W2 c2) W3 c3 k) + c4) + half

/-- With the folded weights and biases the body is the specification's kernel side. -/
theorem kerOut_eq_bodyOut (xc : Fin 48 → EReal) (w1 : Fin 48 → Fin 128 → EReal) (b1 : Fin 128 → EReal)
    (w2 : Fin 128 → Fin 32 → EReal) (b2 : Fin 32 → EReal) (w3 : Fin 32 → Fin 16 → EReal) (b3 : Fin 16 → EReal)
    (w4 : Fin 16 → EReal) (b4 : EReal) :
    kerOut xc w1 b1 w2 b2 w3 b3 w4 b4
      = bodyOut xc (fun i k => half * w1 k i) (fun i => half * b1 i)
          (fun i k => quarter * w2 k i) (fun i => half * ((half * (0 + ∑ k : Fin 128, w2 k i)) + b2 i))
          (fun i k => quarter * w3 k i) (fun i => half * ((half * (0 + ∑ k : Fin 32, w3 k i)) + b3 i))
          (fun k => quarter * w4 k) (half * ((half * (0 + ∑ k : Fin 16, w4 k)) + b4)) := rfl

end Cert.Mlp

end
-- ==== Proof.KerBody.lean ====
/-
  The kernel's body at one batch lane.

  The body stores, at lane q of its 1 × 16384 output block, 1/2 · tanh (w4 · t3 + c4) + 1/2 where t1, t2, t3 are
  tanh layers over matrix products with the batch on the lanes: entry (i, q) of W · T is ∑ₖ W (i, k) · T (k, q),
  the column bias c (i, 0) is added to every lane, and the first layer's right operand is the two 24-row input
  blocks stacked.  Lane q therefore depends on column q of the two input blocks only.
-/
import proofs.«145325_g2000202685343482_pallasbulk_962_25_alg».proof.Proof.Gen.KernelIdeal.Skeleton
import proofs.«145325_g2000202685343482_pallasbulk_962_25_alg».proof.Proof.LibDense
import proofs.«145325_g2000202685343482_pallasbulk_962_25_alg».proof.Proof.MlpBody
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Mlp

/-- The pointwise tanh of a vector, at an index. -/
theorem vtanh_apply {s : Shape} {φ : FTy} (a : FVec Ideal s φ) (i : s.Idx) : tanh a i = Ideal.tanh (a i) := rfl

/-- A column of `a` entries broadcast across `b` lanes reads, at (p, q), entry p of the column. -/
theorem colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Two 24-row blocks stacked along the rows: row k of the stack at lane q. -/
theorem stack_apply {α : Type} (v1 v3 : S24x16384.Idx → α)
    (h : Shape.Concatenates [S24x16384, S24x16384] S48x16384 (0 : Fin 2)) (k : Fin 48) (q : Fin 16384) :
    concatenate S48x16384 0 [⟨S24x16384, v1⟩, ⟨S24x16384, v3⟩] h (ix2 k q)
      = if hk : k.val < 24 then v1 (ix2 (⟨k.val, hk⟩ : Fin 24) q)
        else v3 (ix2 (⟨k.val - 24, by have := k.isLt; omega⟩ : Fin 24) q) := by
  split
  · rename_i hk
    exact concatenate_pair_apply_left (0 : Fin 2) v1 v3 h (ix2 k q) rfl (ix2 (⟨k.val, hk⟩ : Fin 24) q) (fun b => by
      match b with
      | ⟨0, _⟩ => rfl
      | ⟨1, _⟩ => rfl)
  · rename_i hk
    exact concatenate_pair_apply_right (0 : Fin 2) v1 v3 h (ix2 k q) rfl rfl
      (ix2 (⟨k.val - 24, by have := k.isLt; omega⟩ : Fin 24) q)
      (fun b hb => by
        match b with
        | ⟨0, _⟩ => exact absurd rfl hb
        | ⟨1, _⟩ => rfl)
      (by show (k.val - 24) + 24 = k.val; omega)

/-- One layer with the batch on the lanes: tanh (W · T + c) at (i, q), given column q of T. -/
theorem layer_apply {d n L : ℕ} (D : DotDims ⟨2, ![d, n]⟩ ⟨2, ![n, L]⟩ ⟨2, ![d, L]⟩) (hD : D = DotDims.plain d n L)
    (W : FVec Ideal ⟨2, ![d, n]⟩ .f32) (T : FVec Ideal ⟨2, ![n, L]⟩ .f32) (c : FVec Ideal ⟨2, ![d, 1]⟩ .f32)
    (hbc : (⟨2, ![d, 1]⟩ : Shape).Broadcasts ⟨2, ![d, L]⟩) (q : Fin L) (t : Fin n → EReal)
    (ht : ∀ k, T (ix2 k q) = t k) (i : Fin d) :
    tanh (addf (matmul D none W T (constant ⟨2, ![d, L]⟩ .f32 0x00000000#32)) (broadcastTo ⟨2, ![d, L]⟩ c hbc)) (ix2 i q)
      = bodyT t (fun i k => W (ix2 i k)) (fun i => c (ix2 i (0 : Fin 1))) i := by
  subst hD
  show Ideal.tanh (FloatOps.matmul (DotDims.plain d n L) none W T (constant ⟨2, ![d, L]⟩ .f32 0x00000000#32) (ix2 i q)
      + broadcastTo ⟨2, ![d, L]⟩ c hbc (ix2 i q)) = _
  rw [Cert.LibDense.plain_matmul_apply, colBroadcast_apply]
  unfold bodyT
  simp only [ht]

/-- The last contraction, with one weight row: entry (i, q) of W · T, given column q of T. -/
theorem contract_apply {d n L : ℕ} (D : DotDims ⟨2, ![d, n]⟩ ⟨2, ![n, L]⟩ ⟨2, ![d, L]⟩) (hD : D = DotDims.plain d n L)
    (W : FVec Ideal ⟨2, ![d, n]⟩ .f32) (T : FVec Ideal ⟨2, ![n, L]⟩ .f32) (q : Fin L) (t : Fin n → EReal)
    (ht : ∀ k, T (ix2 k q) = t k) (i : Fin d) :
    matmul D none W T (constant ⟨2, ![d, L]⟩ .f32 0x00000000#32) (ix2 i q) = ∑ k : Fin n, W (ix2 i k) * t k := by
  subst hD
  show FloatOps.matmul (DotDims.plain d n L) none W T (constant ⟨2, ![d, L]⟩ .f32 0x00000000#32) (ix2 i q) = _
  rw [Cert.LibDense.plain_matmul_apply]
  simp only [ht]

/-- THE BODY AT LANE q: what the body stores there, as the layer functions of column q of the two input blocks and
    of the weight and bias blocks. -/
theorem pay_apply (x0 x1 : Vec Ideal S24x16384 .f32) (x2 : Vec Ideal S128x48 .f32) (x6 : Vec Ideal S128x1 .f32)
    (x3 : Vec Ideal S32x128 .f32) (x7 : Vec Ideal S32x1 .f32) (x4 : Vec Ideal S16x32 .f32) (x8 : Vec Ideal S16x1 .f32)
    (x5 : Vec Ideal S8x16 .f32) (v33 : Vec Ideal S1x1 .f32) (q : Fin 16384) :
    k0_pay1 (k0_pay2 x0 x1 x2 x6 x3 x7 x4 x8 x5) (k0_pay3 v33) (ix2 (0 : Fin 1) q)
      = bodyOut (catX (fun f => x0 (ix2 f q)) (fun f => x1 (ix2 f q)))
          (fun i k => x2 (ix2 i k)) (fun i => x6 (ix2 i (0 : Fin 1)))
          (fun i k => x3 (ix2 i k)) (fun i => x7 (ix2 i (0 : Fin 1)))
          (fun i k => x4 (ix2 i k)) (fun i => x8 (ix2 i (0 : Fin 1)))
          (fun k => x5 (ix2 (0 : Fin 8) k)) (v33 (ix2 (0 : Fin 1) (0 : Fin 1))) := by
  unfold k0_pay1 k0_pay2 k0_pay3
  simp only [shapeCast_self]
  rw [addf_apply, mulf_apply, broadcast_apply, vtanh_apply, addf_apply, colBroadcast_apply,
    slice2_axis0_apply 0 _ _ (0 : Fin 1) q (0 : Fin 8) rfl]
  rw [contract_apply dot_S8x16_S16x16384_S8x16384_1_0_0_1_n_n rfl x5 _ q _ (fun k3 =>
        layer_apply dot_S16x32_S32x16384_S16x16384_1_0_0_1_n_n rfl x4 _ x8 _ q _ (fun k2 =>
          layer_apply dot_S32x128_S128x16384_S32x16384_1_0_0_1_n_n rfl x3 _ x7 _ q _ (fun k1 =>
            layer_apply dot_S128x48_S48x16384_S128x16384_1_0_0_1_n_n rfl x2 _ x6 _ q _ (fun k0 =>
              stack_apply _ _ _ k0 q) k1) k2) k3) (0 : Fin 8)]
  rw [Ideal.ofBits_def, ofBits_half]
  unfold bodyOut catX
  simp only [shapeCast_self]

end Cert.KernelIdeal.Body

end
-- ==== Proof.KerBlocks.lean ====
/-
  The kernel's output array, and its result, as one function of the arrays the region finds.

  The grid has 12 points; point t handles batch lanes 16384 · t … 16384 · t + 16383: the two feature-major input
  arrays and the 1 × 196608 output are cut into 12 lane blocks, every weight and bias array is one block.  Lane q of
  what point t writes back is the body's function of column 16384 · t + q of the inputs, so the blocks are the
  restrictions of one function G of the arrays; they tile the output, which therefore ends holding G, and the two
  reshapes after the region lay it out as a column.
-/
import proofs.«145325_g2000202685343482_pallasbulk_962_25_alg».proof.Proof.Gen.KernelIdeal.Frame
import proofs.«145325_g2000202685343482_pallasbulk_962_25_alg».proof.Proof.KerBody
import proofs.«145325_g2000202685343482_pallasbulk_962_25_alg».proof.Proof.MlpBody
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Mlp

variable (m : (ℓ : Loc nD τ sig) → Buf (Elt Ideal) ℓ)

theorem hz : (![0, 0] : Fin 2 → Nat) = fun _ => 0 := funext fun a => by fin_cases a <;> rfl

/-- The output array as one function of the arrays the region finds: at lane r, the body's function of column r
    of the two input arrays and of the weight and bias arrays. -/
def G (c : Dev nD) : S1x196608.Idx → EReal := fun i =>
  bodyOut (catX (fun f => (V m c main_v1 : S24x196608.Idx → EReal) (ix2 f (i 1)))
      (fun f => (V m c main_v3 : S24x196608.Idx → EReal) (ix2 f (i 1))))
    (fun a k => (V m c main_v6 : S128x48.Idx → EReal) (ix2 a k)) (fun a => (V m c main_v9 : S128x1.Idx → EReal) (ix2 a (0 : Fin 1)))
    (fun a k => (V m c main_v13 : S32x128.Idx → EReal) (ix2 a k)) (fun a => (V m c main_v20 : S32x1.Idx → EReal) (ix2 a (0 : Fin 1)))
    (fun a k => (V m c main_v24 : S16x32.Idx → EReal) (ix2 a k)) (fun a => (V m c main_v31 : S16x1.Idx → EReal) (ix2 a (0 : Fin 1)))
    (fun k => (V m c main_v44 : S8x16.Idx → EReal) (ix2 (0 : Fin 8) k))
    ((V m c main_v47 : S8x1.Idx → EReal) (ix2 (0 : Fin 8) (0 : Fin 1)))

/-- The printed index maps over the grid: the lane-blocked windows sit at block (0, t), every other window at
    block (0, 0). -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = t.val) :=
  (by decide +kernel : ∀ t : Fin grid0.N, _)

theorem t_lt (t : Fin cfg0.N) : t.val < 12 := by have h : cfg0.N = 12 := N_0; have := t.isLt; omega

/-! ## Each window's block, read where the array holds it -/

theorem blk0 (c : Dev nD) (t : Fin cfg0.N) (f : Fin 24) (q : Fin 16384) :
    iblk m c 0 t (ix2 f q)
      = (V m c main_v1 : S24x196608.Idx → EReal) (ix2 f (⟨t.val * 16384 + q.val, by have := t_lt t; omega⟩ : Fin 196608)) := by
  show (V m c main_v1 : S24x196608.Idx → EReal) (((cfg0.win 0).blk t).view.emb (ix2 f q)) = _
  refine congrArg _ (funext fun a => Fin.ext ?_)
  obtain ⟨⟨e0, e1⟩, -⟩ := idx_facts t
  match a with
  | ⟨0, _⟩ => show win0_0.index t (0 : Fin 2) * 24 + 1 * f.val = f.val; omega
  | ⟨1, _⟩ => show win0_0.index t (1 : Fin 2) * 16384 + 1 * q.val = t.val * 16384 + q.val; omega

theorem blk1 (c : Dev nD) (t : Fin cfg0.N) (f : Fin 24) (q : Fin 16384) :
    iblk m c 1 t (ix2 f q)
      = (V m c main_v3 : S24x196608.Idx → EReal) (ix2 f (⟨t.val * 16384 + q.val, by have := t_lt t; omega⟩ : Fin 196608)) := by
  show (V m c main_v3 : S24x196608.Idx → EReal) (((cfg0.win 1).blk t).view.emb (ix2 f q)) = _
  refine congrArg _ (funext fun a => Fin.ext ?_)
  obtain ⟨-, ⟨e0, e1⟩, -⟩ := idx_facts t
  match a with
  | ⟨0, _⟩ => show win0_1.index t (0 : Fin 2) * 24 + 1 * f.val = f.val; omega
  | ⟨1, _⟩ => show win0_1.index t (1 : Fin 2) * 16384 + 1 * q.val = t.val * 16384 + q.val; omega

theorem blk2 (c : Dev nD) (t : Fin cfg0.N) (a : Fin 128) (k : Fin 48) :
    iblk m c 2 t (ix2 a k) = (V m c main_v6 : S128x48.Idx → EReal) (ix2 a k) := by
  show (V m c main_v6 : S128x48.Idx → EReal) (((cfg0.win 2).blk t).view.emb (ix2 a k)) = _
  refine congrArg _ (funext fun d => Fin.ext ?_)
  obtain ⟨-, -, ⟨e0, e1⟩, -⟩ := idx_facts t
  match d with
  | ⟨0, _⟩ => show win0_2.index t (0 : Fin 2) * 128 + 1 * a.val = a.val; omega
  | ⟨1, _⟩ => show win0_2.index t (1 : Fin 2) * 48 + 1 * k.val = k.val; omega

theorem blk3 (c : Dev nD) (t : Fin cfg0.N) (a : Fin 32) (k : Fin 128) :
    iblk m c 3 t (ix2 a k) = (V m c main_v13 : S32x128.Idx → EReal) (ix2 a k) := by
  show (V m c main_v13 : S32x128.Idx → EReal) (((cfg0.win 3).blk t).view.emb (ix2 a k)) = _
  refine congrArg _ (funext fun d => Fin.ext ?_)
  obtain ⟨-, -, -, ⟨e0, e1⟩, -⟩ := idx_facts t
  match d with
  | ⟨0, _⟩ => show win0_3.index t (0 : Fin 2) * 32 + 1 * a.val = a.val; omega
  | ⟨1, _⟩ => show win0_3.index t (1 : Fin 2) * 128 + 1 * k.val = k.val; omega

theorem blk4 (c : Dev nD) (t : Fin cfg0.N) (a : Fin 16) (k : Fin 32) :
    iblk m c 4 t (ix2 a k) = (V m c main_v24 : S16x32.Idx → EReal) (ix2 a k) := by
  show (V m c main_v24 : S16x32.Idx → EReal) (((cfg0.win 4).blk t).view.emb (ix2 a k)) = _
  refine congrArg _ (funext fun d => Fin.ext ?_)
  obtain ⟨-, -, -, -, ⟨e0, e1⟩, -⟩ := idx_facts t
  match d with
  | ⟨0, _⟩ => show win0_4.index t (0 : Fin 2) * 16 + 1 * a.val = a.val; omega
  | ⟨1, _⟩ => show win0_4.index t (1 : Fin 2) * 32 + 1 * k.val = k.val; omega

theorem blk5 (c : Dev nD) (t : Fin cfg0.N) (a : Fin 8) (k : Fin 16) :
    iblk m c 5 t (ix2 a k) = (V m c main_v44 : S8x16.Idx → EReal) (ix2 a k) := by
  show (V m c main_v44 : S8x16.Idx → EReal) (((cfg0.win 5).blk t).view.emb (ix2 a k)) = _
  refine congrArg _ (funext fun d => Fin.ext ?_)
  obtain ⟨-, -, -, -, -, ⟨e0, e1⟩, -⟩ := idx_facts t
  match d with
  | ⟨0, _⟩ => show win0_5.index t (0 : Fin 2) * 8 + 1 * a.val = a.val; omega
  | ⟨1, _⟩ => show win0_5.index t (1 : Fin 2) * 16 + 1 * k.val = k.val; omega

theorem blk6 (c : Dev nD) (t : Fin cfg0.N) (a : Fin 128) :
    iblk m c 6 t (ix2 a (0 : Fin 1)) = (V m c main_v9 : S128x1.Idx → EReal) (ix2 a (0 : Fin 1)) := by
  show (V m c main_v9 : S128x1.Idx → EReal) (((cfg0.win 6).blk t).view.emb (ix2 a (0 : Fin 1))) = _
  refine congrArg _ (funext fun d => Fin.ext ?_)
  obtain ⟨-, -, -, -, -, -, ⟨e0, e1⟩, -⟩ := idx_facts t
  match d with
  | ⟨0, _⟩ => show win0_6.index t (0 : Fin 2) * 128 + 1 * a.val = a.val; omega
  | ⟨1, _⟩ => show win0_6.index t (1 : Fin 2) * 1 + 1 * 0 = 0; omega

theorem blk7 (c : Dev nD) (t : Fin cfg0.N) (a : Fin 32) :
    iblk m c 7 t (ix2 a (0 : Fin 1)) = (V m c main_v20 : S32x1.Idx → EReal) (ix2 a (0 : Fin 1)) := by
  show (V m c main_v20 : S32x1.Idx → EReal) (((cfg0.win 7).blk t).view.emb (ix2 a (0 : Fin 1))) = _
  refine congrArg _ (funext fun d => Fin.ext ?_)
  obtain ⟨-, -, -, -, -, -, -, ⟨e0, e1⟩, -⟩ := idx_facts t
  match d with
  | ⟨0, _⟩ => show win0_7.index t (0 : Fin 2) * 32 + 1 * a.val = a.val; omega
  | ⟨1, _⟩ => show win0_7.index t (1 : Fin 2) * 1 + 1 * 0 = 0; omega

theorem blk8 (c : Dev nD) (t : Fin cfg0.N) (a : Fin 16) :
    iblk m c 8 t (ix2 a (0 : Fin 1)) = (V m c main_v31 : S16x1.Idx → EReal) (ix2 a (0 : Fin 1)) := by
  show (V m c main_v31 : S16x1.Idx → EReal) (((cfg0.win 8).blk t).view.emb (ix2 a (0 : Fin 1))) = _
  refine congrArg _ (funext fun d => Fin.ext ?_)
  obtain ⟨-, -, -, -, -, -, -, -, ⟨e0, e1⟩, -⟩ := idx_facts t
  match d with
  | ⟨0, _⟩ => show win0_8.index t (0 : Fin 2) * 16 + 1 * a.val = a.val; omega
  | ⟨1, _⟩ => show win0_8.index t (1 : Fin 2) * 1 + 1 * 0 = 0; omega

/-- The body reads only entry (0, 0) of the last bias block, through a 1 × 1 rectangle at the origin. -/
theorem blk9 (c : Dev nD) (t : Fin cfg0.N) :
    View.ld (iblk m c 9 t) r0_8 (ix2 (0 : Fin 1) (0 : Fin 1))
      = (V m c main_v47 : S8x1.Idx → EReal) (ix2 (0 : Fin 8) (0 : Fin 1)) := by
  show (V m c main_v47 : S8x1.Idx → EReal) (((cfg0.win 9).blk t).view.emb (r0_8.emb (ix2 (0 : Fin 1) (0 : Fin 1)))) = _
  refine congrArg _ (funext fun d => Fin.ext ?_)
  obtain ⟨-, -, -, -, -, -, -, -, -, ⟨e0, e1⟩, -⟩ := idx_facts t
  match d with
  | ⟨0, _⟩ => show win0_9.index t (0 : Fin 2) * 8 + 1 * (0 + 1 * 0) = 0; omega
  | ⟨1, _⟩ => show win0_9.index t (1 : Fin 2) * 1 + 1 * (0 + 1 * 0) = 0; omega

/-! ## What a point writes back -/

/-- Lane q of the body's result at point t is G at lane 16384 · t + q. -/
theorem point_eq (c : Dev nD) (t : Fin cfg0.N) (q : Fin 16384) :
    k0_pay1 (k0_pay2 (iblk m c 0 t) (iblk m c 1 t) (iblk m c 2 t) (iblk m c 6 t) (iblk m c 3 t) (iblk m c 7 t)
        (iblk m c 4 t) (iblk m c 8 t) (iblk m c 5 t)) (k0_pay3 (View.ld (iblk m c 9 t) r0_8)) (ix2 (0 : Fin 1) q)
      = G m c (ix2 (0 : Fin 1) (⟨t.val * 16384 + q.val, by have := t_lt t; omega⟩ : Fin 196608)) := by
  refine (Cert.KernelIdeal.Body.pay_apply (iblk m c 0 t) (iblk m c 1 t) (iblk m c 2 t) (iblk m c 6 t) (iblk m c 3 t)
    (iblk m c 7 t) (iblk m c 4 t) (iblk m c 8 t) (iblk m c 5 t) (View.ld (iblk m c 9 t) r0_8) q).trans ?_
  unfold G
  simp only [blk0, blk1, blk2, blk3, blk4, blk5, blk6, blk7, blk8, blk9]

/-- WHAT POINT t WRITES BACK is block t of G. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold out0_10
  rw [View.canon_unit_zero hz]
  simp only [View.ld_unit_zero (S := S24x16384) hz, View.ld_unit_zero (S := S128x48) hz,
    View.ld_unit_zero (S := S128x1) hz, View.ld_unit_zero (S := S32x128) hz, View.ld_unit_zero (S := S32x1) hz,
    View.ld_unit_zero (S := S16x32) hz, View.ld_unit_zero (S := S16x1) hz, View.ld_unit_zero (S := S8x16) hz]
  funext y
  have hy0 : (y 0).val < 1 := (y 0).isLt
  have hy1 : (y 1).val < 16384 := (y 1).isLt
  have hy : y = ix2 (0 : Fin 1) (⟨(y 1).val, hy1⟩ : Fin 16384) := funext fun a => by
    match a with
    | ⟨0, _⟩ => exact Fin.ext (by show (y 0).val = 0; omega)
    | ⟨1, _⟩ => rfl
  rw [hy]
  refine (point_eq m c t ⟨(y 1).val, hy1⟩).trans ?_
  show G m c _ = G m c (((cfg0.win 10).blk t).view.emb (ix2 (0 : Fin 1) (⟨(y 1).val, hy1⟩ : Fin 16384)))
  refine congrArg _ (funext fun a => Fin.ext ?_)
  obtain ⟨-, -, -, -, -, -, -, -, -, -, ⟨e0, e1⟩⟩ := idx_facts t
  match a with
  | ⟨0, _⟩ => show 0 = win0_10.index t (0 : Fin 2) * 1 + 1 * 0; omega
  | ⟨1, _⟩ => show t.val * 16384 + (y 1).val = win0_10.index t (1 : Fin 2) * 16384 + 1 * (y 1).val; omega

/-- An index of the output array is in point t's block iff each coordinate is in the block's range on its axis. -/
theorem mem_blk (t : Fin cfg0.N) (i : S1x196608.Idx) :
    i ∈ ((cfg0.win 10).blk t).view.set ↔ ∀ a : Fin 2, win0_10.index t a * S1x16384.size a ≤ (i a).val
      ∧ (i a).val < win0_10.index t a * S1x16384.size a + S1x16384.size a := by
  show i ∈ ((View.whole main_v48).slice (win0_10.rect t)).set ↔ _
  rw [View.set_slice_whole, Rect.mem_set_unit]
  exact Iff.rfl

/-- The twelve lane blocks tile the output: lane r is in the block of point r / 16384. -/
theorem cover (i : S1x196608.Idx) :
    ∃ t : Fin cfg0.N, (cfg0.win 10).flush t = true ∧ i ∈ ((cfg0.win 10).blk t).view.set := by
  have hi0 : (i 0).val < 1 := (i 0).isLt
  have hi1 : (i 1).val < 196608 := (i 1).isLt
  have hN : cfg0.N = 12 := N_0
  refine ⟨⟨(i 1).val / 16384, by omega⟩, flush0_10 _, ?_⟩
  rw [mem_blk]
  obtain ⟨-, -, -, -, -, -, -, -, -, -, ⟨e0, e1⟩⟩ := idx_facts ⟨(i 1).val / 16384, by omega⟩
  intro a
  match a with
  | ⟨0, _⟩ =>
    show win0_10.index _ (0 : Fin 2) * 1 ≤ (i 0).val ∧ (i 0).val < win0_10.index _ (0 : Fin 2) * 1 + 1
    rw [e0]; omega
  | ⟨1, _⟩ =>
    show win0_10.index _ (1 : Fin 2) * 16384 ≤ (i 1).val ∧ (i 1).val < win0_10.index _ (1 : Fin 2) * 16384 + 16384
    rw [e1]
    show (i 1).val / 16384 * 16384 ≤ (i 1).val ∧ (i 1).val < (i 1).val / 16384 * 16384 + 16384
    omega

/-- THE OUTPUT ARRAY after the run is G. -/
theorem final (c : Dev nD) : (dats m 0 c).arrAt 10 cfg0.N = G m c :=
  (dats m 0 c).arrAt_eq_of_cover 10 (G m c) (fun t _ => flushed_eq m c t) cover

end Cert.KernelIdeal.Blocks

end
-- ==== Proof.KerRun.lean ====
/-
  The kernel's run with its result named.

  After the region the program reshapes the 1 × 196608 output to a vector and then to a 196608 × 1 column; row-major
  positions are preserved, so entry (r, 0) of the result is lane r of the output array, which is G.
-/
import proofs.«145325_g2000202685343482_pallasbulk_962_25_alg».proof.Proof.KerBlocks

set_option maxRecDepth 16384

noncomputable section

namespace Cert.KernelIdeal.Run

open Idealize.ShloMosaic Idealize.ShloMosaic.TcCoe Idealize.ShloMosaic.ValueIdx Idealize.SL.Sem
open Cert.KernelIdeal Cert.KernelIdeal.Gen Cert.Mlp Cert.KernelIdeal.Blocks

variable (m : (ℓ : Loc nD τ sig) → Buf (Elt Ideal) ℓ)

/-- The row of 196608 lanes read as a column: entry (r, 0) is lane r. -/
theorem column_of_row (g : S1x196608.Idx → EReal) (i : S196608x1.Idx) :
    shapeCast S196608x1 (shapeCast S196608 g shapeCasts_S1x196608_S196608) shapeCasts_S196608_S196608x1 i
      = g (ix2 (0 : Fin 1) (i 0)) := by
  have hi1 : (i 1).val < 1 := (i 1).isLt
  refine (shapeCast_apply _ _ i (ix1 (i 0)) ?_).trans (shapeCast_apply _ _ (ix1 (i 0)) (ix2 (0 : Fin 1) (i 0)) ?_)
  · rw [Shape.rowMajor_val_one, Shape.rowMajor_val_two]
    show (i 0).val = (i 0).val * 1 + (i 1).val
    omega
  · rw [Shape.rowMajor_val_two, Shape.rowMajor_val_one]
    show 0 * 196608 + (i 0).val = (i 0).val
    omega

/-- What the lines after the region leave in the result buffer. -/
theorem tail_eq (c : Dev nD) :
    Pipeline.afterTail₀ cfgs (dats m) 0 (V0 m) [hostOps1] c main_v50
      = fun i : S196608x1.Idx => G m c (ix2 (0 : Fin 1) (i 0)) := by
  unfold Pipeline.afterTail₀
  show StableHlo.after hostOps1 _ (Proc.devRef .tc main_v50) = _
  after_results
  have hA : Pipeline.withArrays (cfgs 0).spec c (V0 m c) (fun w => (dats m 0 c).arrAt w (cfgs 0).N)
      (Proc.tc.devRef main_v48) = G m c :=
    (Pipeline.withArrays_arr spec0 launch0.win.arr_inj c _ _ 10).trans (final m c)
  rw [hA]
  funext i
  exact column_of_row (G m c) i

/-- THE RUN: the result is G read as a column, and the arguments end unchanged. -/
theorem result (ρ : Dev nD → PrngReg) :
    θ_run defs (onTc (τ := τ) (main (F := Ideal))) ⟨m, fun _ => 0, ρ⟩ (fun r => ∀ c : Dev nD,
      r.2.mem ((c.tc : Thread nD τ).loc main_v50) = (fun i : S196608x1.Idx => G m c (ix2 (0 : Fin 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v50 (Pipeline.mem_restRefs_of main_v50 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Run

end
-- ==== Proof.MlpIdx.lean ====
/-
  One batch element's 24 features, read off an array of shape [batch, 8, 3]: feature f is entry (f / 3, f % 3).
  Both programs flatten the two trailing axes this way (the kernel after moving the batch axis last).
-/
import Idealize.ShloMosaic.Lib.ValueIdx

noncomputable section

namespace Cert.Mlp

open Idealize.ShloMosaic Idealize.ShloMosaic.ValueIdx

/-- Feature `f` of batch element `r`. -/
def xrow (a : (⟨3, ![196608, 8, 3]⟩ : Shape).Idx → EReal) (r : Fin 196608) (f : Fin 24) : EReal :=
  a (ix3 r (⟨f.val / 3, by have := f.isLt; omega⟩ : Fin 8) (⟨f.val % 3, by omega⟩ : Fin 3))

end Cert.Mlp

end
-- ==== Proof.LibScatterAt.lean ====
/-
  A scatter read at one element of its result.

  The host's scatter is a left fold over the update indices in row-major order. Each update index `j` lands on
  an operand index (`ScatterDims.resultIdx? j idx`) or on none, and a step of the fold replaces the running
  result's element there by the body `f` applied to that element and the update's element. Read at one operand
  index `i`, for any dimension numbers and any body:
    * if no update index lands on `i`, the result holds the operand's element `x i` (`scatter_apply_of_none`);
    * if exactly one update index `j` lands on `i`, the result holds `f (x i) (upd j)` (`scatter_apply_of_unique`).
  Both follow from two facts about a left fold of functions read at one point (`foldl_apply_keep`,
  `foldl_apply_once`): steps that do not change the value at the point can be dropped, and among distinct steps a
  single one that changes it there is the only one seen.
-/
import Idealize.ShloMosaic.PureOps.ShapeOps

namespace Cert.ScatterAt

open Idealize.ShloMosaic

section Fold

variable {β ι σ : Type}

/-- A left fold of functions, read at a point `i` none of whose steps changes the value at `i`, is the initial
    function at `i`. -/
theorem foldl_apply_keep (g : (σ → β) → ι → (σ → β)) (i : σ) :
    ∀ (l : List ι) (r : σ → β), (∀ n ∈ l, ∀ r', g r' n i = r' i) → l.foldl g r i = r i
  | [], _, _ => rfl
  | a :: l, r, h => by
    rw [List.foldl_cons, foldl_apply_keep g i l (g r a) fun n hn => h n (List.mem_cons_of_mem a hn)]
    exact h a List.mem_cons_self r

/-- A left fold of functions over pairwise distinct steps, read at a point `i` where one step `n0` applies `F`
    to the value at `i` and every other step keeps it, is `F` of the initial function at `i`. -/
theorem foldl_apply_once (g : (σ → β) → ι → (σ → β)) (i : σ) (F : β → β) (n0 : ι)
    (h0 : ∀ r', g r' n0 i = F (r' i)) :
    ∀ (l : List ι) (r : σ → β), l.Nodup → n0 ∈ l → (∀ n ∈ l, n ≠ n0 → ∀ r', g r' n i = r' i) →
      l.foldl g r i = F (r i)
  | [], _, _, hm, _ => absurd hm List.not_mem_nil
  | a :: l, r, hnd, hm, h => by
    rw [List.foldl_cons]
    by_cases ha : a = n0
    · subst ha
      rw [foldl_apply_keep g i l (g r a) fun n hn =>
        h n (List.mem_cons_of_mem a hn) fun hna => (List.nodup_cons.mp hnd).1 (hna ▸ hn)]
      exact h0 r
    · have hm' : n0 ∈ l := (List.mem_cons.mp hm).resolve_left fun e => ha e.symm
      rw [foldl_apply_once g i F n0 h0 l (g r a) (List.nodup_cons.mp hnd).2 hm'
        fun n hn => h n (List.mem_cons_of_mem a hn)]
      exact congrArg F (h a List.mem_cons_self ha r)

end Fold

variable {s si u : Shape} {α : Type} {w : Nat}

/-- An operand index on which no update index lands keeps the operand's element. -/
theorem scatter_apply_of_none (d : ScatterDims s si u) (f : α → α → α) (x : s.Idx → α) (idx : IVec si w)
    (upd : u.Idx → α) (i : s.Idx) (hnone : ∀ j, d.resultIdx? j idx ≠ some i) :
    Host.scatter d f x idx upd i = x i := by
  unfold Host.scatter
  refine foldl_apply_keep _ i _ x fun n _ r' => ?_
  have hn := hnone (u.rowMajor.symm n)
  generalize d.resultIdx? (u.rowMajor.symm n) idx = o at hn
  cases o with
  | none => rfl
  | some i0 => exact if_neg fun (e : i = i0) => hn (by rw [e])

/-- An operand index on which exactly one update index `j` lands holds the body applied to the operand's element
    and that update's element. -/
theorem scatter_apply_of_unique (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  refine foldl_apply_once _ i (fun a => f a (upd j)) (u.rowMajor j) (fun r' => ?_) _ x
    (List.nodup_finRange _) (List.mem_finRange _) fun n _ hne r' => ?_
  · show (match d.resultIdx? (u.rowMajor.symm (u.rowMajor j)) idx with
      | some i0 => fun i' => if i' = i0 then f (r' i0) (upd (u.rowMajor.symm (u.rowMajor j))) else r' i'
      | none => r') i = f (r' i) (upd j)
    rw [Equiv.symm_apply_apply, hj]
    exact if_pos rfl
  · have hn : d.resultIdx? (u.rowMajor.symm n) idx ≠ some i := fun e =>
      hne (by rw [← huniq _ e, Equiv.apply_symm_apply])
    generalize d.resultIdx? (u.rowMajor.symm n) idx = o at hn
    cases o with
    | none => rfl
    | some i0 => exact if_neg fun (e : i = i0) => hn (by rw [e])

end Cert.ScatterAt
-- ==== Proof.KerScatter.lean ====
/-
  The kernel program's two scatters, read at one element of their result.

  Each scatter writes a one-row update (1 × 16, resp. 1 × 1) into an 8-row operand at the start row held by a
  one-entry index vector, with the identity-on-the-update body. When that entry is 0 the update index (0, c)
  lands on the operand index (0, c) and on no other, so the result is the update on row 0 and the operand on
  rows 1 … 7.

  For a general scatter an update index lands on operand index `i` exactly when, on every operand axis, the start
  component plus the window coordinate is `i`'s coordinate (`resultIdx?_eq_some_iff`); for each of the two records
  the start components and window coordinates are computed on each axis, which turns that condition into
  equations between coordinates.
-/
import proofs.«145325_g2000202685343482_pallasbulk_962_25_alg».proof.Proof.LibScatterAt
import proofs.«145325_g2000202685343482_pallasbulk_962_25_alg».proof.Proof.Gen.KernelIdeal
import Idealize.ShloMosaic.Lib.ValueIdx

namespace Cert.KernelIdeal.Scat

open Idealize.ShloMosaic Idealize.ShloMosaic.ValueIdx Cert.KernelIdeal

/-- An update index lands on operand index `i` exactly when, on every operand axis, the start plus the window
    coordinate is `i`'s coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · have h' := congrFun (Option.some.inj h) a
      rename_i hb
      have := hb a
      rw [← h']
      show _ = ((Int.toNat _ : Nat) : Int)
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    show Int.toNat _ = (i a).val
    omega

/-- The one-entry index vector has a single index. -/
theorem si1 (b : S1.Idx) : b = ix1 (0 : Fin 1) :=
  (eq_ix1 b).trans (congrArg ix1 (@Subsingleton.elim (Fin 1) _ (b 0) 0))

/-! ## The 1 × 16 row into the 8 × 16 operand -/

theorem startA0 (IDX : IVec S1 32) (h0 : IDX (ix1 (0 : Fin 1)) = 0#32) (j : S1x16.Idx) :
    scatter_S8x16_S1_S1x16_01_n_0_0.start j IDX 0 = 0 := by
  unfold ScatterDims.start
  simp [scatter_S8x16_S1_S1x16_01_n_0_0]
  generalize ScatterDims.siIdx _ j _ = b
  rw [si1 b, h0]; rfl

theorem startA1 (IDX : IVec S1 32) (j : S1x16.Idx) :
    scatter_S8x16_S1_S1x16_01_n_0_0.start j IDX 1 = 0 := by
  unfold ScatterDims.start
  simp [scatter_S8x16_S1_S1x16_01_n_0_0]

theorem windowA0 (j : S1x16.Idx) : scatter_S8x16_S1_S1x16_01_n_0_0.window j 0 = (j 0).val := rfl

theorem windowA1 (j : S1x16.Idx) : scatter_S8x16_S1_S1x16_01_n_0_0.window j 1 = (j 1).val := rfl

/-- Update index (a, b) of the row lands on operand index (i, k) exactly when i = 0 and b = k. -/
theorem lands8x16 (IDX : IVec S1 32) (h0 : IDX (ix1 (0 : Fin 1)) = 0#32) (a : Fin 1) (b : Fin 16) (i : Fin 8)
    (k : Fin 16) :
    scatter_S8x16_S1_S1x16_01_n_0_0.resultIdx? (ix2 a b) IDX = some (ix2 i k) ↔ i.val = 0 ∧ b = k := by
  rw [resultIdx?_eq_some_iff]
  constructor
  · intro h
    have e0 := h 0
    have e1 := h 1
    rw [startA0 IDX h0, windowA0] at e0
    rw [startA1, windowA1] at e1
    have := a.isLt
    refine ⟨?_, Fin.ext ?_⟩
    · show (ix2 i k 0).val = 0
      have : (ix2 a b 0).val = a.val := rfl
      omega
    · show (ix2 a b 1).val = (ix2 i k 1).val
      omega
  · rintro ⟨hi, hk⟩ c
    match c with
    | ⟨0, _⟩ =>
      show scatter_S8x16_S1_S1x16_01_n_0_0.start (ix2 a b) IDX 0
        + (scatter_S8x16_S1_S1x16_01_n_0_0.window (ix2 a b) 0 : Int) = (i.val : Int)
      rw [startA0 IDX h0, windowA0]
      have : (ix2 a b 0).val = a.val := rfl
      have := a.isLt
      omega
    | ⟨1, _⟩ =>
      show scatter_S8x16_S1_S1x16_01_n_0_0.start (ix2 a b) IDX 1
        + (scatter_S8x16_S1_S1x16_01_n_0_0.window (ix2 a b) 1 : Int) = (k.val : Int)
      rw [startA1, windowA1, ← hk]
      show (0 : Int) + (b.val : Int) = (b.val : Int)
      omega

/-- The 8 × 16 scatter at element (i, k): the update's row on row 0, the operand elsewhere. -/
theorem scat8x16 {α : Type} (X : S8x16.Idx → α) (IDX : IVec S1 32) (h0 : IDX (ix1 (0 : Fin 1)) = 0#32)
    (U : S1x16.Idx → α) (i : Fin 8) (k : Fin 16) :
    Host.scatter scatter_S8x16_S1_S1x16_01_n_0_0 (fun _ b => b) X IDX U (ix2 i k)
      = if i.val = 0 then U (ix2 (0 : Fin 1) k) else X (ix2 i k) := by
  split
  · rename_i hi
    refine Cert.ScatterAt.scatter_apply_of_unique _ _ X IDX U (ix2 i k) (ix2 (0 : Fin 1) k)
      ((lands8x16 IDX h0 0 k i k).2 ⟨hi, rfl⟩) fun j' hj' => ?_
    obtain ⟨a, b, rfl⟩ : ∃ a b, j' = ix2 a b := ⟨_, _, eq_ix2 j'⟩
    obtain ⟨_, rfl⟩ := (lands8x16 IDX h0 a b i k).1 hj'
    obtain rfl : a = 0 := Subsingleton.elim _ _
    rfl
  · rename_i hi
    refine Cert.ScatterAt.scatter_apply_of_none _ _ X IDX U _ fun j hj => ?_
    obtain ⟨a, b, rfl⟩ : ∃ a b, j = ix2 a b := ⟨_, _, eq_ix2 j⟩
    exact hi ((lands8x16 IDX h0 a b i k).1 hj).1

/-! ## The 1 × 1 entry into the 8 × 1 operand -/

theorem startB0 (IDX : IVec S1 32) (h0 : IDX (ix1 (0 : Fin 1)) = 0#32) (j : S1x1.Idx) :
    scatter_S8x1_S1_S1x1_01_n_0_0.start j IDX 0 = 0 := by
  unfold ScatterDims.start
  simp [scatter_S8x1_S1_S1x1_01_n_0_0]
  generalize ScatterDims.siIdx _ j _ = b
  rw [si1 b, h0]; rfl

theorem startB1 (IDX : IVec S1 32) (j : S1x1.Idx) :
    scatter_S8x1_S1_S1x1_01_n_0_0.start j IDX 1 = 0 := by
  unfold ScatterDims.start
  simp [scatter_S8x1_S1_S1x1_01_n_0_0]

theorem windowB0 (j : S1x1.Idx) : scatter_S8x1_S1_S1x1_01_n_0_0.window j 0 = (j 0).val := rfl

theorem windowB1 (j : S1x1.Idx) : scatter_S8x1_S1_S1x1_01_n_0_0.window j 1 = (j 1).val := rfl

/-- Update index (a, b) of the entry lands on operand index (i, k) exactly when i = 0 and b = k. -/
theorem lands8x1 (IDX : IVec S1 32) (h0 : IDX (ix1 (0 : Fin 1)) = 0#32) (a : Fin 1) (b : Fin 1) (i : Fin 8)
    (k : Fin 1) :
    scatter_S8x1_S1_S1x1_01_n_0_0.resultIdx? (ix2 a b) IDX = some (ix2 i k) ↔ i.val = 0 ∧ b = k := by
  rw [resultIdx?_eq_some_iff]
  constructor
  · intro h
    have e0 := h 0
    have e1 := h 1
    rw [startB0 IDX h0, windowB0] at e0
    rw [startB1, windowB1] at e1
    have := a.isLt
    refine ⟨?_, Fin.ext ?_⟩
    · show (ix2 i k 0).val = 0
      have : (ix2 a b 0).val = a.val := rfl
      omega
    · show (ix2 a b 1).val = (ix2 i k 1).val
      omega
  · rintro ⟨hi, hk⟩ c
    match c with
    | ⟨0, _⟩ =>
      show scatter_S8x1_S1_S1x1_01_n_0_0.start (ix2 a b) IDX 0
        + (scatter_S8x1_S1_S1x1_01_n_0_0.window (ix2 a b) 0 : Int) = (i.val : Int)
      rw [startB0 IDX h0, windowB0]
      have : (ix2 a b 0).val = a.val := rfl
      have := a.isLt
      omega
    | ⟨1, _⟩ =>
      show scatter_S8x1_S1_S1x1_01_n_0_0.start (ix2 a b) IDX 1
        + (scatter_S8x1_S1_S1x1_01_n_0_0.window (ix2 a b) 1 : Int) = (k.val : Int)
      rw [startB1, windowB1, ← hk]
      show (0 : Int) + (b.val : Int) = (b.val : Int)
      omega

/-- The 8 × 1 scatter at element (i, 0): the update's entry on row 0, the operand elsewhere. -/
theorem scat8x1 {α : Type} (X : S8x1.Idx → α) (IDX : IVec S1 32) (h0 : IDX (ix1 (0 : Fin 1)) = 0#32)
    (U : S1x1.Idx → α) (i : Fin 8) :
    Host.scatter scatter_S8x1_S1_S1x1_01_n_0_0 (fun _ b => b) X IDX U (ix2 i (0 : Fin 1))
      = if i.val = 0 then U (ix2 (0 : Fin 1) (0 : Fin 1)) else X (ix2 i (0 : Fin 1)) := by
  split
  · rename_i hi
    refine Cert.ScatterAt.scatter_apply_of_unique _ _ X IDX U (ix2 i (0 : Fin 1)) (ix2 (0 : Fin 1) (0 : Fin 1))
      ((lands8x1 IDX h0 0 0 i 0).2 ⟨hi, rfl⟩) fun j' hj' => ?_
    obtain ⟨a, b, rfl⟩ : ∃ a b, j' = ix2 a b := ⟨_, _, eq_ix2 j'⟩
    obtain ⟨_, rfl⟩ := (lands8x1 IDX h0 a b i 0).1 hj'
    obtain rfl : a = 0 := Subsingleton.elim _ _
    rfl
  · rename_i hi
    refine Cert.ScatterAt.scatter_apply_of_none _ _ X IDX U _ fun j hj => ?_
    obtain ⟨a, b, rfl⟩ : ∃ a b, j = ix2 a b := ⟨_, _, eq_ix2 j⟩
    exact hi ((lands8x1 IDX h0 a b i 0).1 hj).1

end Cert.KernelIdeal.Scat
-- ==== Proof.KerHost.lean ====
import proofs.«145325_g2000202685343482_pallasbulk_962_25_alg».proof.Proof.Gen.KernelIdeal.Frame
import proofs.«145325_g2000202685343482_pallasbulk_962_25_alg».proof.Proof.MlpBody
import proofs.«145325_g2000202685343482_pallasbulk_962_25_alg».proof.Proof.MlpIdx
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost
import proofs.«145325_g2000202685343482_pallasbulk_962_25_alg».proof.Proof.KerScatter

/-
  The kernel program's host-side arrays, each read at one index.

  Every array the kernel is launched on is a short expression in the program's arguments: a transpose, a
  reshape, a product with the constant 1/2 or 1/4, a row sum, a sum with a bias.  Each is first written as
  that expression and then read at an index by the rules for the single operations:
    a constant broadcast and multiplied in is the constant times the entry;
    a transposed matrix at (j, i) is the matrix at (i, j);
    a row [1, a] reshaped to a column [a, 1] keeps its entries in order;
    an array [N, 8, 3] with its first axis moved last and the two others flattened reads, at (f, r),
      entry (r, f / 3, f % 3);
    a row sum from an initial value is that value plus the sum over the row.
-/

noncomputable section

namespace Cert.KernelIdeal.Host

open Idealize.ShloMosaic Idealize.ShloMosaic.ValueIdx Cert.KernelIdeal Cert.KernelIdeal.Gen Cert.Mlp
open Idealize.ShloMosaic.TcCoe

/-! ## Single operations at an index -/

/-- A scalar constant broadcast to any shape and multiplied in: the constant's value times the entry. -/
theorem mulf_const_apply {S : Shape} (h : S_.BroadcastsInDim S (![] : Fin 0 → Fin S.rank)) (b : BitVec 32)
    (X : FVec Ideal S .f32) (i : S.Idx) :
    mulf (broadcastInDim S ![] h (constant (F := Ideal) S_ .f32 b)) X i = Ideal.ofBits .f32 b * X i := by
  rw [mulf_apply, broadcastInDim_scalar_apply, constant_apply]

/-- A row [1, a] reshaped to a column [a, 1]: entry (i, 0) of the column is entry (0, i) of the row. -/
theorem shapeCast_row_col_apply {a : ℕ} (x : (⟨2, ![1, a]⟩ : Shape).Idx → EReal)
    (h : (⟨2, ![1, a]⟩ : Shape).ShapeCasts ⟨2, ![a, 1]⟩) (i : Fin a) :
    shapeCast ⟨2, ![a, 1]⟩ x h (ix2 i (0 : Fin 1)) = x (ix2 (0 : Fin 1) i) :=
  shapeCast_apply x h _ _ (by
    rw [Shape.rowMajor_val_two, Shape.rowMajor_val_two]
    show 0 * a + i.val = i.val * 1 + 0
    omega)

/-- An array [N, 8, 3] with its first axis moved last, then flattened to [24, N]: entry (f, r) is entry
    (r, f / 3, f % 3) of the array. -/
theorem features_apply (x : (⟨3, ![196608, 8, 3]⟩ : Shape).Idx → EReal)
    (ht : (⟨3, ![196608, 8, 3]⟩ : Shape).Transposes [1, 2, 0] ⟨3, ![8, 3, 196608]⟩)
    (hc : (⟨3, ![8, 3, 196608]⟩ : Shape).ShapeCasts ⟨2, ![24, 196608]⟩) (f : Fin 24) (r : Fin 196608) :
    shapeCast ⟨2, ![24, 196608]⟩ (transpose ⟨3, ![8, 3, 196608]⟩ [1, 2, 0] x ht) hc (ix2 f r) = xrow x r f := by
  have hf := f.isLt
  have h8 : f.val / 3 < 8 := by omega
  have h3 : f.val % 3 < 3 := by omega
  refine (shapeCast_apply _ hc (ix2 f r) (ix3 (⟨f.val / 3, h8⟩ : Fin 8) (⟨f.val % 3, h3⟩ : Fin 3) r) ?_).trans ?_
  · rw [Shape.rowMajor_val_three, Shape.rowMajor_val_two]
    show (f.val / 3 * 3 + f.val % 3) * 196608 + r.val = f.val * 196608 + r.val
    have := Nat.div_add_mod f.val 3
    have e : f.val / 3 * 3 + f.val % 3 = f.val := by omega
    rw [e]
  · exact transpose_apply _ x ht _ (ix3 r (⟨f.val / 3, h8⟩ : Fin 8) (⟨f.val % 3, h3⟩ : Fin 3))
      fun b => match b with | ⟨0, _⟩ => rfl | ⟨1, _⟩ => rfl | ⟨2, _⟩ => rfl

/-- A row sum from an initial value: entry i is the initial value plus the sum of row i. -/
theorem rowsum_apply {n d : ℕ} (X : (⟨2, ![n, d]⟩ : Shape).Idx → EReal) (init : S_.Idx → EReal)
    (hr : (⟨2, ![n, d]⟩ : Shape).ReducesTo [1] ⟨1, ![n]⟩) (h : (⟨2, ![n, d]⟩ : Shape).Reduces [1] ⟨1, ![n]⟩)
    (hS : 0 < S_.numel) (i : Fin n) :
    Host.reduceAdd (F := Ideal) (φ := .f32) X init hr hS (ix1 i) = init ix0 + ∑ k : Fin d, X (ix2 i k) := by
  have e : Host.reduceAdd (F := Ideal) (φ := .f32) X init hr hS (ix1 i)
      = init (Shape.Idx.first hS) + ∑ k : Fin d, X (h.lift (ix1 i) k) :=
    Ideal.hostReduceAdd_single hr h X (init (Shape.Idx.first hS)) (ix1 i)
  rw [e]
  congr 1
  · exact congrArg init (funext fun a => a.elim0)
  · apply Finset.sum_congr rfl
    intro k _
    exact congrArg X (funext fun a => match a with | ⟨0, _⟩ => Fin.ext rfl | ⟨1, _⟩ => Fin.ext rfl)

/-- A vector [a] broadcast to a column [a, 1]: entry (i, 0) is entry i. -/
theorem bcast_col_apply {a : ℕ} (x : (⟨1, ![a]⟩ : Shape).Idx → EReal)
    (h : (⟨1, ![a]⟩ : Shape).BroadcastsInDim ⟨2, ![a, 1]⟩ (![0] : Fin 1 → Fin 2)) (i : Fin a) :
    broadcastInDim ⟨2, ![a, 1]⟩ ![0] h x (ix2 i (0 : Fin 1)) = x (ix1 i) :=
  broadcastInDim_apply _ h x _ _ fun a' => match a' with
    | ⟨0, _⟩ => by
      show i.val = if a = 1 then 0 else i.val
      have := i.isLt
      split_ifs <;> omega

/-! ## The arrays as expressions in the arguments -/

variable (m : (ℓ : Loc nD τ sig) → Buf (Elt Ideal) ℓ) (c : Dev nD)

set_option quotPrecheck false in
local notation "A0" => (m ((c : Thread nD τ).loc main_arg0) : S196608x8x3.Idx → EReal)
set_option quotPrecheck false in
local notation "A1" => (m ((c : Thread nD τ).loc main_arg1) : S196608x8x3.Idx → EReal)
set_option quotPrecheck false in
local notation "A2" => (m ((c : Thread nD τ).loc main_arg2) : S48x128.Idx → EReal)
set_option quotPrecheck false in
local notation "A3" => (m ((c : Thread nD τ).loc main_arg3) : S1x128.Idx → EReal)
set_option quotPrecheck false in
local notation "A4" => (m ((c : Thread nD τ).loc main_arg4) : S128x32.Idx → EReal)
set_option quotPrecheck false in
local notation "A5" => (m ((c : Thread nD τ).loc main_arg5) : S1x32.Idx → EReal)
set_option quotPrecheck false in
local notation "A6" => (m ((c : Thread nD τ).loc main_arg6) : S32x16.Idx → EReal)
set_option quotPrecheck false in
local notation "A7" => (m ((c : Thread nD τ).loc main_arg7) : S1x16.Idx → EReal)
set_option quotPrecheck false in
local notation "A8" => (m ((c : Thread nD τ).loc main_arg8) : S16x1.Idx → EReal)
set_option quotPrecheck false in
local notation "A9" => (m ((c : Thread nD τ).loc main_arg9) : S1x1.Idx → EReal)

theorem v1_eq : (V m c main_v1 : S24x196608.Idx → EReal)
    = shapeCast S24x196608 (transpose S8x3x196608 [1, 2, 0] A0 transposes_S196608x8x3_S8x3x196608_1_2_0)
        shapeCasts_S8x3x196608_S24x196608 := by
  show StableHlo.after hostOps0 (fun b => m (c, b)) (Proc.devRef .tc main_v1) = _
  after_results_simp
  try rfl

theorem v3_eq : (V m c main_v3 : S24x196608.Idx → EReal)
    = shapeCast S24x196608 (transpose S8x3x196608 [1, 2, 0] A1 transposes_S196608x8x3_S8x3x196608_1_2_0)
        shapeCasts_S8x3x196608_S24x196608 := by
  show StableHlo.after hostOps0 (fun b => m (c, b)) (Proc.devRef .tc main_v3) = _
  after_results_simp
  try rfl

theorem v6_eq : (V m c main_v6 : S128x48.Idx → EReal)
    = mulf (broadcastInDim S128x48 ![] bcast_S_S128x48 (constant (F := Ideal) S_ .f32 0x3F000000#32))
        (transpose S128x48 [1, 0] A2 transposes_S48x128_S128x48_1_0) := by
  show StableHlo.after hostOps0 (fun b => m (c, b)) (Proc.devRef .tc main_v6) = _
  after_results_simp
  try rfl

theorem v9_eq : (V m c main_v9 : S128x1.Idx → EReal)
    = mulf (broadcastInDim S128x1 ![] bcast_S_S128x1 (constant (F := Ideal) S_ .f32 0x3F000000#32))
        (shapeCast S128x1 A3 shapeCasts_S1x128_S128x1) := by
  show StableHlo.after hostOps0 (fun b => m (c, b)) (Proc.devRef .tc main_v9) = _
  after_results_simp
  try rfl

theorem v13_eq : (V m c main_v13 : S32x128.Idx → EReal)
    = mulf (broadcastInDim S32x128 ![] bcast_S_S32x128 (constant (F := Ideal) S_ .f32 0x3E800000#32))
        (transpose S32x128 [1, 0] A4 transposes_S128x32_S32x128_1_0) := by
  show StableHlo.after hostOps0 (fun b => m (c, b)) (Proc.devRef .tc main_v13) = _
  after_results_simp
  try rfl

theorem v20_eq : (V m c main_v20 : S32x1.Idx → EReal)
    = mulf (broadcastInDim S32x1 ![] bcast_S_S32x1 (constant (F := Ideal) S_ .f32 0x3F000000#32))
        (addf
          (mulf (broadcastInDim S32x1 ![] bcast_S_S32x1 (constant (F := Ideal) S_ .f32 0x3F000000#32))
            (broadcastInDim S32x1 ![0] bcast_S32_S32x1_0
              (Host.reduceAdd (F := Ideal) (transpose S32x128 [1, 0] A4 transposes_S128x32_S32x128_1_0)
                (constant (F := Ideal) S_ .f32 0x00000000#32) reducesTo_S32x128_S32_d1 h_S_)))
          (shapeCast S32x1 A5 shapeCasts_S1x32_S32x1)) := by
  show StableHlo.after hostOps0 (fun b => m (c, b)) (Proc.devRef .tc main_v20) = _
  after_results_simp
  try rfl

theorem v24_eq : (V m c main_v24 : S16x32.Idx → EReal)
    = mulf (broadcastInDim S16x32 ![] bcast_S_S16x32 (constant (F := Ideal) S_ .f32 0x3E800000#32))
        (transpose S16x32 [1, 0] A6 transposes_S32x16_S16x32_1_0) := by
  show StableHlo.after hostOps0 (fun b => m (c, b)) (Proc.devRef .tc main_v24) = _
  after_results_simp
  try rfl

theorem v31_eq : (V m c main_v31 : S16x1.Idx → EReal)
    = mulf (broadcastInDim S16x1 ![] bcast_S_S16x1 (constant (F := Ideal) S_ .f32 0x3F000000#32))
        (addf
          (mulf (broadcastInDim S16x1 ![] bcast_S_S16x1 (constant (F := Ideal) S_ .f32 0x3F000000#32))
            (broadcastInDim S16x1 ![0] bcast_S16_S16x1_0
              (Host.reduceAdd (F := Ideal) (transpose S16x32 [1, 0] A6 transposes_S32x16_S16x32_1_0)
                (constant (F := Ideal) S_ .f32 0x00000000#32) reducesTo_S16x32_S16_d1 h_S_)))
          (shapeCast S16x1 A7 shapeCasts_S1x16_S16x1)) := by
  show StableHlo.after hostOps0 (fun b => m (c, b)) (Proc.devRef .tc main_v31) = _
  after_results_simp
  try rfl

theorem v44_eq : (V m c main_v44 : S8x16.Idx → EReal)
    = Host.scatter scatter_S8x16_S1_S1x16_01_n_0_0 (fun _ b => b)
        (broadcastInDim S8x16 ![] bcast_S_S8x16 (constant (F := Ideal) S_ .f32 0x00000000#32))
        (broadcastInDim S1 ![] bcast_S_S1 (constantI S_ 32 0#32))
        (mulf (broadcastInDim S1x16 ![] bcast_S_S1x16 (constant (F := Ideal) S_ .f32 0x3E800000#32))
          (transpose S1x16 [1, 0] A8 transposes_S16x1_S1x16_1_0)) := by
  show StableHlo.after hostOps0 (fun b => m (c, b)) (Proc.devRef .tc main_v44) = _
  after_results_simp
  try rfl

theorem v47_eq : (V m c main_v47 : S8x1.Idx → EReal)
    = Host.scatter scatter_S8x1_S1_S1x1_01_n_0_0 (fun _ b => b)
        (broadcastInDim S8x1 ![] bcast_S_S8x1 (constant (F := Ideal) S_ .f32 0x00000000#32))
        (broadcastInDim S1 ![] bcast_S_S1 (constantI S_ 32 0#32))
        (mulf (broadcastInDim S1x1 ![] bcast_S_S1x1 (constant (F := Ideal) S_ .f32 0x3F000000#32))
          (addf
            (mulf (broadcastInDim S1x1 ![] bcast_S_S1x1 (constant (F := Ideal) S_ .f32 0x3F000000#32))
              (broadcastInDim S1x1 ![0] bcast_S1_S1x1_0
                (Host.reduceAdd (F := Ideal) (transpose S1x16 [1, 0] A8 transposes_S16x1_S1x16_1_0)
                  (constant (F := Ideal) S_ .f32 0x00000000#32) reducesTo_S1x16_S1_d1 h_S_)))
            A9)) := by
  show StableHlo.after hostOps0 (fun b => m (c, b)) (Proc.devRef .tc main_v47) = _
  after_results_simp
  try rfl

/-! ## The arrays at an index -/

theorem v1_apply (f : Fin 24) (r : Fin 196608) : V m c main_v1 (ix2 f r) = xrow A0 r f := by
  have e := congrFun (v1_eq m c) (ix2 f r)
  rw [features_apply] at e
  exact e

theorem v3_apply (f : Fin 24) (r : Fin 196608) : V m c main_v3 (ix2 f r) = xrow A1 r f := by
  have e := congrFun (v3_eq m c) (ix2 f r)
  rw [features_apply] at e
  exact e

theorem v6_apply (i : Fin 128) (k : Fin 48) : V m c main_v6 (ix2 i k) = half * A2 (ix2 k i) := by
  have e := congrFun (v6_eq m c) (ix2 i k)
  rw [mulf_const_apply, ofBits_half, transpose_ix2_apply] at e
  exact e

theorem v9_apply (i : Fin 128) : V m c main_v9 (ix2 i (0 : Fin 1)) = half * A3 (ix2 (0 : Fin 1) i) := by
  have e := congrFun (v9_eq m c) (ix2 i (0 : Fin 1))
  rw [mulf_const_apply, ofBits_half, shapeCast_row_col_apply] at e
  exact e

theorem v13_apply (i : Fin 32) (k : Fin 128) : V m c main_v13 (ix2 i k) = quarter * A4 (ix2 k i) := by
  have e := congrFun (v13_eq m c) (ix2 i k)
  rw [mulf_const_apply, ofBits_quarter, transpose_ix2_apply] at e
  exact e

theorem v20_apply (i : Fin 32) : V m c main_v20 (ix2 i (0 : Fin 1))
    = half * ((half * (0 + (∑ k : Fin 128, A4 (ix2 k i) : EReal))) + A5 (ix2 (0 : Fin 1) i)) := by
  have e := congrFun (v20_eq m c) (ix2 i (0 : Fin 1))
  rw [mulf_const_apply, addf_apply, mulf_const_apply, bcast_col_apply,
    rowsum_apply _ _ _ (by decide), constant_apply, shapeCast_row_col_apply, ofBits_half, ofBits_zero] at e
  have hs : ∀ k : Fin 128, transpose S32x128 [1, 0] A4 transposes_S128x32_S32x128_1_0 (ix2 i k) = A4 (ix2 k i) :=
    fun k => transpose_ix2_apply _ _ _ _
  simp only [hs] at e
  exact e

theorem v24_apply (i : Fin 16) (k : Fin 32) : V m c main_v24 (ix2 i k) = quarter * A6 (ix2 k i) := by
  have e := congrFun (v24_eq m c) (ix2 i k)
  rw [mulf_const_apply, ofBits_quarter, transpose_ix2_apply] at e
  exact e

theorem v31_apply (i : Fin 16) : V m c main_v31 (ix2 i (0 : Fin 1))
    = half * ((half * (0 + (∑ k : Fin 32, A6 (ix2 k i) : EReal))) + A7 (ix2 (0 : Fin 1) i)) := by
  have e := congrFun (v31_eq m c) (ix2 i (0 : Fin 1))
  rw [mulf_const_apply, addf_apply, mulf_const_apply, bcast_col_apply,
    rowsum_apply _ _ _ (by decide), constant_apply, shapeCast_row_col_apply, ofBits_half, ofBits_zero] at e
  have hs : ∀ k : Fin 32, transpose S16x32 [1, 0] A6 transposes_S32x16_S16x32_1_0 (ix2 i k) = A6 (ix2 k i) :=
    fun k => transpose_ix2_apply _ _ _ _
  simp only [hs] at e
  exact e

/-- The scatters' one start index is 0. -/
theorem start_zero : (broadcastInDim S1 ![] bcast_S_S1 (constantI S_ 32 0#32) : IVec S1 32) (ix1 (0 : Fin 1)) = 0#32 := by
  rw [broadcastInDim_scalar_apply]; rfl

theorem v44_apply (k : Fin 16) : V m c main_v44 (ix2 (0 : Fin 8) k) = quarter * A8 (ix2 k (0 : Fin 1)) := by
  have e := congrFun (v44_eq m c) (ix2 (0 : Fin 8) k)
  rw [Scat.scat8x16 _ _ start_zero _ (0 : Fin 8) k, if_pos (show ((0 : Fin 8).val = 0) from rfl), mulf_const_apply, ofBits_quarter,
    transpose_ix2_apply] at e
  exact e

theorem v47_apply : V m c main_v47 (ix2 (0 : Fin 8) (0 : Fin 1))
    = half * ((half * (0 + (∑ k : Fin 16, A8 (ix2 k (0 : Fin 1)) : EReal))) + A9 (ix2 (0 : Fin 1) (0 : Fin 1))) := by
  have e := congrFun (v47_eq m c) (ix2 (0 : Fin 8) (0 : Fin 1))
  rw [Scat.scat8x1 _ _ start_zero _ (0 : Fin 8), if_pos (show ((0 : Fin 8).val = 0) from rfl), mulf_const_apply, addf_apply, mulf_const_apply,
    bcast_col_apply, rowsum_apply _ _ _ (by decide), constant_apply, ofBits_half, ofBits_zero] at e
  have hs : ∀ k : Fin 16, transpose S1x16 [1, 0] A8 transposes_S16x1_S1x16_1_0 (ix2 (0 : Fin 1) k)
      = A8 (ix2 k (0 : Fin 1)) :=
    fun k => transpose_ix2_apply _ _ _ _
  simp only [hs] at e
  exact e

end Cert.KernelIdeal.Host

end
-- ==== Proof.KerBridge.lean ====
import proofs.«145325_g2000202685343482_pallasbulk_962_25_alg».proof.Proof.KerBlocks
import proofs.«145325_g2000202685343482_pallasbulk_962_25_alg».proof.Proof.KerHost
import proofs.«145325_g2000202685343482_pallasbulk_962_25_alg».proof.Proof.MlpBody
import proofs.«145325_g2000202685343482_pallasbulk_962_25_alg».proof.Proof.MlpIdx

/-
  The kernel's output array, at batch lane r, is the specification's kernel-side function of the program's
  arguments: each array the body reads is, at the index it is read at, the folded weight or bias of the
  specification (the host-side readings), and with those the body is the specification's function.
-/

noncomputable section

namespace Cert.KernelIdeal.Bridge

open Idealize.ShloMosaic Idealize.ShloMosaic.ValueIdx Cert.KernelIdeal Cert.KernelIdeal.Gen Cert.Mlp
open Idealize.ShloMosaic.TcCoe Cert.KernelIdeal.Host

variable (m : (ℓ : Loc nD τ sig) → Buf (Elt Ideal) ℓ) (c : Dev nD)

set_option quotPrecheck false in
local notation "A0" => (m ((c : Thread nD τ).loc main_arg0) : S196608x8x3.Idx → EReal)
set_option quotPrecheck false in
local notation "A1" => (m ((c : Thread nD τ).loc main_arg1) : S196608x8x3.Idx → EReal)
set_option quotPrecheck false in
local notation "A2" => (m ((c : Thread nD τ).loc main_arg2) : S48x128.Idx → EReal)
set_option quotPrecheck false in
local notation "A3" => (m ((c : Thread nD τ).loc main_arg3) : S1x128.Idx → EReal)
set_option quotPrecheck false in
local notation "A4" => (m ((c : Thread nD τ).loc main_arg4) : S128x32.Idx → EReal)
set_option quotPrecheck false in
local notation "A5" => (m ((c : Thread nD τ).loc main_arg5) : S1x32.Idx → EReal)
set_option quotPrecheck false in
local notation "A6" => (m ((c : Thread nD τ).loc main_arg6) : S32x16.Idx → EReal)
set_option quotPrecheck false in
local notation "A7" => (m ((c : Thread nD τ).loc main_arg7) : S1x16.Idx → EReal)
set_option quotPrecheck false in
local notation "A8" => (m ((c : Thread nD τ).loc main_arg8) : S16x1.Idx → EReal)
set_option quotPrecheck false in
local notation "A9" => (m ((c : Thread nD τ).loc main_arg9) : S1x1.Idx → EReal)

theorem G_apply (r : Fin 196608) : Cert.KernelIdeal.Blocks.G m c (ix2 (0 : Fin 1) r)
    = kerOut (catX (xrow A0 r) (xrow A1 r)) (fun k i => A2 (ix2 k i)) (fun i => A3 (ix2 (0 : Fin 1) i))
        (fun k i => A4 (ix2 k i)) (fun i => A5 (ix2 (0 : Fin 1) i)) (fun k i => A6 (ix2 k i))
        (fun i => A7 (ix2 (0 : Fin 1) i)) (fun k => A8 (ix2 k (0 : Fin 1))) (A9 (ix2 (0 : Fin 1) (0 : Fin 1))) := by
  have e1 : (fun f : Fin 24 => (V m c main_v1 : S24x196608.Idx → EReal) (ix2 f r)) = xrow A0 r :=
    funext fun f => v1_apply m c f r
  have e3 : (fun f : Fin 24 => (V m c main_v3 : S24x196608.Idx → EReal) (ix2 f r)) = xrow A1 r :=
    funext fun f => v3_apply m c f r
  have e6 : (fun (a : Fin 128) (k : Fin 48) => (V m c main_v6 : S128x48.Idx → EReal) (ix2 a k))
      = fun i k => half * A2 (ix2 k i) :=
    funext fun a => funext fun k => v6_apply m c a k
  have e9 : (fun a : Fin 128 => (V m c main_v9 : S128x1.Idx → EReal) (ix2 a (0 : Fin 1)))
      = fun i => half * A3 (ix2 (0 : Fin 1) i) :=
    funext fun a => v9_apply m c a
  have e13 : (fun (a : Fin 32) (k : Fin 128) => (V m c main_v13 : S32x128.Idx → EReal) (ix2 a k))
      = fun i k => quarter * A4 (ix2 k i) :=
    funext fun a => funext fun k => v13_apply m c a k
  have e20 : (fun a : Fin 32 => (V m c main_v20 : S32x1.Idx → EReal) (ix2 a (0 : Fin 1)))
      = fun i => half * ((half * (0 + (∑ k : Fin 128, A4 (ix2 k i) : EReal))) + A5 (ix2 (0 : Fin 1) i)) :=
    funext fun a => v20_apply m c a
  have e24 : (fun (a : Fin 16) (k : Fin 32) => (V m c main_v24 : S16x32.Idx → EReal) (ix2 a k))
      = fun i k => quarter * A6 (ix2 k i) :=
    funext fun a => funext fun k => v24_apply m c a k
  have e31 : (fun a : Fin 16 => (V m c main_v31 : S16x1.Idx → EReal) (ix2 a (0 : Fin 1)))
      = fun i => half * ((half * (0 + (∑ k : Fin 32, A6 (ix2 k i) : EReal))) + A7 (ix2 (0 : Fin 1) i)) :=
    funext fun a => v31_apply m c a
  have e44 : (fun k : Fin 16 => (V m c main_v44 : S8x16.Idx → EReal) (ix2 (0 : Fin 8) k))
      = fun k => quarter * A8 (ix2 k (0 : Fin 1)) :=
    funext fun k => v44_apply m c k
  have e47 := v47_apply m c
  have hG : Cert.KernelIdeal.Blocks.G m c (ix2 (0 : Fin 1) r)
      = bodyOut (catX (fun f : Fin 24 => (V m c main_v1 : S24x196608.Idx → EReal) (ix2 f r))
            (fun f : Fin 24 => (V m c main_v3 : S24x196608.Idx → EReal) (ix2 f r)))
          (fun (a : Fin 128) (k : Fin 48) => (V m c main_v6 : S128x48.Idx → EReal) (ix2 a k))
          (fun a : Fin 128 => (V m c main_v9 : S128x1.Idx → EReal) (ix2 a (0 : Fin 1)))
          (fun (a : Fin 32) (k : Fin 128) => (V m c main_v13 : S32x128.Idx → EReal) (ix2 a k))
          (fun a : Fin 32 => (V m c main_v20 : S32x1.Idx → EReal) (ix2 a (0 : Fin 1)))
          (fun (a : Fin 16) (k : Fin 32) => (V m c main_v24 : S16x32.Idx → EReal) (ix2 a k))
          (fun a : Fin 16 => (V m c main_v31 : S16x1.Idx → EReal) (ix2 a (0 : Fin 1)))
          (fun k : Fin 16 => (V m c main_v44 : S8x16.Idx → EReal) (ix2 (0 : Fin 8) k))
          ((V m c main_v47 : S8x1.Idx → EReal) (ix2 (0 : Fin 8) (0 : Fin 1))) := rfl
  rw [hG, e1, e3, e6, e9, e13, e20, e24, e31, e44, e47]
  exact (kerOut_eq_bodyOut _ _ _ _ _ _ _ _ _).symm

end Cert.KernelIdeal.Bridge

end
-- ==== Proof.RefBody.lean ====
/-
  The reference's body at one entry of its 512 × 128 output block.

  The body applies four times h ↦ logistic (h · W + b): entry (p, j) of h · W is ∑ₖ h (p, k) · W (k, j), the
  128 × 128 weight matrix being one slab of a [1, 128, 128] block and the bias one row of a [1, 1, 128] block
  added to every row.  Row p of the output therefore depends on row p of the input block only.
-/
import proofs.«145325_g2000202685343482_pallasbulk_962_25_alg».proof.Proof.Gen.ReferenceIdeal.Skeleton
import proofs.«145325_g2000202685343482_pallasbulk_962_25_alg».proof.Proof.LibDense
import proofs.«145325_g2000202685343482_pallasbulk_962_25_alg».proof.Proof.MlpSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Body

open Idealize.ShloMosaic Idealize.ShloMosaic.ValueIdx Cert.ReferenceIdeal Cert.ReferenceIdeal.Gen Cert.Mlp

/-- The pointwise logistic function of a vector, at an index. -/
theorem vlogistic_apply {s : Shape} {φ : FTy} (a : FVec Ideal s φ) (i : s.Idx) :
    logistic a i = Ideal.logistic (a i) := rfl

/-- One layer: logistic (H · W + b) at (p, j), given row p of H; W is the slab of a [1, 128, 128] block and b the
    row of a [1, 1, 128] block. -/
theorem rlayer_apply {M : ℕ} (D : DotDims ⟨2, ![M, 128]⟩ ⟨2, ![128, 128]⟩ ⟨2, ![M, 128]⟩)
    (hD : D = DotDims.plain M 128 128) (H : FVec Ideal ⟨2, ![M, 128]⟩ .f32)
    (w : FVec Ideal ⟨3, ![1, 128, 128]⟩ .f32) (b : FVec Ideal ⟨3, ![1, 1, 128]⟩ .f32)
    (hw : (⟨3, ![1, 128, 128]⟩ : Shape).ShapeCasts ⟨2, ![128, 128]⟩)
    (hb : (⟨3, ![1, 1, 128]⟩ : Shape).ShapeCasts ⟨2, ![1, 128]⟩)
    (hbc : (⟨2, ![1, 128]⟩ : Shape).Broadcasts ⟨2, ![M, 128]⟩) (p : Fin M) (h : Fin 128 → EReal)
    (hh : ∀ k, H (ix2 p k) = h k) (j : Fin 128) :
    logistic (addf (matmul D none H (shapeCast ⟨2, ![128, 128]⟩ w hw) (constant ⟨2, ![M, 128]⟩ .f32 0x00000000#32))
        (broadcastTo ⟨2, ![M, 128]⟩ (shapeCast ⟨2, ![1, 128]⟩ b hb) hbc)) (ix2 p j)
      = refLayer (fun k j => w (ix3 (0 : Fin 1) k j)) (fun j => b (ix3 (0 : Fin 1) (0 : Fin 1) j)) h j := by
  subst hD
  show Ideal.logistic (FloatOps.matmul (DotDims.plain M 128 128) none H (shapeCast ⟨2, ![128, 128]⟩ w hw)
        (constant ⟨2, ![M, 128]⟩ .f32 0x00000000#32) (ix2 p j)
      + broadcastTo ⟨2, ![M, 128]⟩ (shapeCast ⟨2, ![1, 128]⟩ b hb) hbc (ix2 p j)) = _
  rw [Cert.LibDense.plain_matmul_apply, broadcastTo_1b_ab_apply, shapeCast_1ab_ab_apply]
  unfold refLayer
  simp only [hh, shapeCast_1ab_ab_apply]

/-- THE BODY AT (p, j): the four layers applied to row p of the input block. -/
theorem pay_apply (x0 : Vec Ideal S512x128 .f32) (w0 : Vec Ideal S1x128x128 .f32) (b0 : Vec Ideal S1x1x128 .f32)
    (w1 : Vec Ideal S1x128x128 .f32) (b1 : Vec Ideal S1x1x128 .f32) (w2 : Vec Ideal S1x128x128 .f32)
    (b2 : Vec Ideal S1x1x128 .f32) (w3 : Vec Ideal S1x128x128 .f32) (b3 : Vec Ideal S1x1x128 .f32)
    (p : Fin 512) (j : Fin 128) :
    k0_pay1 (k0_pay2 x0 w0 b0 w1 b1 w2 b2 w3) b3 (ix2 p j)
      = refLayer (fun k j => w3 (ix3 (0 : Fin 1) k j)) (fun j => b3 (ix3 (0 : Fin 1) (0 : Fin 1) j))
          (refLayer (fun k j => w2 (ix3 (0 : Fin 1) k j)) (fun j => b2 (ix3 (0 : Fin 1) (0 : Fin 1) j))
            (refLayer (fun k j => w1 (ix3 (0 : Fin 1) k j)) (fun j => b1 (ix3 (0 : Fin 1) (0 : Fin 1) j))
              (refLayer (fun k j => w0 (ix3 (0 : Fin 1) k j)) (fun j => b0 (ix3 (0 : Fin 1) (0 : Fin 1) j))
                (fun k => x0 (ix2 p k))))) j := by
  unfold k0_pay1 k0_pay2
  simp only [shapeCast_self]
  exact rlayer_apply dot_S512x128_S128x128_S512x128_1_0_0_1_n_n rfl _ w3 b3 _ _ _ p _ (fun k3 =>
    rlayer_apply dot_S512x128_S128x128_S512x128_1_0_0_1_n_n rfl _ w2 b2 _ _ _ p _ (fun k2 =>
      rlayer_apply dot_S512x128_S128x128_S512x128_1_0_0_1_n_n rfl _ w1 b1 _ _ _ p _ (fun k1 =>
        rlayer_apply dot_S512x128_S128x128_S512x128_1_0_0_1_n_n rfl x0 w0 b0 _ _ _ p _ (fun _ => rfl) k1) k2) k3) j

end Cert.ReferenceIdeal.Body

end
-- ==== Proof.RefBlocks.lean ====
/-
  The reference program's value: after the run, the result array is one function `G` of the three arrays the region
  finds (the padded activations and the stacked weights and biases), and the returned column is column 0 of it.

  Each grid point `t` stores, at `(p, j)` of its 512 x 128 block, four logistic layers of row `512 t + p` of the
  activations; the weights' and biases' windows are the whole arrays at every point; the 384 row blocks tile the result.
-/
import proofs.«145325_g2000202685343482_pallasbulk_962_25_alg».proof.Proof.RefFrame
import proofs.«145325_g2000202685343482_pallasbulk_962_25_alg».proof.Proof.MlpSpec
import proofs.«145325_g2000202685343482_pallasbulk_962_25_alg».proof.Proof.RefBody
import Idealize.ShloMosaic.Lib.Pipeline.Value
import Idealize.ShloMosaic.Lib.ValueIdx
import Idealize.ShloMosaic.Lib.ValueLayout

noncomputable section

namespace Cert.ReferenceIdeal.Blocks

open Cert.ReferenceIdeal Cert.ReferenceIdeal.Gen Cert.ReferenceIdeal.Fr Cert.ReferenceIdeal.Body Cert.Mlp
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The output array as one function of the three arrays the region finds: row `i 0` of the padded activations through
    the four layers (layer `l`'s weights and bias are slab `l` of the stacked operands), column `i 1`. -/
def G (c : Dev nD) : S196608x128.Idx → EReal := fun i =>
  refLayer (fun k j => (V m c main_v33 : S4x128x128.Idx → EReal) (ix3 (3 : Fin 4) k j)) (fun j => (V m c main_v37 : S4x1x128.Idx → EReal) (ix3 (3 : Fin 4) (0 : Fin 1) j))
    (refLayer (fun k j => (V m c main_v33 : S4x128x128.Idx → EReal) (ix3 (2 : Fin 4) k j)) (fun j => (V m c main_v37 : S4x1x128.Idx → EReal) (ix3 (2 : Fin 4) (0 : Fin 1) j))
      (refLayer (fun k j => (V m c main_v33 : S4x128x128.Idx → EReal) (ix3 (1 : Fin 4) k j)) (fun j => (V m c main_v37 : S4x1x128.Idx → EReal) (ix3 (1 : Fin 4) (0 : Fin 1) j))
        (refLayer (fun k j => (V m c main_v33 : S4x128x128.Idx → EReal) (ix3 (0 : Fin 4) k j)) (fun j => (V m c main_v37 : S4x1x128.Idx → EReal) (ix3 (0 : Fin 4) (0 : Fin 1) j))
          (fun k => (V m c main_v3 : S196608x128.Idx → EReal) (ix2 (i 0) k))))) (i 1)

/-! ## The grid's index maps -/

theorem hz : (![0, 0] : Fin 2 → Nat) = fun _ => 0 := funext fun a => by fin_cases a <;> rfl

/-- The printed index maps over the grid: the activations' and the result's blocks are row block `t`, the stacked
    weights' and biases' windows stay at block zero. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem t_lt (t : Fin cfg0.N) : t.val < 384 := lt_of_lt_of_eq (show t.val < grid0.N from t.isLt) N_0

/-- Row `p` of row block `t` of a 196608-row array. -/
def rowOf (t : Fin cfg0.N) (p : Fin 512) : Fin 196608 := ⟨512 * t.val + p.val, by have := t_lt t; have := p.isLt; omega⟩

/-! ## The body's slab loads -/

/-- Slab `l` of a stacked weight operand read at `(0, k, j)` is the operand at `(l, k, j)`; likewise a bias row. -/
theorem ldW0 (X : Vec Ideal S4x128x128 .f32) (k j : Fin 128) : View.ld X rW0 (ix3 (0 : Fin 1) k j) = X (ix3 (0 : Fin 4) k j) :=
  congrArg X (funext fun a => Fin.ext (by
    match a with
    | ⟨0, _⟩ => show 0 + 1 * 0 = 0; omega
    | ⟨1, _⟩ => show 0 + 1 * k.val = k.val; omega
    | ⟨2, _⟩ => show 0 + 1 * j.val = j.val; omega))
theorem ldW1 (X : Vec Ideal S4x128x128 .f32) (k j : Fin 128) : View.ld X rW1 (ix3 (0 : Fin 1) k j) = X (ix3 (1 : Fin 4) k j) :=
  congrArg X (funext fun a => Fin.ext (by
    match a with
    | ⟨0, _⟩ => show 1 + 1 * 0 = 1; omega
    | ⟨1, _⟩ => show 0 + 1 * k.val = k.val; omega
    | ⟨2, _⟩ => show 0 + 1 * j.val = j.val; omega))
theorem ldW2 (X : Vec Ideal S4x128x128 .f32) (k j : Fin 128) : View.ld X rW2 (ix3 (0 : Fin 1) k j) = X (ix3 (2 : Fin 4) k j) :=
  congrArg X (funext fun a => Fin.ext (by
    match a with
    | ⟨0, _⟩ => show 2 + 1 * 0 = 2; omega
    | ⟨1, _⟩ => show 0 + 1 * k.val = k.val; omega
    | ⟨2, _⟩ => show 0 + 1 * j.val = j.val; omega))
theorem ldW3 (X : Vec Ideal S4x128x128 .f32) (k j : Fin 128) : View.ld X rW3 (ix3 (0 : Fin 1) k j) = X (ix3 (3 : Fin 4) k j) :=
  congrArg X (funext fun a => Fin.ext (by
    match a with
    | ⟨0, _⟩ => show 3 + 1 * 0 = 3; omega
    | ⟨1, _⟩ => show 0 + 1 * k.val = k.val; omega
    | ⟨2, _⟩ => show 0 + 1 * j.val = j.val; omega))
theorem ldB0 (X : Vec Ideal S4x1x128 .f32) (j : Fin 128) : View.ld X rB0 (ix3 (0 : Fin 1) (0 : Fin 1) j) = X (ix3 (0 : Fin 4) (0 : Fin 1) j) :=
  congrArg X (funext fun a => Fin.ext (by
    match a with
    | ⟨0, _⟩ => show 0 + 1 * 0 = 0; omega
    | ⟨1, _⟩ => show 0 + 1 * 0 = 0; omega
    | ⟨2, _⟩ => show 0 + 1 * j.val = j.val; omega))
theorem ldB1 (X : Vec Ideal S4x1x128 .f32) (j : Fin 128) : View.ld X rB1 (ix3 (0 : Fin 1) (0 : Fin 1) j) = X (ix3 (1 : Fin 4) (0 : Fin 1) j) :=
  congrArg X (funext fun a => Fin.ext (by
    match a with
    | ⟨0, _⟩ => show 1 + 1 * 0 = 1; omega
    | ⟨1, _⟩ => show 0 + 1 * 0 = 0; omega
    | ⟨2, _⟩ => show 0 + 1 * j.val = j.val; omega))
theorem ldB2 (X : Vec Ideal S4x1x128 .f32) (j : Fin 128) : View.ld X rB2 (ix3 (0 : Fin 1) (0 : Fin 1) j) = X (ix3 (2 : Fin 4) (0 : Fin 1) j) :=
  congrArg X (funext fun a => Fin.ext (by
    match a with
    | ⟨0, _⟩ => show 2 + 1 * 0 = 2; omega
    | ⟨1, _⟩ => show 0 + 1 * 0 = 0; omega
    | ⟨2, _⟩ => show 0 + 1 * j.val = j.val; omega))
theorem ldB3 (X : Vec Ideal S4x1x128 .f32) (j : Fin 128) : View.ld X rB3 (ix3 (0 : Fin 1) (0 : Fin 1) j) = X (ix3 (3 : Fin 4) (0 : Fin 1) j) :=
  congrArg X (funext fun a => Fin.ext (by
    match a with
    | ⟨0, _⟩ => show 3 + 1 * 0 = 3; omega
    | ⟨1, _⟩ => show 0 + 1 * 0 = 0; omega
    | ⟨2, _⟩ => show 0 + 1 * j.val = j.val; omega))

/-- Layers with equal weights, biases and inputs are equal. -/
theorem refLayer_congr {W W' : Fin 128 → Fin 128 → EReal} {B B' : Fin 128 → EReal} {h h' : Fin 128 → EReal}
    (hW : ∀ k j, W k j = W' k j) (hB : ∀ j, B j = B' j) (hh : h = h') : refLayer W B h = refLayer W' B' h' := by
  obtain rfl : W = W' := funext fun k => funext fun j => hW k j
  obtain rfl : B = B' := funext hB
  subst hh; rfl

/-- The body's stored value at `(p, j)`, over any three input blocks: four layers whose weights and bias are the slabs
    of the stacked operands, applied to row `p` of the activations' block. -/
theorem pay_blocks (X0 : Vec Ideal S512x128 .f32) (X1 : Vec Ideal S4x128x128 .f32) (X2 : Vec Ideal S4x1x128 .f32) (p : Fin 512) (j : Fin 128) :
    k0_pay1 (k0_pay2 X0 (View.ld X1 rW0) (View.ld X2 rB0) (View.ld X1 rW1) (View.ld X2 rB1) (View.ld X1 rW2) (View.ld X2 rB2) (View.ld X1 rW3)) (View.ld X2 rB3) (ix2 p j)
      = refLayer (fun k j => X1 (ix3 (3 : Fin 4) k j)) (fun j => X2 (ix3 (3 : Fin 4) (0 : Fin 1) j))
      (refLayer (fun k j => X1 (ix3 (2 : Fin 4) k j)) (fun j => X2 (ix3 (2 : Fin 4) (0 : Fin 1) j))
        (refLayer (fun k j => X1 (ix3 (1 : Fin 4) k j)) (fun j => X2 (ix3 (1 : Fin 4) (0 : Fin 1) j))
          (refLayer (fun k j => X1 (ix3 (0 : Fin 4) k j)) (fun j => X2 (ix3 (0 : Fin 4) (0 : Fin 1) j)) (fun k => X0 (ix2 p k))))) j :=
  (pay_apply X0 (View.ld X1 rW0) (View.ld X2 rB0) (View.ld X1 rW1) (View.ld X2 rB1) (View.ld X1 rW2) (View.ld X2 rB2) (View.ld X1 rW3) (View.ld X2 rB3) p j).trans
    (congrFun (refLayer_congr (ldW3 X1) (ldB3 X2) (refLayer_congr (ldW2 X1) (ldB2 X2) (refLayer_congr (ldW1 X1) (ldB1 X2)
      (refLayer_congr (ldW0 X1) (ldB0 X2) rfl)))) j)

/-! ## The windows' blocks in the arrays -/

/-- The stacked weights' window is the whole array at every point. -/
theorem iblk1_eq (c : Dev nD) (t : Fin cfg0.N) : (iblk m c 1 t : S4x128x128.Idx → EReal) = (V m c main_v33 : S4x128x128.Idx → EReal) := by
  obtain ⟨-, -, -, -, e0, e1, e2, -, -, -⟩ := idx_facts t
  funext y
  have key : (((cfg0.win 1).blk t).view.emb y : S4x128x128.Idx) = y := funext fun a => Fin.ext (by
    match a with
    | ⟨0, _⟩ => show win0_1.index t (0 : Fin 3) * 4 + 1 * (y 0).val = (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega)
  exact congrArg (V m c main_v33 : S4x128x128.Idx → EReal) key

/-- So is the stacked biases'. -/
theorem iblk2_eq (c : Dev nD) (t : Fin cfg0.N) : (iblk m c 2 t : S4x1x128.Idx → EReal) = (V m c main_v37 : S4x1x128.Idx → EReal) := by
  obtain ⟨-, -, -, -, -, -, -, e0, e1, e2⟩ := idx_facts t
  funext y
  have key : (((cfg0.win 2).blk t).view.emb y : S4x1x128.Idx) = y := funext fun a => Fin.ext (by
    match a with
    | ⟨0, _⟩ => show win0_2.index t (0 : Fin 3) * 4 + 1 * (y 0).val = (y 0).val; omega
    | ⟨1, _⟩ => show win0_2.index t (1 : Fin 3) * 1 + 1 * (y 1).val = (y 1).val; omega
    | ⟨2, _⟩ => show win0_2.index t (2 : Fin 3) * 128 + 1 * (y 2).val = (y 2).val; omega)
  exact congrArg (V m c main_v37 : S4x1x128.Idx → EReal) key

/-- Element `(p, k)` of the activations' block at point `t` is the array at row `512 t + p`. -/
theorem iblk0_apply (c : Dev nD) (t : Fin cfg0.N) (p : Fin 512) (k : Fin 128) :
    (iblk m c 0 t : S512x128.Idx → EReal) (ix2 p k) = (V m c main_v3 : S196608x128.Idx → EReal) (ix2 (rowOf t p) k) := by
  obtain ⟨e0, e1, -⟩ := idx_facts t
  have key : (((cfg0.win 0).blk t).view.emb (ix2 p k) : S196608x128.Idx) = ix2 (rowOf t p) k := funext fun a => Fin.ext (by
    match a with
    | ⟨0, _⟩ => show win0_0.index t (0 : Fin 2) * 512 + 1 * p.val = 512 * t.val + p.val; omega
    | ⟨1, _⟩ => show win0_0.index t (1 : Fin 2) * 128 + 1 * k.val = k.val; omega)
  exact congrArg (V m c main_v3 : S196608x128.Idx → EReal) key

/-- Element `(p, j)` of the result's block at point `t` sits in the array at row `512 t + p`. -/
theorem emb3 (t : Fin cfg0.N) (p : Fin 512) (j : Fin 128) :
    (((cfg0.win 3).blk t).view.emb (ix2 p j) : S196608x128.Idx) = ix2 (rowOf t p) j := by
  obtain ⟨-, -, e0, e1, -⟩ := idx_facts t
  exact funext fun a => Fin.ext (by
    match a with
    | ⟨0, _⟩ => show win0_3.index t (0 : Fin 2) * 512 + 1 * p.val = 512 * t.val + p.val; omega
    | ⟨1, _⟩ => show win0_3.index t (1 : Fin 2) * 128 + 1 * j.val = j.val; omega)

/-- Four layers over blocks that are the arrays' (the weights' and biases' whole, the activations' row `r`) are `G`
    at `(r, j)`. -/
theorem G_of_blocks (c : Dev nD) (A1 : S4x128x128.Idx → EReal) (A2 : S4x1x128.Idx → EReal) (x : Fin 128 → EReal)
    (r : Fin 196608) (j : Fin 128) (i : S196608x128.Idx)
    (h1 : A1 = (V m c main_v33 : S4x128x128.Idx → EReal)) (h2 : A2 = (V m c main_v37 : S4x1x128.Idx → EReal))
    (h0 : ∀ k, x k = (V m c main_v3 : S196608x128.Idx → EReal) (ix2 r k)) (hi : i = ix2 r j) :
    refLayer (fun k j => A1 (ix3 (3 : Fin 4) k j)) (fun j => A2 (ix3 (3 : Fin 4) (0 : Fin 1) j))
      (refLayer (fun k j => A1 (ix3 (2 : Fin 4) k j)) (fun j => A2 (ix3 (2 : Fin 4) (0 : Fin 1) j))
        (refLayer (fun k j => A1 (ix3 (1 : Fin 4) k j)) (fun j => A2 (ix3 (1 : Fin 4) (0 : Fin 1) j))
          (refLayer (fun k j => A1 (ix3 (0 : Fin 4) k j)) (fun j => A2 (ix3 (0 : Fin 4) (0 : Fin 1) j)) x))) j = G m c i := by
  subst h1 h2 hi
  obtain rfl : x = fun k => (V m c main_v3 : S196608x128.Idx → EReal) (ix2 r k) := funext h0
  rfl

/-! ## What each point writes back, and the array after the run -/

/-- What the result's window writes back at point `t`, element `(p, j)`, of any staging contents: the contents there
    (the window is uncut). -/
theorem cut3_apply {α : Type} (X : S512x128.Idx → α) (t : Fin cfg0.N) (p : Fin 512) (j : Fin 128) :
    (cfg0.win 3).cut (grid0.coords t) X (ix2 p j) = X (ix2 p j) := rfl

/-- Block `t` of any contents of the result array, read at `(p, j)`, is the array at row `512 t + p`. -/
theorem read_blk3 (g : S196608x128.Idx → EReal) (t : Fin cfg0.N) (p : Fin 512) (j : Fin 128) :
    ((cfg0.win 3).blk t).view.read (Elt Ideal) g (ix2 p j) = g (ix2 (rowOf t p) j) := by
  show g (((cfg0.win 3).blk t).view.emb (ix2 p j)) = g (ix2 (rowOf t p) j)
  exact congrArg g (emb3 t p j)

/-- Point `t` writes back block `t` of `G`. -/
theorem flushed_eq (c : Dev nD) (t : Fin cfg0.N) : (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S512x128) hz]
  funext y
  obtain ⟨p, j, rfl⟩ : ∃ (p : Fin 512) (j : Fin 128), y = ix2 p j := ⟨y 0, y 1, eq_ix2 y⟩
  refine (cut3_apply _ t p j).trans ?_
  refine (pay_blocks (iblk m c 0 t) (iblk m c 1 t) (iblk m c 2 t) p j).trans ?_
  refine Eq.trans ?_ (read_blk3 (G m c) t p j).symm
  exact G_of_blocks m c (iblk m c 1 t) (iblk m c 2 t) (fun k => (iblk m c 0 t : S512x128.Idx → EReal) (ix2 p k)) (rowOf t p) j (ix2 (rowOf t p) j)
    (iblk1_eq m c t) (iblk2_eq m c t) (fun k => iblk0_apply m c t p k) rfl

/-- An index of the result array is in point `t`'s block iff each coordinate is in the block's range on its axis. -/
theorem mem_blk (t : Fin cfg0.N) (i : S196608x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v38).slice (win0_3.rect t)).set ↔ _
  rw [View.set_slice_whole, Rect.mem_set_unit]
  exact Iff.rfl

/-- The 384 row blocks tile the array: row `r` is in block `r / 512`, and every point writes back. -/
theorem cover (i : S196608x128.Idx) : ∃ t : Fin cfg0.N, (cfg0.win 3).flush t = true ∧ i ∈ ((cfg0.win 3).blk t).view.set := by
  have hi0 : (i 0).val < 196608 := (i 0).isLt
  have hi1 : (i 1).val < 128 := (i 1).isLt
  have hN : grid0.N = 384 := N_0
  have hlt : (i 0).val / 512 < grid0.N := by rw [hN]; omega
  refine ⟨⟨(i 0).val / 512, hlt⟩, flush0_3 _, ?_⟩
  rw [mem_blk]
  obtain ⟨-, -, e0, e1, -⟩ := idx_facts ⟨(i 0).val / 512, hlt⟩
  have e0' : win0_3.index ⟨(i 0).val / 512, hlt⟩ (0 : Fin 2) = (i 0).val / 512 := e0
  intro a
  match a with
  | ⟨0, _⟩ => show win0_3.index ⟨(i 0).val / 512, hlt⟩ (0 : Fin 2) * 512 ≤ (i 0).val ∧ (i 0).val < win0_3.index ⟨(i 0).val / 512, hlt⟩ (0 : Fin 2) * 512 + 512; omega
  | ⟨1, _⟩ => show win0_3.index ⟨(i 0).val / 512, hlt⟩ (1 : Fin 2) * 128 ≤ (i 1).val ∧ (i 1).val < win0_3.index ⟨(i 0).val / 512, hlt⟩ (1 : Fin 2) * 128 + 128; omega

/-- The result array after the run is `G`. -/
theorem final (c : Dev nD) : (dats m 0 c).arrAt 3 cfg0.N = G m c :=
  (dats m 0 c).arrAt_eq_of_cover 3 (G m c) (fun t _ => flushed_eq m c t) cover

/-! ## The slice after the region, and the run -/

/-- Column 0 of any 196608 x 128 contents, as the 196608 x 1 slice at offsets `(0, 0)`. -/
theorem slice_col0 (X : S196608x128.Idx → EReal) :
    extractStridedSlice S196608x1 ![0, 0] X slices_S196608x128_S196608x1_0_0 = fun i : S196608x1.Idx => X (ix2 (i 0) (0 : Fin 128)) := by
  funext i
  obtain ⟨r, z, rfl⟩ : ∃ (r : Fin 196608) (z : Fin 1), i = ix2 r z := ⟨i 0, i 1, eq_ix2 i⟩
  exact slice2_axis1_apply 0 X _ r z (0 : Fin 128) (by have := z.isLt; show 0 = 0 + z.val; omega)

/-- The result array as the slice after the region finds it: `G`. -/
theorem arr38 (c : Dev nD) : Pipeline.withArrays (cfgs 0).spec c (V0 m c) (fun w => (dats m 0 c).arrAt w (cfgs 0).N) (Proc.devRef .tc main_v38) = G m c :=
  (Pipeline.withArrays_arr spec0 launch0.win.arr_inj c _ _ 3).trans (final m c)

/-- After the slice, `main_v39` holds column 0 of `G`. -/
theorem tail_v39 (c : Dev nD) : Pipeline.afterTail₀ cfgs (dats m) 0 (V0 m) [hostOps1] c main_v39 = (fun i : S196608x1.Idx => G m c (ix2 (i 0) (0 : Fin 128))) := by
  unfold Pipeline.afterTail₀
  show StableHlo.after hostOps1 _ (Proc.devRef .tc main_v39) = _
  after_results
  rw [arr38 m c]
  exact slice_col0 (G m c)

/-- The reference's run, read: the result is column 0 of `G` of the region-entry arrays, and the ten arguments end as
    launched. -/
theorem result (ρ : Dev nD → PrngReg) : θ_run defs (onTc (τ := τ) (main (F := Ideal))) ⟨m, fun _ => 0, ρ⟩ (fun r => ∀ c : Dev nD,
      r.2.mem ((c.tc : Thread nD τ).loc main_v39) = (fun i : S196608x1.Idx => G m c (ix2 (i 0) (0 : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v39 (Pipeline.mem_restRefs_of main_v39 (by decide) (by decide))).trans (tail_v39 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.ReferenceIdeal.Blocks

end
-- ==== Proof.RefScatter.lean ====
/-
  The reference program's eight scatters, read at one element of their result.

  Each scatter writes a two-axis update into one slab of a three-axis operand: the operand's first axis is an
  inserted window axis, the update's two axes go to the operand's second and third axes, and a single start index
  vector names the slab and the (zero) offsets inside it, with the identity-on-the-update body. Update index (a, b)
  therefore lands on operand index (s, a, b), where s is the slab the index vector holds, and on no other; the
  result is the update on the window { (s, a, b) } and the operand outside it.

  For a general scatter an update index lands on operand index `i` exactly when, on every operand axis, the start
  component plus the window coordinate is `i`'s coordinate (`resultIdx?_eq_some_iff`). `scat3` reads any scatter
  of this slab form at one element from its start components and window coordinates; the eight theorems below
  instantiate it, computing the start components from the entries of the index vector.
-/
import proofs.«145325_g2000202685343482_pallasbulk_962_25_alg».proof.Proof.LibScatterAt
import proofs.«145325_g2000202685343482_pallasbulk_962_25_alg».proof.Proof.Gen.ReferenceIdeal
import Idealize.ShloMosaic.Lib.ValueIdx

namespace Cert.ReferenceIdeal.Scat

open Idealize.ShloMosaic Idealize.ShloMosaic.ValueIdx Cert.ReferenceIdeal

/-- An update index lands on operand index `i` exactly when, on every operand axis, the start plus the window
    coordinate is `i`'s coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · have h' := congrFun (Option.some.inj h) a
      rename_i hb
      have := hb a
      rw [← h']
      show _ = ((Int.toNat _ : Nat) : Int)
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    show Int.toNat _ = (i a).val
    omega

/-- With a one-axis index array whose axis is the index vector's, update index `j` reads component `c` of its
    start index at entry `c`. -/
theorem siIdx_vec {n : Nat} {s u : Shape} (d : ScatterDims s ⟨1, ![n]⟩ u) (hiv : d.indexVectorDim = 0) (j : u.Idx)
    (c : Fin d.scatterDimsToOperandDims.length) (c' : Fin n) (hc : c.val = c'.val) : d.siIdx j c = ix1 c' := by
  funext b
  match b with
  | ⟨0, _⟩ =>
    unfold ScatterDims.siIdx
    rw [dif_pos (by simp [hiv])]
    exact Fin.ext hc

/-- The start on an operand axis the index vector names: the entry in that axis's position, read signed. -/
theorem start_of_mem {n w : Nat} {s u : Shape} (d : ScatterDims s ⟨1, ![n]⟩ u) (hiv : d.indexVectorDim = 0)
    (j : u.Idx) (idx : IVec ⟨1, ![n]⟩ w) (a : Fin s.rank) (c : Fin n) (ha : a ∈ d.scatterDimsToOperandDims)
    (hc : d.scatterDimsToOperandDims.idxOf a = c.val) : d.start j idx a = (idx (ix1 c)).toInt := by
  unfold ScatterDims.start
  rw [dif_pos ha, siIdx_vec d hiv j _ c hc]

/-- The start on an operand axis the index vector does not name is 0. -/
theorem start_of_not_mem {w : Nat} {s si u : Shape} (d : ScatterDims s si u) (j : u.Idx) (idx : IVec si w)
    (a : Fin s.rank) (ha : a ∉ d.scatterDimsToOperandDims) : d.start j idx a = 0 := by
  unfold ScatterDims.start
  rw [dif_neg ha]

section Slab

variable {n0 n1 n2 m0 m1 w : Nat} {si : Shape}
  (d : ScatterDims ⟨3, ![n0, n1, n2]⟩ si ⟨2, ![m0, m1]⟩) (idx : IVec si w) (s0 : Nat)
  (hs0 : ∀ j, d.start j idx 0 = (s0 : Int)) (hs1 : ∀ j, d.start j idx 1 = 0) (hs2 : ∀ j, d.start j idx 2 = 0)
  (hw0 : ∀ j, d.window j 0 = 0) (hw1 : ∀ j, d.window j 1 = (j 0).val) (hw2 : ∀ j, d.window j 2 = (j 1).val)

include hs0 hs1 hs2 hw0 hw1 hw2

/-- A scatter into slab `s0` at zero offsets: update index (a, b) lands on operand index (l, k, q) exactly when
    l = s0, k = a and q = b. -/
theorem lands3 (a : Fin m0) (b : Fin m1) (l : Fin n0) (k : Fin n1) (q : Fin n2) :
    d.resultIdx? (ix2 a b) idx = some (ix3 l k q) ↔ l.val = s0 ∧ k.val = a.val ∧ q.val = b.val := by
  rw [resultIdx?_eq_some_iff]
  have c0 : (ix2 a b 0).val = a.val := rfl
  have c1 : (ix2 a b 1).val = b.val := rfl
  constructor
  · intro h
    have e0 := h 0
    have e1 := h 1
    have e2 := h 2
    rw [hs0, hw0] at e0
    rw [hs1, hw1, c0] at e1
    rw [hs2, hw2, c1] at e2
    have r0 : (ix3 l k q 0).val = l.val := rfl
    have r1 : (ix3 l k q 1).val = k.val := rfl
    have r2 : (ix3 l k q 2).val = q.val := rfl
    rw [r0] at e0; rw [r1] at e1; rw [r2] at e2
    omega
  · rintro ⟨hl, hk, hq⟩ c
    match c with
    | ⟨0, _⟩ =>
      show d.start (ix2 a b) idx 0 + (d.window (ix2 a b) 0 : Int) = (l.val : Int)
      rw [hs0, hw0]; omega
    | ⟨1, _⟩ =>
      show d.start (ix2 a b) idx 1 + (d.window (ix2 a b) 1 : Int) = (k.val : Int)
      rw [hs1, hw1, c0]; omega
    | ⟨2, _⟩ =>
      show d.start (ix2 a b) idx 2 + (d.window (ix2 a b) 2 : Int) = (q.val : Int)
      rw [hs2, hw2, c1]; omega

/-- A scatter into slab `s0` at zero offsets, with the identity-on-the-update body, at element (l, k, q): the
    update's element (k, q) inside the window, the operand's element outside it. -/
theorem scat3 {α : Type} (X : (⟨3, ![n0, n1, n2]⟩ : Shape).Idx → α) (U : (⟨2, ![m0, m1]⟩ : Shape).Idx → α)
    (l : Fin n0) (k : Fin n1) (q : Fin n2) :
    Host.scatter d (fun _ b => b) X idx U (ix3 l k q)
      = if h : l.val = s0 ∧ k.val < m0 ∧ q.val < m1 then U (ix2 (⟨k.val, h.2.1⟩ : Fin m0) (⟨q.val, h.2.2⟩ : Fin m1))
        else X (ix3 l k q) := by
  have L := lands3 d idx s0 hs0 hs1 hs2 hw0 hw1 hw2
  split
  · rename_i h
    refine Cert.ScatterAt.scatter_apply_of_unique _ _ X idx U (ix3 l k q) (ix2 ⟨k.val, h.2.1⟩ ⟨q.val, h.2.2⟩)
      ((L _ _ l k q).2 ⟨h.1, rfl, rfl⟩) fun j' hj' => ?_
    obtain ⟨a, b, rfl⟩ : ∃ a b, j' = ix2 a b := ⟨_, _, eq_ix2 j'⟩
    obtain ⟨_, hk, hq⟩ := (L a b l k q).1 hj'
    obtain rfl : a = ⟨k.val, h.2.1⟩ := Fin.ext hk.symm
    obtain rfl : b = ⟨q.val, h.2.2⟩ := Fin.ext hq.symm
    rfl
  · rename_i h
    refine Cert.ScatterAt.scatter_apply_of_none _ _ X idx U _ fun j hj => ?_
    obtain ⟨a, b, rfl⟩ : ∃ a b, j = ix2 a b := ⟨_, _, eq_ix2 j⟩
    obtain ⟨hl, hk, hq⟩ := (L a b l k q).1 hj
    exact h ⟨hl, by have := a.isLt; omega, by have := b.isLt; omega⟩

end Slab

theorem scatW0 {α : Type} (X : S4x128x128.Idx → α) (IDX : IVec S2 32) (h0 : IDX (ix1 (0 : Fin 2)) = 0#32)
    (h1 : IDX (ix1 (1 : Fin 2)) = 0#32) (U : S48x128.Idx → α) (l : Fin 4) (k j : Fin 128) :
    Host.scatter scatter_S4x128x128_S2_S48x128_01_0_01_0 (fun _ b => b) X IDX U (ix3 l k j)
      = if h : l.val = 0 ∧ k.val < 48 then U (ix2 (⟨k.val, h.2⟩ : Fin 48) j) else X (ix3 l k j) := by
  rw [scat3 scatter_S4x128x128_S2_S48x128_01_0_01_0 IDX 0
    (fun j' => by rw [start_of_mem _ rfl j' IDX 0 (0 : Fin 2) (by decide) rfl, h0]; rfl)
    (fun j' => by rw [start_of_mem _ rfl j' IDX 1 (1 : Fin 2) (by decide) rfl, h1]; rfl)
    (fun j' => start_of_not_mem _ j' IDX 2 (by decide))
    (fun _ => rfl) (fun _ => rfl) (fun _ => rfl)]
  by_cases h : l.val = 0 ∧ k.val < 48
  · rw [dif_pos h, dif_pos ⟨h.1, h.2, j.isLt⟩]
  · rw [dif_neg h, dif_neg fun h' => h ⟨h'.1, h'.2.1⟩]

theorem scatW1 {α : Type} (X : S4x128x128.Idx → α) (IDX : IVec S2 32) (h0 : IDX (ix1 (0 : Fin 2)) = 1#32)
    (h1 : IDX (ix1 (1 : Fin 2)) = 0#32) (U : S128x32.Idx → α) (l : Fin 4) (k j : Fin 128) :
    Host.scatter scatter_S4x128x128_S2_S128x32_01_0_02_0 (fun _ b => b) X IDX U (ix3 l k j)
      = if h : l.val = 1 ∧ j.val < 32 then U (ix2 k (⟨j.val, h.2⟩ : Fin 32)) else X (ix3 l k j) := by
  rw [scat3 scatter_S4x128x128_S2_S128x32_01_0_02_0 IDX 1
    (fun j' => by rw [start_of_mem _ rfl j' IDX 0 (0 : Fin 2) (by decide) rfl, h0]; rfl)
    (fun j' => start_of_not_mem _ j' IDX 1 (by decide))
    (fun j' => by rw [start_of_mem _ rfl j' IDX 2 (1 : Fin 2) (by decide) rfl, h1]; rfl)
    (fun _ => rfl) (fun _ => rfl) (fun _ => rfl)]
  by_cases h : l.val = 1 ∧ j.val < 32
  · rw [dif_pos h, dif_pos ⟨h.1, k.isLt, h.2⟩]
  · rw [dif_neg h, dif_neg fun h' => h ⟨h'.1, h'.2.2⟩]

theorem scatW2 {α : Type} (X : S4x128x128.Idx → α) (IDX : IVec S3 32) (h0 : IDX (ix1 (0 : Fin 3)) = 2#32)
    (h1 : IDX (ix1 (1 : Fin 3)) = 0#32) (h2 : IDX (ix1 (2 : Fin 3)) = 0#32) (U : S32x16.Idx → α) (l : Fin 4)
    (k j : Fin 128) :
    Host.scatter scatter_S4x128x128_S3_S32x16_01_0_012_0 (fun _ b => b) X IDX U (ix3 l k j)
      = if h : l.val = 2 ∧ k.val < 32 ∧ j.val < 16 then U (ix2 (⟨k.val, h.2.1⟩ : Fin 32) (⟨j.val, h.2.2⟩ : Fin 16))
        else X (ix3 l k j) :=
  scat3 scatter_S4x128x128_S3_S32x16_01_0_012_0 IDX 2
    (fun j' => by rw [start_of_mem _ rfl j' IDX 0 (0 : Fin 3) (by decide) rfl, h0]; rfl)
    (fun j' => by rw [start_of_mem _ rfl j' IDX 1 (1 : Fin 3) (by decide) rfl, h1]; rfl)
    (fun j' => by rw [start_of_mem _ rfl j' IDX 2 (2 : Fin 3) (by decide) rfl, h2]; rfl)
    (fun _ => rfl) (fun _ => rfl) (fun _ => rfl) X U l k j

theorem scatW3 {α : Type} (X : S4x128x128.Idx → α) (IDX : IVec S3 32) (h0 : IDX (ix1 (0 : Fin 3)) = 3#32)
    (h1 : IDX (ix1 (1 : Fin 3)) = 0#32) (h2 : IDX (ix1 (2 : Fin 3)) = 0#32) (U : S16x1.Idx → α) (l : Fin 4)
    (k j : Fin 128) :
    Host.scatter scatter_S4x128x128_S3_S16x1_01_0_012_0 (fun _ b => b) X IDX U (ix3 l k j)
      = if h : l.val = 3 ∧ k.val < 16 ∧ j.val < 1 then U (ix2 (⟨k.val, h.2.1⟩ : Fin 16) (0 : Fin 1))
        else X (ix3 l k j) := by
  rw [scat3 scatter_S4x128x128_S3_S16x1_01_0_012_0 IDX 3
    (fun j' => by rw [start_of_mem _ rfl j' IDX 0 (0 : Fin 3) (by decide) rfl, h0]; rfl)
    (fun j' => by rw [start_of_mem _ rfl j' IDX 1 (1 : Fin 3) (by decide) rfl, h1]; rfl)
    (fun j' => by rw [start_of_mem _ rfl j' IDX 2 (2 : Fin 3) (by decide) rfl, h2]; rfl)
    (fun _ => rfl) (fun _ => rfl) (fun _ => rfl)]
  by_cases h : l.val = 3 ∧ k.val < 16 ∧ j.val < 1
  · rw [dif_pos h, dif_pos h]
    exact congrArg (fun t => U (ix2 (⟨k.val, h.2.1⟩ : Fin 16) t)) (Subsingleton.elim _ _)
  · rw [dif_neg h, dif_neg h]

theorem scatB0 {α : Type} (X : S4x1x128.Idx → α) (IDX : IVec S1 32) (h0 : IDX (ix1 (0 : Fin 1)) = 0#32)
    (U : S1x128.Idx → α) (l : Fin 4) (j : Fin 128) :
    Host.scatter scatter_S4x1x128_S1_S1x128_01_0_0_0 (fun _ b => b) X IDX U (ix3 l (0 : Fin 1) j)
      = if l.val = 0 then U (ix2 (0 : Fin 1) j) else X (ix3 l (0 : Fin 1) j) := by
  rw [scat3 scatter_S4x1x128_S1_S1x128_01_0_0_0 IDX 0
    (fun j' => by rw [start_of_mem _ rfl j' IDX 0 (0 : Fin 1) (by decide) rfl, h0]; rfl)
    (fun j' => start_of_not_mem _ j' IDX 1 (by decide))
    (fun j' => start_of_not_mem _ j' IDX 2 (by decide))
    (fun _ => rfl) (fun _ => rfl) (fun _ => rfl)]
  by_cases h : l.val = 0
  · rw [if_pos h, dif_pos ⟨h, (0 : Fin 1).isLt, j.isLt⟩]
  · rw [if_neg h, dif_neg fun h' => h h'.1]

theorem scatB1 {α : Type} (X : S4x1x128.Idx → α) (IDX : IVec S2 32) (h0 : IDX (ix1 (0 : Fin 2)) = 1#32)
    (h1 : IDX (ix1 (1 : Fin 2)) = 0#32) (U : S1x32.Idx → α) (l : Fin 4) (j : Fin 128) :
    Host.scatter scatter_S4x1x128_S2_S1x32_01_0_02_0 (fun _ b => b) X IDX U (ix3 l (0 : Fin 1) j)
      = if h : l.val = 1 ∧ j.val < 32 then U (ix2 (0 : Fin 1) (⟨j.val, h.2⟩ : Fin 32))
        else X (ix3 l (0 : Fin 1) j) := by
  rw [scat3 scatter_S4x1x128_S2_S1x32_01_0_02_0 IDX 1
    (fun j' => by rw [start_of_mem _ rfl j' IDX 0 (0 : Fin 2) (by decide) rfl, h0]; rfl)
    (fun j' => start_of_not_mem _ j' IDX 1 (by decide))
    (fun j' => by rw [start_of_mem _ rfl j' IDX 2 (1 : Fin 2) (by decide) rfl, h1]; rfl)
    (fun _ => rfl) (fun _ => rfl) (fun _ => rfl)]
  by_cases h : l.val = 1 ∧ j.val < 32
  · rw [dif_pos h, dif_pos ⟨h.1, (0 : Fin 1).isLt, h.2⟩]
  · rw [dif_neg h, dif_neg fun h' => h ⟨h'.1, h'.2.2⟩]

theorem scatB2 {α : Type} (X : S4x1x128.Idx → α) (IDX : IVec S2 32) (h0 : IDX (ix1 (0 : Fin 2)) = 2#32)
    (h1 : IDX (ix1 (1 : Fin 2)) = 0#32) (U : S1x16.Idx → α) (l : Fin 4) (j : Fin 128) :
    Host.scatter scatter_S4x1x128_S2_S1x16_01_0_02_0 (fun _ b => b) X IDX U (ix3 l (0 : Fin 1) j)
      = if h : l.val = 2 ∧ j.val < 16 then U (ix2 (0 : Fin 1) (⟨j.val, h.2⟩ : Fin 16))
        else X (ix3 l (0 : Fin 1) j) := by
  rw [scat3 scatter_S4x1x128_S2_S1x16_01_0_02_0 IDX 2
    (fun j' => by rw [start_of_mem _ rfl j' IDX 0 (0 : Fin 2) (by decide) rfl, h0]; rfl)
    (fun j' => start_of_not_mem _ j' IDX 1 (by decide))
    (fun j' => by rw [start_of_mem _ rfl j' IDX 2 (1 : Fin 2) (by decide) rfl, h1]; rfl)
    (fun _ => rfl) (fun _ => rfl) (fun _ => rfl)]
  by_cases h : l.val = 2 ∧ j.val < 16
  · rw [dif_pos h, dif_pos ⟨h.1, (0 : Fin 1).isLt, h.2⟩]
  · rw [dif_neg h, dif_neg fun h' => h ⟨h'.1, h'.2.2⟩]

theorem scatB3 {α : Type} (X : S4x1x128.Idx → α) (IDX : IVec S2 32) (h0 : IDX (ix1 (0 : Fin 2)) = 3#32)
    (h1 : IDX (ix1 (1 : Fin 2)) = 0#32) (U : S1x1.Idx → α) (l : Fin 4) (j : Fin 128) :
    Host.scatter scatter_S4x1x128_S2_S1x1_01_0_02_0 (fun _ b => b) X IDX U (ix3 l (0 : Fin 1) j)
      = if l.val = 3 ∧ j.val < 1 then U (ix2 (0 : Fin 1) (0 : Fin 1)) else X (ix3 l (0 : Fin 1) j) := by
  rw [scat3 scatter_S4x1x128_S2_S1x1_01_0_02_0 IDX 3
    (fun j' => by rw [start_of_mem _ rfl j' IDX 0 (0 : Fin 2) (by decide) rfl, h0]; rfl)
    (fun j' => start_of_not_mem _ j' IDX 1 (by decide))
    (fun j' => by rw [start_of_mem _ rfl j' IDX 2 (1 : Fin 2) (by decide) rfl, h1]; rfl)
    (fun _ => rfl) (fun _ => rfl) (fun _ => rfl)]
  by_cases h : l.val = 3 ∧ j.val < 1
  · rw [if_pos h, dif_pos ⟨h.1, (0 : Fin 1).isLt, h.2⟩]
    exact congrArg (fun t => U (ix2 (0 : Fin 1) t)) (Subsingleton.elim _ _)
  · rw [if_neg h, dif_neg fun h' => h ⟨h'.1, h'.2.2⟩]

end Cert.ReferenceIdeal.Scat
-- ==== Proof.RefHostW.lean ====
/-
  The reference program's stacked weights and biases, read at one element.

  Before its region the program builds a 4 × 128 × 128 array of weights and a 4 × 1 × 128 array of biases: each
  starts as zeros, and the four layers' matrices (48 × 128, 128 × 32, 32 × 16, 16 × 1) resp. rows (1 × 128, 1 × 32,
  1 × 16, 1 × 1) are written one after the other into slabs 0, 1, 2, 3 at offset zero, each by a scatter whose start
  index vector is assembled from integer constants.

  Two layers. First each of the two arrays, as the region finds it, is the chain of four scatters over the zero array,
  the literal index vectors and the launch arrays (`v33_eq`, `v37_eq`): the operations' results composed. Then the
  chain is read at one element, scatter by scatter from the outside in: element (l, k, j) lies in at most one of the
  four windows, the one of slab l, so it is that layer's matrix entry when (k, j) is inside the matrix's extent and
  zero otherwise, which is the padded stack `padW`, resp. `padB`.
-/
import proofs.«145325_g2000202685343482_pallasbulk_962_25_alg».proof.Proof.RefFrame
import proofs.«145325_g2000202685343482_pallasbulk_962_25_alg».proof.Proof.RefScatter
import proofs.«145325_g2000202685343482_pallasbulk_962_25_alg».proof.Proof.MlpSpec
import proofs.«145325_g2000202685343482_pallasbulk_962_25_alg».proof.Proof.MlpBody
import Idealize.ShloMosaic.Lib.ValueIdx
import Idealize.ShloMosaic.Lib.Pipeline.Value
import Idealize.ShloMosaic.Lib.ValueLayout
import Idealize.ShloMosaic.Lib.StableHlo.Run

noncomputable section

namespace Cert.ReferenceIdeal.HostW

open Idealize.ShloMosaic Idealize.ShloMosaic.ValueIdx Cert.ReferenceIdeal Cert.ReferenceIdeal.Gen Cert.ReferenceIdeal.Fr Cert.Mlp
open Idealize.ShloMosaic.TcCoe

variable (m : (ℓ : Loc nD τ sig) → Buf (Elt Ideal) ℓ) (c : Dev nD)

/-! ## The launch arrays, the literal index vectors and the zero arrays -/

set_option quotPrecheck false in
local notation "A2" => (m ((c : Thread nD τ).loc main_arg2) : S48x128.Idx → EReal)
set_option quotPrecheck false in
local notation "A3" => (m ((c : Thread nD τ).loc main_arg3) : S1x128.Idx → EReal)
set_option quotPrecheck false in
local notation "A4" => (m ((c : Thread nD τ).loc main_arg4) : S128x32.Idx → EReal)
set_option quotPrecheck false in
local notation "A5" => (m ((c : Thread nD τ).loc main_arg5) : S1x32.Idx → EReal)
set_option quotPrecheck false in
local notation "A6" => (m ((c : Thread nD τ).loc main_arg6) : S32x16.Idx → EReal)
set_option quotPrecheck false in
local notation "A7" => (m ((c : Thread nD τ).loc main_arg7) : S1x16.Idx → EReal)
set_option quotPrecheck false in
local notation "A8" => (m ((c : Thread nD τ).loc main_arg8) : S16x1.Idx → EReal)
set_option quotPrecheck false in
local notation "A9" => (m ((c : Thread nD τ).loc main_arg9) : S1x1.Idx → EReal)

/-- The one-entry index vector holding `v`. -/
abbrev iv1 (v : BitVec 32) : IVec S1 32 := broadcastInDim S1 ![] bcast_S_S1 (constantI S_ 32 v)
/-- The two-entry index vector (a, b). -/
abbrev iv2 (a b : BitVec 32) : IVec S2 32 := concatenate S2 0 [⟨S1, iv1 a⟩, ⟨S1, iv1 b⟩] concatenates_S1_S1_S2_d0
/-- The three-entry index vector (a, b, d). -/
abbrev iv3 (a b d : BitVec 32) : IVec S3 32 :=
  concatenate S3 0 [⟨S1, iv1 a⟩, ⟨S1, iv1 b⟩, ⟨S1, iv1 d⟩] concatenates_S1_S1_S1_S3_d0
/-- The all-zero stacked weights. -/
abbrev zW : S4x128x128.Idx → EReal :=
  broadcastInDim S4x128x128 ![] bcast_S_S4x128x128 (constant (F := Ideal) S_ .f32 0x00000000#32)
/-- The all-zero stacked biases. -/
abbrev zB : S4x1x128.Idx → EReal :=
  broadcastInDim S4x1x128 ![] bcast_S_S4x1x128 (constant (F := Ideal) S_ .f32 0x00000000#32)

/-! ## The two arrays as chains of scatters -/

/-- The stacked weights as the region finds them: four scatters over the zero array. -/
theorem v33_eq : (V m c main_v33 : S4x128x128.Idx → EReal) =
    Host.scatter scatter_S4x128x128_S3_S16x1_01_0_012_0 (fun _ b => b)
      (Host.scatter scatter_S4x128x128_S3_S32x16_01_0_012_0 (fun _ b => b)
        (Host.scatter scatter_S4x128x128_S2_S128x32_01_0_02_0 (fun _ b => b)
          (Host.scatter scatter_S4x128x128_S2_S48x128_01_0_01_0 (fun _ b => b) zW (iv2 0#32 0#32) A2)
          (iv2 1#32 0#32) A4)
        (iv3 2#32 0#32 0#32) A6)
      (iv3 3#32 0#32 0#32) A8 := by
  show StableHlo.after (hostOps0 ++ hostOps0_1 ++ hostOps0_2) (fun b => m (c, b)) (Proc.devRef .tc main_v33) = _
  simp only [hostOps0, hostOps0_1, hostOps0_2, List.append_nil, List.cons_append, List.nil_append]
  simp (disch := decide) only [StableHlo.after_cons, StableHlo.after_nil,
    StableHlo.nullary_result', StableHlo.unary_result', StableHlo.binary_result', StableHlo.ternary_result',
    StableHlo.nary_result', StableHlo.reshape_result',
    StableHlo.nullary_result_ne', StableHlo.unary_result_ne', StableHlo.binary_result_ne', StableHlo.ternary_result_ne',
    StableHlo.nary_result_ne', StableHlo.reshape_result_ne', Matrix.cons_val]
  rfl

/-- The stacked biases as the region finds them: four scatters over the zero array. -/
theorem v37_eq : (V m c main_v37 : S4x1x128.Idx → EReal) =
    Host.scatter scatter_S4x1x128_S2_S1x1_01_0_02_0 (fun _ b => b)
      (Host.scatter scatter_S4x1x128_S2_S1x16_01_0_02_0 (fun _ b => b)
        (Host.scatter scatter_S4x1x128_S2_S1x32_01_0_02_0 (fun _ b => b)
          (Host.scatter scatter_S4x1x128_S1_S1x128_01_0_0_0 (fun _ b => b) zB (iv1 0#32) A3)
          (iv2 1#32 0#32) A5)
        (iv2 2#32 0#32) A7)
      (iv2 3#32 0#32) A9 := by
  show StableHlo.after (hostOps0 ++ hostOps0_1 ++ hostOps0_2) (fun b => m (c, b)) (Proc.devRef .tc main_v37) = _
  simp only [hostOps0, hostOps0_1, hostOps0_2, List.append_nil, List.cons_append, List.nil_append]
  simp (disch := decide) only [StableHlo.after_cons, StableHlo.after_nil,
    StableHlo.nullary_result', StableHlo.unary_result', StableHlo.binary_result', StableHlo.ternary_result',
    StableHlo.nary_result', StableHlo.reshape_result',
    StableHlo.nullary_result_ne', StableHlo.unary_result_ne', StableHlo.binary_result_ne', StableHlo.ternary_result_ne',
    StableHlo.nary_result_ne', StableHlo.reshape_result_ne', Matrix.cons_val]
  rfl

/-! ## The index vectors' entries and the zero arrays' elements -/

theorem iv1_0 (v : BitVec 32) : iv1 v (ix1 (0 : Fin 1)) = v := rfl
theorem iv2_0 (a b : BitVec 32) : iv2 a b (ix1 (0 : Fin 2)) = a := rfl
theorem iv2_1 (a b : BitVec 32) : iv2 a b (ix1 (1 : Fin 2)) = b := rfl
theorem iv3_0 (a b d : BitVec 32) : iv3 a b d (ix1 (0 : Fin 3)) = a := rfl
theorem iv3_1 (a b d : BitVec 32) : iv3 a b d (ix1 (1 : Fin 3)) = b := rfl
theorem iv3_2 (a b d : BitVec 32) : iv3 a b d (ix1 (2 : Fin 3)) = d := rfl

/-- Every element of the zero weights is 0. -/
theorem zW_apply (i : S4x128x128.Idx) : zW i = 0 := by
  show broadcastInDim S4x128x128 ![] bcast_S_S4x128x128 (constant (F := Ideal) S_ .f32 0x00000000#32) i = 0
  rw [broadcastInDim_apply _ _ _ i ix0 (fun a => a.elim0), constant_apply, ofBits_zero]

/-- Every element of the zero biases is 0. -/
theorem zB_apply (i : S4x1x128.Idx) : zB i = 0 := by
  show broadcastInDim S4x1x128 ![] bcast_S_S4x1x128 (constant (F := Ideal) S_ .f32 0x00000000#32) i = 0
  rw [broadcastInDim_apply _ _ _ i ix0 (fun a => a.elim0), constant_apply, ofBits_zero]

/-! ## The two arrays at one element -/

/-- The stacked weights at (l, k, j): layer l's matrix padded with zeros to 128 × 128. -/
theorem v33_apply (l : Fin 4) (k j : Fin 128) :
    V m c main_v33 (ix3 l k j)
      = padW (fun k i => A2 (ix2 k i)) (fun k i => A4 (ix2 k i)) (fun k i => A6 (ix2 k i))
          (fun k => A8 (ix2 k (0 : Fin 1))) l k j := by
  rw [v33_eq m c,
    Scat.scatW3 _ _ (iv3_0 _ _ _) (iv3_1 _ _ _) (iv3_2 _ _ _),
    Scat.scatW2 _ _ (iv3_0 _ _ _) (iv3_1 _ _ _) (iv3_2 _ _ _),
    Scat.scatW1 _ _ (iv2_0 _ _) (iv2_1 _ _),
    Scat.scatW0 _ _ (iv2_0 _ _) (iv2_1 _ _), zW_apply]
  unfold padW
  have hl := l.isLt
  rcases (by omega : l.val = 0 ∨ l.val = 1 ∨ l.val = 2 ∨ l.val = 3) with h | h | h | h <;> simp [h]

/-- The stacked biases at (l, 0, j): layer l's row padded with zeros to width 128. -/
theorem v37_apply (l : Fin 4) (j : Fin 128) :
    V m c main_v37 (ix3 l (0 : Fin 1) j)
      = padB (fun i => A3 (ix2 (0 : Fin 1) i)) (fun i => A5 (ix2 (0 : Fin 1) i)) (fun i => A7 (ix2 (0 : Fin 1) i))
          (A9 (ix2 (0 : Fin 1) (0 : Fin 1))) l j := by
  rw [v37_eq m c,
    Scat.scatB3 _ _ (iv2_0 _ _) (iv2_1 _ _),
    Scat.scatB2 _ _ (iv2_0 _ _) (iv2_1 _ _),
    Scat.scatB1 _ _ (iv2_0 _ _) (iv2_1 _ _),
    Scat.scatB0 _ _ (iv1_0 _), zB_apply]
  unfold padB
  have hl := l.isLt
  rcases (by omega : l.val = 0 ∨ l.val = 1 ∨ l.val = 2 ∨ l.val = 3) with h | h | h | h <;> simp [h]

end Cert.ReferenceIdeal.HostW

end
-- ==== Proof.RefHostX.lean ====
/-
  The reference's padded input, read at one entry.

  The reference flattens x and x_hat to 196608 × 24 (feature f of row r is entry (f / 3, f % 3) of that row),
  lays them side by side (196608 × 48) and pads each row with 80 zeros to width 128.  So entry (r, j) is feature j
  of row r's 48 features for j < 48, and 0 beyond.
-/
import proofs.«145325_g2000202685343482_pallasbulk_962_25_alg».proof.Proof.RefFrame
import proofs.«145325_g2000202685343482_pallasbulk_962_25_alg».proof.Proof.MlpBody
import proofs.«145325_g2000202685343482_pallasbulk_962_25_alg».proof.Proof.MlpIdx
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.ReferenceIdeal.HostX

open Idealize.ShloMosaic Idealize.ShloMosaic.TcCoe Idealize.ShloMosaic.ValueIdx Idealize.SL.Sem
open Cert.ReferenceIdeal Cert.ReferenceIdeal.Gen Cert.ReferenceIdeal.Fr Cert.Mlp

variable (m : (ℓ : Loc nD τ sig) → Buf (Elt Ideal) ℓ) (c : Dev nD)

/-- A [196608, 8, 3] array flattened to [196608, 24]: entry (r, f) is feature f of row r. -/
theorem reshape_row (a : S196608x8x3.Idx → EReal) (h : S196608x8x3.ShapeCasts S196608x24) (r : Fin 196608) (f : Fin 24) :
    shapeCast S196608x24 a h (ix2 r f) = xrow a r f := by
  unfold xrow
  refine shapeCast_apply a h (ix2 r f) _ ?_
  rw [Shape.rowMajor_val_three, Shape.rowMajor_val_two]
  show (r.val * 8 + f.val / 3) * 3 + f.val % 3 = r.val * 24 + f.val
  omega

/-- The padded input as the operations' term of the two argument arrays. -/
theorem v3_eq : (V m c main_v3 : S196608x128.Idx → EReal)
    = pad S196608x128 ![0, 0] ![0, 80] ![0, 0]
        (concatenate S196608x48 1
          [⟨S196608x24, shapeCast S196608x24 (m ((c : Thread nD τ).loc main_arg0) : S196608x8x3.Idx → EReal)
              shapeCasts_S196608x8x3_S196608x24⟩,
            ⟨S196608x24, shapeCast S196608x24 (m ((c : Thread nD τ).loc main_arg1) : S196608x8x3.Idx → EReal)
              shapeCasts_S196608x8x3_S196608x24⟩]
          concatenates_S196608x24_S196608x24_S196608x48_d1)
        (sitofp (F := Ideal) .f32 (constantI S_ 32 0#32)) pads_S196608x48_S196608x128_000_0800 h_S_ := by
  dsimp only [V, V0]
  simp only [hostOps0, hostOps0_1, hostOps0_2, List.flatten_cons, List.flatten_nil, List.append_nil, List.cons_append,
    List.nil_append]
  after_results
  rfl

/-- ENTRY (r, j) of the padded input. -/
theorem v3_apply (r : Fin 196608) (j : Fin 128) :
    (V m c main_v3 : S196608x128.Idx → EReal) (ix2 r j)
      = padX (catX (xrow (m ((c : Thread nD τ).loc main_arg0) : S196608x8x3.Idx → EReal) r)
          (xrow (m ((c : Thread nD τ).loc main_arg1) : S196608x8x3.Idx → EReal) r)) j := by
  rw [v3_eq]
  unfold padX
  split
  · rename_i hj
    refine (pad_apply_of_inside _ _ _ _ _ _ _ (ix2 r j) (ix2 r (⟨j.val, hj⟩ : Fin 48)) (fun a => by
      match a with
      | ⟨0, _⟩ => show r.val = 0 + r.val * (0 + 1); omega
      | ⟨1, _⟩ => show j.val = 0 + j.val * (0 + 1); omega)).trans ?_
    unfold catX
    split
    · rename_i hj2
      refine (concatenate_pair_apply_left (s₁ := S196608x24) (s₂ := S196608x24) (1 : Fin 2) _ _ _ (ix2 r (⟨j.val, hj⟩ : Fin 48)) rfl
        (ix2 r (⟨j.val, hj2⟩ : Fin 24)) (fun b => by
          match b with
          | ⟨0, _⟩ => rfl
          | ⟨1, _⟩ => rfl)).trans ?_
      exact reshape_row _ _ r ⟨j.val, hj2⟩
    · rename_i hj2
      have hj3 : ¬ j.val < 24 := hj2
      refine (concatenate_pair_apply_right (s₁ := S196608x24) (s₂ := S196608x24) (1 : Fin 2) _ _ _ (ix2 r (⟨j.val, hj⟩ : Fin 48)) rfl rfl
        (ix2 r (⟨j.val - 24, by omega⟩ : Fin 24)) (fun b hb => by
          match b with
          | ⟨0, _⟩ => rfl
          | ⟨1, _⟩ => exact absurd rfl hb)
        (by show (j.val - 24) + 24 = j.val; omega)).trans ?_
      exact reshape_row _ _ r ⟨j.val - 24, by omega⟩
  · rename_i hj
    refine (pad_apply_of_not_inside _ _ _ _ _ _ _ (ix2 r j) (1 : Fin 2) (by
      show ¬(0 ≤ j.val ∧ (j.val - 0) % (0 + 1) = 0 ∧ (j.val - 0) / (0 + 1) < 48)
      omega)).trans ?_
    show ((((0#32 : BitVec 32).toInt : ℤ) : ℝ) : EReal) = 0
    simp

end Cert.ReferenceIdeal.HostX

end
-- ==== Proof.RefBridge.lean ====
/-
  The reference's output at column 0 of row r is the specification's padded four-layer form of the argument arrays:
  the region finds the padded input, the stacked padded weights and the stacked padded biases, and the body applies the
  four logistic layers to row r.
-/
import proofs.«145325_g2000202685343482_pallasbulk_962_25_alg».proof.Proof.RefBlocks
import proofs.«145325_g2000202685343482_pallasbulk_962_25_alg».proof.Proof.RefHostW
import proofs.«145325_g2000202685343482_pallasbulk_962_25_alg».proof.Proof.RefHostX

set_option maxRecDepth 16384

noncomputable section

namespace Cert.ReferenceIdeal.Bridge

open Idealize.ShloMosaic Idealize.ShloMosaic.TcCoe Idealize.ShloMosaic.ValueIdx Idealize.SL.Sem
open Cert.ReferenceIdeal Cert.ReferenceIdeal.Gen Cert.ReferenceIdeal.Fr Cert.Mlp

variable (m : (ℓ : Loc nD τ sig) → Buf (Elt Ideal) ℓ) (c : Dev nD)

theorem G_apply (r : Fin 196608) :
    Cert.ReferenceIdeal.Blocks.G m c (ix2 r (0 : Fin 128))
      = refOut (padX (catX (xrow (m ((c : Thread nD τ).loc main_arg0) : S196608x8x3.Idx → EReal) r) (xrow (m ((c : Thread nD τ).loc main_arg1) : S196608x8x3.Idx → EReal) r)))
          (padW (fun k i => (m ((c : Thread nD τ).loc main_arg2) : S48x128.Idx → EReal) (ix2 k i)) (fun k i => (m ((c : Thread nD τ).loc main_arg4) : S128x32.Idx → EReal) (ix2 k i))
            (fun k i => (m ((c : Thread nD τ).loc main_arg6) : S32x16.Idx → EReal) (ix2 k i)) (fun k => (m ((c : Thread nD τ).loc main_arg8) : S16x1.Idx → EReal) (ix2 k (0 : Fin 1))))
          (padB (fun i => (m ((c : Thread nD τ).loc main_arg3) : S1x128.Idx → EReal) (ix2 (0 : Fin 1) i)) (fun i => (m ((c : Thread nD τ).loc main_arg5) : S1x32.Idx → EReal) (ix2 (0 : Fin 1) i))
            (fun i => (m ((c : Thread nD τ).loc main_arg7) : S1x16.Idx → EReal) (ix2 (0 : Fin 1) i)) ((m ((c : Thread nD τ).loc main_arg9) : S1x1.Idx → EReal) (ix2 (0 : Fin 1) (0 : Fin 1)))) := by
  have hX : (fun k => (V m c main_v3 : S196608x128.Idx → EReal) (ix2 r k)) = (padX (catX (xrow (m ((c : Thread nD τ).loc main_arg0) : S196608x8x3.Idx → EReal) r) (xrow (m ((c : Thread nD τ).loc main_arg1) : S196608x8x3.Idx → EReal) r))) :=
    funext fun k => Cert.ReferenceIdeal.HostX.v3_apply m c r k
  have hW : ∀ l : Fin 4, (fun k j => (V m c main_v33 : S4x128x128.Idx → EReal) (ix3 l k j)) = (padW (fun k i => (m ((c : Thread nD τ).loc main_arg2) : S48x128.Idx → EReal) (ix2 k i)) (fun k i => (m ((c : Thread nD τ).loc main_arg4) : S128x32.Idx → EReal) (ix2 k i))
            (fun k i => (m ((c : Thread nD τ).loc main_arg6) : S32x16.Idx → EReal) (ix2 k i)) (fun k => (m ((c : Thread nD τ).loc main_arg8) : S16x1.Idx → EReal) (ix2 k (0 : Fin 1)))) l :=
    fun l => funext fun k => funext fun j => Cert.ReferenceIdeal.HostW.v33_apply m c l k j
  have hB : ∀ l : Fin 4, (fun j => (V m c main_v37 : S4x1x128.Idx → EReal) (ix3 l (0 : Fin 1) j)) = (padB (fun i => (m ((c : Thread nD τ).loc main_arg3) : S1x128.Idx → EReal) (ix2 (0 : Fin 1) i)) (fun i => (m ((c : Thread nD τ).loc main_arg5) : S1x32.Idx → EReal) (ix2 (0 : Fin 1) i))
            (fun i => (m ((c : Thread nD τ).loc main_arg7) : S1x16.Idx → EReal) (ix2 (0 : Fin 1) i)) ((m ((c : Thread nD τ).loc main_arg9) : S1x1.Idx → EReal) (ix2 (0 : Fin 1) (0 : Fin 1)))) l :=
    fun l => funext fun j => Cert.ReferenceIdeal.HostW.v37_apply m c l j
  show (refLayer (fun k j => (V m c main_v33 : S4x128x128.Idx → EReal) (ix3 (3 : Fin 4) k j)) (fun j => (V m c main_v37 : S4x1x128.Idx → EReal) (ix3 (3 : Fin 4) (0 : Fin 1) j)) (refLayer (fun k j => (V m c main_v33 : S4x128x128.Idx → EReal) (ix3 (2 : Fin 4) k j)) (fun j => (V m c main_v37 : S4x1x128.Idx → EReal) (ix3 (2 : Fin 4) (0 : Fin 1) j)) (refLayer (fun k j => (V m c main_v33 : S4x128x128.Idx → EReal) (ix3 (1 : Fin 4) k j)) (fun j => (V m c main_v37 : S4x1x128.Idx → EReal) (ix3 (1 : Fin 4) (0 : Fin 1) j)) (refLayer (fun k j => (V m c main_v33 : S4x128x128.Idx → EReal) (ix3 (0 : Fin 4) k j)) (fun j => (V m c main_v37 : S4x1x128.Idx → EReal) (ix3 (0 : Fin 4) (0 : Fin 1) j)) (fun k => (V m c main_v3 : S196608x128.Idx → EReal) (ix2 r k)))))) (0 : Fin 128) = _
  rw [hX, hW 3, hW 2, hW 1, hW 0, hB 3, hB 2, hB 1, hB 0]
  rfl

end Cert.ReferenceIdeal.Bridge

end
-- ==== Proof.MlpAlgebra.lean ====
import proofs.«145325_g2000202685343482_pallasbulk_962_25_alg».proof.Proof.MlpSpec

/-
  The kernel's arrangement of the four-layer perceptron computes the same extended real as the padded
  reference, when every input is a real number.

  Both sides are coercions of real expressions.  On the reals, the logistic function satisfies
  logistic a = 1/2 * tanh (a / 2) + 1/2, so if a layer's values are h k = 1/2 * t k + 1/2 then the next
  layer's argument  Σ h k * w k + b  is twice  Σ (1/4 * w k) * t k + 1/2 * (1/2 * Σ w k + b).
  The padded columns of the reference meet zero weights in the following layer and contribute nothing.
-/

noncomputable section

namespace Cert.Mlp

open Idealize.ShloMosaic

/-! ## Finite sums -/

/-- The coercion of a finite sum of reals is the sum of the coercions. -/
theorem coe_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- A sum over Fin N whose terms vanish from index n on is the sum of its first n terms. -/
theorem sum_fin_pad {α : Type*} [AddCommMonoid α] {N n : ℕ} (hn : n ≤ N) (f : Fin N → α)
    (hf : ∀ k : Fin N, n ≤ k.val → f k = 0) :
    ∑ k : Fin N, f k = ∑ k : Fin n, f (Fin.castLE hn k) := by
  have hmap : ∑ k : Fin n, f (Fin.castLE hn k) = ∑ j ∈ Finset.univ.map (Fin.castLEEmb hn), f j := by
    rw [Finset.sum_map]; rfl
  rw [hmap]
  symm
  apply Finset.sum_subset (Finset.subset_univ _)
  intro k _ hk
  apply hf
  by_contra hlt
  exact hk (Finset.mem_map.mpr ⟨⟨k.val, Nat.lt_of_not_le hlt⟩, Finset.mem_univ _, Fin.ext rfl⟩)

/-! ## The logistic function on the reals -/

/-- The logistic function of a real number. -/
def sig (a : ℝ) : ℝ := (1 + Real.exp (-a))⁻¹

/-- logistic a = 1/2 * tanh (a / 2) + 1/2. -/
theorem sig_eq_tanh (a : ℝ) : sig a = 1 / 2 * Real.tanh (a / 2) + 1 / 2 := by
  unfold sig
  rw [Real.tanh_eq_sinh_div_cosh, Real.sinh_eq, Real.cosh_eq]
  have h1 : Real.exp (-a) = Real.exp (-(a / 2)) * Real.exp (-(a / 2)) := by
    rw [← Real.exp_add]; congr 1; ring
  have hu : Real.exp (a / 2) = (Real.exp (-(a / 2)))⁻¹ := by rw [Real.exp_neg, inv_inv]
  have hv : 0 < Real.exp (-(a / 2)) := Real.exp_pos _
  rw [h1, hu]
  generalize Real.exp (-(a / 2)) = v at hv
  have h2 : 1 + v * v ≠ 0 := by positivity
  have h3 : v⁻¹ + v ≠ 0 := by positivity
  have h4 : v ≠ 0 := hv.ne'
  field_simp
  ring

/-! ## Real-valued layers -/

/-- The kernel's first layer on the reals. -/
def rT1 (x : Fin 48 → ℝ) (w1 : Fin 48 → Fin 128 → ℝ) (b1 : Fin 128 → ℝ) (i : Fin 128) : ℝ :=
  Real.tanh ((∑ k : Fin 48, (1 / 2 * w1 k i) * x k) + 1 / 2 * b1 i)

/-- A later layer of the kernel on the reals. -/
def rT {n d : ℕ} (t : Fin n → ℝ) (w : Fin n → Fin d → ℝ) (b : Fin d → ℝ) (i : Fin d) : ℝ :=
  Real.tanh ((∑ k : Fin n, (1 / 4 * w k i) * t k) + 1 / 2 * ((1 / 2 * (0 + ∑ k : Fin n, w k i)) + b i))

/-- A logistic layer on the reals. -/
def rL {n d : ℕ} (h : Fin n → ℝ) (w : Fin n → Fin d → ℝ) (b : Fin d → ℝ) (i : Fin d) : ℝ :=
  sig ((∑ k : Fin n, h k * w k i) + b i)

/-- First layer: the logistic layer of x is 1/2 * (the kernel's tanh layer) + 1/2. -/
theorem rL_first (x : Fin 48 → ℝ) (w1 : Fin 48 → Fin 128 → ℝ) (b1 : Fin 128 → ℝ) (i : Fin 128) :
    rL x w1 b1 i = 1 / 2 * rT1 x w1 b1 i + 1 / 2 := by
  unfold rL rT1
  rw [sig_eq_tanh]
  congr 3
  rw [add_div, Finset.sum_div]
  congr 1
  · apply Finset.sum_congr rfl
    intro k _
    ring
  · ring

/-- Later layers: if h k = 1/2 * t k + 1/2 for every k, the logistic layer of h is
    1/2 * (the kernel's tanh layer of t) + 1/2. -/
theorem rL_step {n d : ℕ} (h t : Fin n → ℝ) (w : Fin n → Fin d → ℝ) (b : Fin d → ℝ) (i : Fin d)
    (hh : ∀ k, h k = 1 / 2 * t k + 1 / 2) :
    rL h w b i = 1 / 2 * rT t w b i + 1 / 2 := by
  unfold rL rT
  rw [sig_eq_tanh]
  congr 3
  have e1 : ∑ k : Fin n, h k * w k i = 1 / 2 * ∑ k : Fin n, t k * w k i + 1 / 2 * ∑ k : Fin n, w k i := by
    rw [Finset.mul_sum, Finset.mul_sum, ← Finset.sum_add_distrib]
    apply Finset.sum_congr rfl
    intro k _
    rw [hh k]; ring
  have e2 : ∑ k : Fin n, (1 / 4 * w k i) * t k = 1 / 4 * ∑ k : Fin n, t k * w k i := by
    rw [Finset.mul_sum]
    apply Finset.sum_congr rfl
    intro k _
    ring
  rw [e1, e2]
  ring

/-! ## Both sides as coercions of real expressions -/

theorem kerT1_coe (x : Fin 48 → ℝ) (w1 : Fin 48 → Fin 128 → ℝ) (b1 : Fin 128 → ℝ) :
    kerT1 (fun k => (x k : EReal)) (fun k i => (w1 k i : EReal)) (fun i => (b1 i : EReal))
      = fun i => (rT1 x w1 b1 i : EReal) := by
  funext i
  simp only [kerT1, rT1, half, ← EReal.coe_mul, ← coe_sum, ← EReal.coe_add, Ideal.tanh_coe]

theorem kerT_coe {n d : ℕ} (t : Fin n → ℝ) (w : Fin n → Fin d → ℝ) (b : Fin d → ℝ) :
    kerT (fun k => (t k : EReal)) (fun k i => (w k i : EReal)) (fun i => (b i : EReal))
      = fun i => (rT t w b i : EReal) := by
  funext i
  simp only [kerT, rT, half, quarter, ← EReal.coe_zero, ← EReal.coe_mul, ← coe_sum, ← EReal.coe_add,
    Ideal.tanh_coe]

theorem refLayer_coe (Wr : Fin 128 → Fin 128 → ℝ) (Br : Fin 128 → ℝ) (h : Fin 128 → ℝ) :
    refLayer (fun k j => (Wr k j : EReal)) (fun j => (Br j : EReal)) (fun k => (h k : EReal))
      = fun j => (rL h Wr Br j : EReal) := by
  funext j
  simp only [refLayer, rL, sig, ← EReal.coe_mul, ← coe_sum, ← EReal.coe_add, Ideal.logistic_coe]

/-! ## The padding on the reals -/

/-- The padded input row on the reals. -/
def padXr (xc : Fin 48 → ℝ) (j : Fin 128) : ℝ :=
  if h : j.val < 48 then xc ⟨j.val, h⟩ else 0

/-- The padded weight matrices on the reals. -/
def padWr (w1 : Fin 48 → Fin 128 → ℝ) (w2 : Fin 128 → Fin 32 → ℝ) (w3 : Fin 32 → Fin 16 → ℝ)
    (w4 : Fin 16 → ℝ) (l : Fin 4) (k j : Fin 128) : ℝ :=
  if l.val = 0 then (if h : k.val < 48 then w1 ⟨k.val, h⟩ j else 0)
  else if l.val = 1 then (if h : j.val < 32 then w2 k ⟨j.val, h⟩ else 0)
  else if l.val = 2 then (if h : k.val < 32 ∧ j.val < 16 then w3 ⟨k.val, h.1⟩ ⟨j.val, h.2⟩ else 0)
  else (if h : k.val < 16 ∧ j.val < 1 then w4 ⟨k.val, h.1⟩ else 0)

/-- The padded bias rows on the reals. -/
def padBr (b1 : Fin 128 → ℝ) (b2 : Fin 32 → ℝ) (b3 : Fin 16 → ℝ) (b4 : ℝ)
    (l : Fin 4) (j : Fin 128) : ℝ :=
  if l.val = 0 then b1 j
  else if l.val = 1 then (if h : j.val < 32 then b2 ⟨j.val, h⟩ else 0)
  else if l.val = 2 then (if h : j.val < 16 then b3 ⟨j.val, h⟩ else 0)
  else (if j.val < 1 then b4 else 0)

theorem padX_coe (xc : Fin 48 → ℝ) :
    padX (fun k => (xc k : EReal)) = fun j => (padXr xc j : EReal) := by
  funext j
  unfold padX padXr
  split_ifs <;> simp

theorem padW_coe (w1 : Fin 48 → Fin 128 → ℝ) (w2 : Fin 128 → Fin 32 → ℝ) (w3 : Fin 32 → Fin 16 → ℝ)
    (w4 : Fin 16 → ℝ) :
    padW (fun k i => (w1 k i : EReal)) (fun k i => (w2 k i : EReal)) (fun k i => (w3 k i : EReal))
        (fun k => (w4 k : EReal))
      = fun l k j => (padWr w1 w2 w3 w4 l k j : EReal) := by
  funext l k j
  unfold padW padWr
  split_ifs <;> simp

theorem padB_coe (b1 : Fin 128 → ℝ) (b2 : Fin 32 → ℝ) (b3 : Fin 16 → ℝ) (b4 : ℝ) :
    padB (fun i => (b1 i : EReal)) (fun i => (b2 i : EReal)) (fun i => (b3 i : EReal)) (b4 : EReal)
      = fun l j => (padBr b1 b2 b3 b4 l j : EReal) := by
  funext l j
  unfold padB padBr
  split_ifs <;> simp

/-! ## Removing the padding, on the reals -/

/-- First layer: the padded rows of the input and of the weights contribute nothing. -/
theorem rL_pad0 (x : Fin 48 → ℝ) (w1 : Fin 48 → Fin 128 → ℝ) (w2 : Fin 128 → Fin 32 → ℝ)
    (w3 : Fin 32 → Fin 16 → ℝ) (w4 : Fin 16 → ℝ) (b1 : Fin 128 → ℝ) (b2 : Fin 32 → ℝ) (b3 : Fin 16 → ℝ)
    (b4 : ℝ) (j : Fin 128) :
    rL (padXr x) (padWr w1 w2 w3 w4 0) (padBr b1 b2 b3 b4 0) j = rL x w1 b1 j := by
  unfold rL
  have hs : ∑ k : Fin 128, padXr x k * padWr w1 w2 w3 w4 0 k j = ∑ k : Fin 48, x k * w1 k j := by
    rw [sum_fin_pad (show 48 ≤ 128 by norm_num)]
    · apply Finset.sum_congr rfl
      intro k _
      simp [padXr, padWr]
    · intro k hk
      simp [padXr, Nat.not_lt.mpr hk]
  have hb : padBr b1 b2 b3 b4 0 j = b1 j := by simp [padBr]
  rw [hs, hb]

/-- Second layer: a live column of the padded layer is the column of the unpadded one. -/
theorem rL_pad1 (h : Fin 128 → ℝ) (w1 : Fin 48 → Fin 128 → ℝ) (w2 : Fin 128 → Fin 32 → ℝ)
    (w3 : Fin 32 → Fin 16 → ℝ) (w4 : Fin 16 → ℝ) (b1 : Fin 128 → ℝ) (b2 : Fin 32 → ℝ) (b3 : Fin 16 → ℝ)
    (b4 : ℝ) (j : Fin 32) :
    rL h (padWr w1 w2 w3 w4 1) (padBr b1 b2 b3 b4 1) (Fin.castLE (show 32 ≤ 128 by norm_num) j)
      = rL h w2 b2 j := by
  unfold rL
  simp [padWr, padBr]

/-- Third layer: only the first 32 columns of the previous layer meet nonzero weights. -/
theorem rL_pad2 (h : Fin 128 → ℝ) (w1 : Fin 48 → Fin 128 → ℝ) (w2 : Fin 128 → Fin 32 → ℝ)
    (w3 : Fin 32 → Fin 16 → ℝ) (w4 : Fin 16 → ℝ) (b1 : Fin 128 → ℝ) (b2 : Fin 32 → ℝ) (b3 : Fin 16 → ℝ)
    (b4 : ℝ) (j : Fin 16) :
    rL h (padWr w1 w2 w3 w4 2) (padBr b1 b2 b3 b4 2) (Fin.castLE (show 16 ≤ 128 by norm_num) j)
      = rL (fun k : Fin 32 => h (Fin.castLE (show 32 ≤ 128 by norm_num) k)) w3 b3 j := by
  unfold rL
  have e2 : ((2 : Fin 4) : ℕ) = 2 := rfl
  have hs : ∑ k : Fin 128, h k * padWr w1 w2 w3 w4 2 k (Fin.castLE (show 16 ≤ 128 by norm_num) j)
      = ∑ k : Fin 32, h (Fin.castLE (show 32 ≤ 128 by norm_num) k) * w3 k j := by
    rw [sum_fin_pad (show 32 ≤ 128 by norm_num)]
    · apply Finset.sum_congr rfl
      intro k _
      simp [padWr, e2]
    · intro k hk
      simp [padWr, e2, Nat.not_lt.mpr hk]
  have hb : padBr b1 b2 b3 b4 2 (Fin.castLE (show 16 ≤ 128 by norm_num) j) = b3 j := by
    simp [padBr, e2]
  rw [hs, hb]

/-- Fourth layer, column 0: only the first 16 columns of the previous layer meet nonzero weights. -/
theorem rL_pad3 (h : Fin 128 → ℝ) (w1 : Fin 48 → Fin 128 → ℝ) (w2 : Fin 128 → Fin 32 → ℝ)
    (w3 : Fin 32 → Fin 16 → ℝ) (w4 : Fin 16 → ℝ) (b1 : Fin 128 → ℝ) (b2 : Fin 32 → ℝ) (b3 : Fin 16 → ℝ)
    (b4 : ℝ) :
    rL h (padWr w1 w2 w3 w4 3) (padBr b1 b2 b3 b4 3) 0
      = rL (fun k : Fin 16 => h (Fin.castLE (show 16 ≤ 128 by norm_num) k))
          (fun k (_ : Fin 1) => w4 k) (fun _ => b4) 0 := by
  unfold rL
  have e3 : ((3 : Fin 4) : ℕ) = 3 := rfl
  have hs : ∑ k : Fin 128, h k * padWr w1 w2 w3 w4 3 k 0
      = ∑ k : Fin 16, h (Fin.castLE (show 16 ≤ 128 by norm_num) k) * w4 k := by
    rw [sum_fin_pad (show 16 ≤ 128 by norm_num)]
    · apply Finset.sum_congr rfl
      intro k _
      simp [padWr, e3]
    · intro k hk
      simp [padWr, e3, Nat.not_lt.mpr hk]
  have hb : padBr b1 b2 b3 b4 3 0 = b4 := by
    simp [padBr, e3]
  rw [hs, hb]

/-- The padded reference on the reals is 1/2 * tanh (the kernel's last argument) + 1/2. -/
theorem ref_real (x : Fin 48 → ℝ) (w1 : Fin 48 → Fin 128 → ℝ) (b1 : Fin 128 → ℝ)
    (w2 : Fin 128 → Fin 32 → ℝ) (b2 : Fin 32 → ℝ) (w3 : Fin 32 → Fin 16 → ℝ) (b3 : Fin 16 → ℝ)
    (w4 : Fin 16 → ℝ) (b4 : ℝ) :
    rL (rL (rL (rL (padXr x) (padWr w1 w2 w3 w4 0) (padBr b1 b2 b3 b4 0))
          (padWr w1 w2 w3 w4 1) (padBr b1 b2 b3 b4 1))
        (padWr w1 w2 w3 w4 2) (padBr b1 b2 b3 b4 2))
      (padWr w1 w2 w3 w4 3) (padBr b1 b2 b3 b4 3) 0
    = 1 / 2 * rT (rT (rT (rT1 x w1 b1) w2 b2) w3 b3) (fun k (_ : Fin 1) => w4 k) (fun _ => b4) 0 + 1 / 2 := by
  rw [rL_pad3]
  apply rL_step
  intro k
  beta_reduce
  rw [rL_pad2]
  apply rL_step
  intro k'
  beta_reduce
  rw [rL_pad1]
  apply rL_step
  intro k''
  rw [rL_pad0]
  exact rL_first x w1 b1 k''

/-! ## The statement -/

theorem kerOut_eq_refOut (xc : Fin 48 → ℝ) (w1 : Fin 48 → Fin 128 → ℝ) (b1 : Fin 128 → ℝ)
    (w2 : Fin 128 → Fin 32 → ℝ) (b2 : Fin 32 → ℝ) (w3 : Fin 32 → Fin 16 → ℝ) (b3 : Fin 16 → ℝ)
    (w4 : Fin 16 → ℝ) (b4 : ℝ) :
    kerOut (fun k => (xc k : EReal)) (fun k i => (w1 k i : EReal)) (fun i => (b1 i : EReal))
        (fun k i => (w2 k i : EReal)) (fun i => (b2 i : EReal)) (fun k i => (w3 k i : EReal)) (fun i => (b3 i : EReal))
        (fun k => (w4 k : EReal)) (b4 : EReal)
      = refOut (padX (fun k => (xc k : EReal)))
          (padW (fun k i => (w1 k i : EReal)) (fun k i => (w2 k i : EReal)) (fun k i => (w3 k i : EReal)) (fun k => (w4 k : EReal)))
          (padB (fun i => (b1 i : EReal)) (fun i => (b2 i : EReal)) (fun i => (b3 i : EReal)) (b4 : EReal)) := by
  have k1 := kerT1_coe xc w1 b1
  have k2 := kerT_coe (rT1 xc w1 b1) w2 b2
  have k3 := kerT_coe (rT (rT1 xc w1 b1) w2 b2) w3 b3
  have r0 := refLayer_coe (padWr w1 w2 w3 w4 0) (padBr b1 b2 b3 b4 0) (padXr xc)
  have r1 := refLayer_coe (padWr w1 w2 w3 w4 1) (padBr b1 b2 b3 b4 1)
    (rL (padXr xc) (padWr w1 w2 w3 w4 0) (padBr b1 b2 b3 b4 0))
  have r2 := refLayer_coe (padWr w1 w2 w3 w4 2) (padBr b1 b2 b3 b4 2)
    (rL (rL (padXr xc) (padWr w1 w2 w3 w4 0) (padBr b1 b2 b3 b4 0))
      (padWr w1 w2 w3 w4 1) (padBr b1 b2 b3 b4 1))
  have r3 := refLayer_coe (padWr w1 w2 w3 w4 3) (padBr b1 b2 b3 b4 3)
    (rL (rL (rL (padXr xc) (padWr w1 w2 w3 w4 0) (padBr b1 b2 b3 b4 0))
      (padWr w1 w2 w3 w4 1) (padBr b1 b2 b3 b4 1)) (padWr w1 w2 w3 w4 2) (padBr b1 b2 b3 b4 2))
  unfold kerOut refOut
  rw [padX_coe, padW_coe, padB_coe, k1, k2, k3]
  beta_reduce
  rw [r0, r1, r2, r3]
  beta_reduce
  rw [ref_real]
  simp only [rT, half, quarter, ← EReal.coe_zero, ← EReal.coe_mul, ← coe_sum, ← EReal.coe_add,
    Ideal.tanh_coe]

end Cert.Mlp

end
-- ==== Proof.MlpRow.lean ====
/-
  The two programs' per-row expressions agree when every input entry is a real number.

  Row r's 48 features are the 24 entries of x's row r followed by the 24 entries of x_hat's row r.  With the weights
  and biases read off the argument arrays, the kernel's folded tanh form of these features equals the reference's
  padded logistic form: the specification's algebra, applied to the real values of the entries.
-/
import proofs.«145325_g2000202685343482_pallasbulk_962_25_alg».proof.Proof.MlpAlgebra
import proofs.«145325_g2000202685343482_pallasbulk_962_25_alg».proof.Proof.MlpBody
import proofs.«145325_g2000202685343482_pallasbulk_962_25_alg».proof.Proof.MlpIdx

noncomputable section

namespace Cert.Mlp

open Idealize.ShloMosaic Idealize.ShloMosaic.ValueIdx

/-- The stacked features of real-valued inputs are the coercions of real numbers. -/
theorem catX_coe (f0 f1 : (⟨3, ![196608, 8, 3]⟩ : Shape).Idx → ℝ) (r : Fin 196608) :
    catX (xrow (fun i => (f0 i : EReal)) r) (xrow (fun i => (f1 i : EReal)) r)
      = fun k : Fin 48 => (((if h : k.val < 24
          then f0 (ix3 r (⟨k.val / 3, by omega⟩ : Fin 8) (⟨k.val % 3, by omega⟩ : Fin 3))
          else f1 (ix3 r (⟨(k.val - 24) / 3, by have := k.isLt; omega⟩ : Fin 8) (⟨(k.val - 24) % 3, by omega⟩ : Fin 3))) : ℝ) : EReal) := by
  funext k
  unfold catX xrow
  split <;> rfl

/-- THE ROW EQUATION over real-valued inputs. -/
theorem row_eq (f0 f1 : (⟨3, ![196608, 8, 3]⟩ : Shape).Idx → ℝ) (f2 : (⟨2, ![48, 128]⟩ : Shape).Idx → ℝ)
    (f3 : (⟨2, ![1, 128]⟩ : Shape).Idx → ℝ) (f4 : (⟨2, ![128, 32]⟩ : Shape).Idx → ℝ)
    (f5 : (⟨2, ![1, 32]⟩ : Shape).Idx → ℝ) (f6 : (⟨2, ![32, 16]⟩ : Shape).Idx → ℝ)
    (f7 : (⟨2, ![1, 16]⟩ : Shape).Idx → ℝ) (f8 : (⟨2, ![16, 1]⟩ : Shape).Idx → ℝ)
    (f9 : (⟨2, ![1, 1]⟩ : Shape).Idx → ℝ) (r : Fin 196608) :
    kerOut (catX (xrow (fun i => (f0 i : EReal)) r) (xrow (fun i => (f1 i : EReal)) r))
        (fun k i => (f2 (ix2 k i) : EReal)) (fun i => (f3 (ix2 (0 : Fin 1) i) : EReal))
        (fun k i => (f4 (ix2 k i) : EReal)) (fun i => (f5 (ix2 (0 : Fin 1) i) : EReal))
        (fun k i => (f6 (ix2 k i) : EReal)) (fun i => (f7 (ix2 (0 : Fin 1) i) : EReal))
        (fun k => (f8 (ix2 k (0 : Fin 1)) : EReal)) (f9 (ix2 (0 : Fin 1) (0 : Fin 1)) : EReal)
      = refOut (padX (catX (xrow (fun i => (f0 i : EReal)) r) (xrow (fun i => (f1 i : EReal)) r)))
          (padW (fun k i => (f2 (ix2 k i) : EReal)) (fun k i => (f4 (ix2 k i) : EReal))
            (fun k i => (f6 (ix2 k i) : EReal)) (fun k => (f8 (ix2 k (0 : Fin 1)) : EReal)))
          (padB (fun i => (f3 (ix2 (0 : Fin 1) i) : EReal)) (fun i => (f5 (ix2 (0 : Fin 1) i) : EReal))
            (fun i => (f7 (ix2 (0 : Fin 1) i) : EReal)) (f9 (ix2 (0 : Fin 1) (0 : Fin 1)) : EReal)) := by
  rw [catX_coe f0 f1 r]
  exact kerOut_eq_refOut _ (fun k i => f2 (ix2 k i)) (fun i => f3 (ix2 (0 : Fin 1) i))
    (fun k i => f4 (ix2 k i)) (fun i => f5 (ix2 (0 : Fin 1) i)) (fun k i => f6 (ix2 k i))
    (fun i => f7 (ix2 (0 : Fin 1) i)) (fun k => f8 (ix2 k (0 : Fin 1))) (f9 (ix2 (0 : Fin 1) (0 : Fin 1)))

/-- The row equation for arrays of extended reals every entry of which is a real number. -/
theorem row_eq_of_real (a0 a1 : (⟨3, ![196608, 8, 3]⟩ : Shape).Idx → EReal) (a2 : (⟨2, ![48, 128]⟩ : Shape).Idx → EReal)
    (a3 : (⟨2, ![1, 128]⟩ : Shape).Idx → EReal) (a4 : (⟨2, ![128, 32]⟩ : Shape).Idx → EReal)
    (a5 : (⟨2, ![1, 32]⟩ : Shape).Idx → EReal) (a6 : (⟨2, ![32, 16]⟩ : Shape).Idx → EReal)
    (a7 : (⟨2, ![1, 16]⟩ : Shape).Idx → EReal) (a8 : (⟨2, ![16, 1]⟩ : Shape).Idx → EReal)
    (a9 : (⟨2, ![1, 1]⟩ : Shape).Idx → EReal)
    (h0 : ∀ i, ∃ x : ℝ, a0 i = (x : EReal)) (h1 : ∀ i, ∃ x : ℝ, a1 i = (x : EReal))
    (h2 : ∀ i, ∃ x : ℝ, a2 i = (x : EReal)) (h3 : ∀ i, ∃ x : ℝ, a3 i = (x : EReal))
    (h4 : ∀ i, ∃ x : ℝ, a4 i = (x : EReal)) (h5 : ∀ i, ∃ x : ℝ, a5 i = (x : EReal))
    (h6 : ∀ i, ∃ x : ℝ, a6 i = (x : EReal)) (h7 : ∀ i, ∃ x : ℝ, a7 i = (x : EReal))
    (h8 : ∀ i, ∃ x : ℝ, a8 i = (x : EReal)) (h9 : ∀ i, ∃ x : ℝ, a9 i = (x : EReal)) (r : Fin 196608) :
    kerOut (catX (xrow a0 r) (xrow a1 r))
        (fun k i => a2 (ix2 k i)) (fun i => a3 (ix2 (0 : Fin 1) i))
        (fun k i => a4 (ix2 k i)) (fun i => a5 (ix2 (0 : Fin 1) i))
        (fun k i => a6 (ix2 k i)) (fun i => a7 (ix2 (0 : Fin 1) i))
        (fun k => a8 (ix2 k (0 : Fin 1))) (a9 (ix2 (0 : Fin 1) (0 : Fin 1)))
      = refOut (padX (catX (xrow a0 r) (xrow a1 r)))
          (padW (fun k i => a2 (ix2 k i)) (fun k i => a4 (ix2 k i)) (fun k i => a6 (ix2 k i))
            (fun k => a8 (ix2 k (0 : Fin 1))))
          (padB (fun i => a3 (ix2 (0 : Fin 1) i)) (fun i => a5 (ix2 (0 : Fin 1) i))
            (fun i => a7 (ix2 (0 : Fin 1) i)) (a9 (ix2 (0 : Fin 1) (0 : Fin 1)))) := by
  choose f0 hf0 using h0
  choose f1 hf1 using h1
  choose f2 hf2 using h2
  choose f3 hf3 using h3
  choose f4 hf4 using h4
  choose f5 hf5 using h5
  choose f6 hf6 using h6
  choose f7 hf7 using h7
  choose f8 hf8 using h8
  choose f9 hf9 using h9
  obtain rfl : a0 = fun i => (f0 i : EReal) := funext hf0
  obtain rfl : a1 = fun i => (f1 i : EReal) := funext hf1
  obtain rfl : a2 = fun i => (f2 i : EReal) := funext hf2
  obtain rfl : a3 = fun i => (f3 i : EReal) := funext hf3
  obtain rfl : a4 = fun i => (f4 i : EReal) := funext hf4
  obtain rfl : a5 = fun i => (f5 i : EReal) := funext hf5
  obtain rfl : a6 = fun i => (f6 i : EReal) := funext hf6
  obtain rfl : a7 = fun i => (f7 i : EReal) := funext hf7
  obtain rfl : a8 = fun i => (f8 i : EReal) := funext hf8
  obtain rfl : a9 = fun i => (f9 i : EReal) := funext hf9
  exact row_eq f0 f1 f2 f3 f4 f5 f6 f7 f8 f9 r

end Cert.Mlp

end
-- ==== Proof.PreReal.lean ====
import proofs.«145325_g2000202685343482_pallasbulk_962_25_alg».proof.Proof.Gen.Pre_finite_inputs
import Idealize.ShloMosaic.Lib.ReduceAll
import Idealize.ShloMosaic.Lib.ValueIdx

/-
  The precondition, read back: each of the ten inputs satisfies  all (|x| < +∞),  and the ten answers are
  joined by "and".  An extended real whose absolute value  max x (-x)  lies below +∞ is neither +∞ nor -∞,
  so it is a real number.  The word 0x7F800000 encodes +∞ in the 32-bit format.
-/

noncomputable section

namespace Cert.PreReal

open Idealize.ShloMosaic Cert.Pre_finite_inputs

/-- The shape with no axes has exactly one index. -/
instance : Subsingleton S_.Idx := ⟨fun a b => funext fun d => d.elim0⟩

/-- A bit made from a Boolean is 1 exactly when the Boolean is true. -/
theorem ofBool_eq_one {b : Bool} : BitVec.ofBool b = 1#1 ↔ b = true := by cases b <;> decide

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 is +∞. -/
theorem inf_bits : Ideal.ofBits .f32 0x7F800000#32 = ⊤ := by simp [Ideal.ofBits, Ideal.ieee]

/-- One input: if all (|x| < +∞) is 1, every entry of x is a real number. -/
theorem real_of_all {S : Shape} {axes : List (Fin S.rank)} (x : FVec Ideal S .f32)
    (hb : S_.BroadcastsInDim S (![] : Fin 0 → Fin S.rank)) (hr : S.ReducesTo axes S_) (hS : 0 < S_.numel)
    (e : Host.reduce IntOp.andi
          (cmpf .olt (Host.absf x) (broadcastInDim S ![] hb (constant S_ .f32 0x7F800000#32)))
          (constantI S_ 1 1#1) hr hS ValueIdx.ix0 = 1#1) (i : S.Idx) :
    ∃ r : ℝ, x i = (r : EReal) := by
  have h1 := Host.reduce_andi_all _ _ hr hS _ e i
  have h2 : Ideal.cmp .olt (max (x i) (-(x i))) (Ideal.ofBits .f32 0x7F800000#32) = 1#1 := h1
  rw [inf_bits] at h2
  simp only [Ideal.cmp] at h2
  rw [ofBool_eq_one, decide_eq_true_eq] at h2
  exact real_of_abs_lt_top _ h2

/-- An "and" of two one-bit scalars that is 1 has both operands 1. -/
theorem andi_ix0 (x y : IVec S_ 1) (h : andi x y ValueIdx.ix0 = 1#1) :
    x ValueIdx.ix0 = 1#1 ∧ y ValueIdx.ix0 = 1#1 :=
  IntOp.andi_eq_one.1 h

theorem reals_of_pre (a0 a1 : FVec Ideal S196608x8x3 .f32) (a2 : FVec Ideal S48x128 .f32) (a3 : FVec Ideal S1x128 .f32) (a4 : FVec Ideal S128x32 .f32) (a5 : FVec Ideal S1x32 .f32) (a6 : FVec Ideal S32x16 .f32) (a7 : FVec Ideal S1x16 .f32) (a8 : FVec Ideal S16x1 .f32) (a9 : FVec Ideal S1x1 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) := by
  have H := congrFun h ValueIdx.ix0
  dsimp only [fn, fn_part1, fn_part2] at H
  obtain ⟨H, h9⟩ := andi_ix0 _ _ H
  obtain ⟨H, h8⟩ := andi_ix0 _ _ H
  obtain ⟨H, h7⟩ := andi_ix0 _ _ H
  obtain ⟨H, h6⟩ := andi_ix0 _ _ H
  obtain ⟨H, h5⟩ := andi_ix0 _ _ H
  obtain ⟨H, h4⟩ := andi_ix0 _ _ H
  obtain ⟨H, h3⟩ := andi_ix0 _ _ H
  obtain ⟨H, h2⟩ := andi_ix0 _ _ H
  obtain ⟨h0, h1⟩ := andi_ix0 _ _ H
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9⟩

end Cert.PreReal

end
-- ==== Proof.lean ====
/-
  Both programs compute, for each of the 196608 batch rows, one four-layer perceptron with logistic activations on
  the row's 48 features (the 24 entries of x's row followed by the 24 entries of x_hat's row), and return the single
  output as a 196608 × 1 column.

  The reference pads the features, every weight matrix and every bias row with zeros to width 128, runs four
  128-wide layers h ↦ logistic (h · W + b) on blocks of 512 rows, and keeps column 0.  The kernel puts the batch on
  the lanes (blocks of 16384 columns of the transposed features) and uses logistic a = 1/2 · tanh (a / 2) + 1/2: with
  t = tanh (a / 2) carried from layer to layer, the factors 1/2 and 1/4 and the constant 1/2 · (1/2 · Σ w + b) are
  multiplied into the transposed weights and the biases before the kernel is launched.

  At the exact instance both are real-analytic expressions of the inputs.  They agree when every input entry is a
  real number, which is what the precondition says: the padded columns hold logistic 0 = 1/2 against zero weights,
  the affine maps distribute over the reals, and the scalar identity relates the two activations.  Distributing
  needs finiteness, so the precondition is used.

  The frames of the kernel's two programs are the generated ones; the reference's frame, the two programs' result
  arrays as functions of the arguments, and the bridge are in the modules imported here.  No rewrite was applied by
  the idealization, so that conjunct is trivial.
-/
import proofs.«145325_g2000202685343482_pallasbulk_962_25_alg».proof.Defs
import proofs.«145325_g2000202685343482_pallasbulk_962_25_alg».proof.Proof.Gen.Kernel
import proofs.«145325_g2000202685343482_pallasbulk_962_25_alg».proof.Proof.Gen.Kernel.Frame
import proofs.«145325_g2000202685343482_pallasbulk_962_25_alg».proof.Proof.Gen.KernelIdeal
import proofs.«145325_g2000202685343482_pallasbulk_962_25_alg».proof.Proof.Gen.KernelIdeal.Frame
import proofs.«145325_g2000202685343482_pallasbulk_962_25_alg».proof.Proof.Gen.ReferenceIdeal
import proofs.«145325_g2000202685343482_pallasbulk_962_25_alg».proof.Proof.Gen.Pre_finite_inputs
import proofs.«145325_g2000202685343482_pallasbulk_962_25_alg».proof.Proof.RefFrame
import proofs.«145325_g2000202685343482_pallasbulk_962_25_alg».proof.Proof.KerRun
import proofs.«145325_g2000202685343482_pallasbulk_962_25_alg».proof.Proof.KerBridge
import proofs.«145325_g2000202685343482_pallasbulk_962_25_alg».proof.Proof.RefBridge
import proofs.«145325_g2000202685343482_pallasbulk_962_25_alg».proof.Proof.MlpRow
import proofs.«145325_g2000202685343482_pallasbulk_962_25_alg».proof.Proof.PreReal

set_option maxRecDepth 16384

noncomputable section

namespace Cert.Proof

open Idealize.ShloMosaic Idealize.SL.Sem Idealize.ShloMosaic.ValueIdx Cert.Mlp

/-- Row r of the reference's output (column 0) is lane r of the kernel's output, for arguments that agree and are
    finite. -/
theorem G_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (fun _ => 1#1))
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (r : Fin 196608) :
    Cert.ReferenceIdeal.Blocks.G m' c (ix2 r (0 : Fin 128)) = Cert.KernelIdeal.Blocks.G m c (ix2 (0 : Fin 1) r) := by
  rw [Cert.ReferenceIdeal.Bridge.G_apply, Cert.KernelIdeal.Bridge.G_apply]
  obtain ⟨e0, e1, e2, e3, e4, e5, e6, e7, e8, e9⟩ := hag
  obtain ⟨h0, h1, h2, h3, h4, h5, h6, h7, h8, h9⟩ := Cert.PreReal.reals_of_pre _ _ _ _ _ _ _ _ _ _ hpre
  rw [e0, e1, e2, e3, e4, e5, e6, e7, e8, e9]
  exact (row_eq_of_real _ _ _ _ _ _ _ _ _ _ h0 h1 h2 h3 h4 h5 h6 h7 h8 h9 r).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Fr.frame m ρ
theorem preserves : Cert.preserves_Kernel_KernelIdeal := trivial

/-- The two idealized programs, run from memories that agree on finite arguments, end with equal results. -/
theorem algebraic : Cert.algebraic_KernelIdeal_ReferenceIdeal := by
  intro m ρ m' ρ' hpre hagree
  refine ⟨fun c => (fun i : Cert.KernelIdeal.S196608x1.Idx => Cert.KernelIdeal.Blocks.G m c (ix2 (0 : Fin 1) (i 0))),
    Cert.KernelIdeal.Run.result m ρ, ?_⟩
  refine (θ_run Cert.ReferenceIdeal.defs _ _).mono (fun r h c => ⟨(h c).1.trans ?_, (h c).2⟩)
    (Cert.ReferenceIdeal.Blocks.result m' ρ')
  funext i
  exact G_eq m m' c (hpre c) (hagree c) (i 0)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
